-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x16 : Shape := ⟨2, ![64, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S16x40 .f32) (main_arg6 : FVec F S16x40 .f32) (main_arg7 : FVec F S40 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x40 .f32 := Host.absf main_arg5
  let main_cst_6 : FVec F S_ .f32 := constant S_ .f32 0x7F800000#32
  let main_v20 : FVec F S16x40 .f32 := broadcastInDim S16x40 ![] bcast_S_S16x40 main_cst_6
  let main_v21 : IVec S16x40 1 := cmpf .olt main_v19 main_v20
  let main_c_7 : IVec S_ 1 := constantI S_ 1 1#1
  let main_v22 : IVec S_ 1 := (fun x v => Host.reduce IntOp.andi x v reducesTo_S16x40_S_d0_1 h_S_) main_v21 main_c_7
  let main_v23 : IVec S_ 1 := andi main_v18 main_v22
  let main_v24 : FVec F S16x40 .f32 := Host.absf main_arg6
  let main_cst_8 : FVec F S_ .f32 := constant S_ .f32 0x7F800000#32
  let main_v25 : FVec F S16x40 .f32 := broadcastInDim S16x40 ![] bcast_S_S16x40 main_cst_8
  let main_v26 : IVec S16x40 1 := cmpf .olt main_v24 main_v25
  let main_c_9 : IVec S_ 1 := constantI S_ 1 1#1
  let main_v27 : IVec S_ 1 := (fun x v => Host.reduce IntOp.andi x v reducesTo_S16x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x64 .f32) (main_arg1 : IVec S2x1200000 32) (main_arg2 : FVec F S64x16 .f32) (main_arg3 : FVec F S64x16 .f32) (main_arg4 : FVec F S16 .f32) (main_arg5 : FVec F S16x40 .f32) (main_arg6 : FVec F S16x40 .f32) (main_arg7 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x16 .f32 := Host.absf main_arg2
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S64x16 .f32 := Host.absf main_arg3
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_v13 main_v16
-- ==== Kernel.lean ====
abbrev S100000x64 : Shape := ⟨2, ![100000, 64]⟩
abbrev S2x1200000 : Shape := ⟨2, ![2, 1200000]⟩
abbrev S64x16 : Shape := ⟨2, ![64, 16]⟩
abbrev S16 : Shape := ⟨1, ![16]⟩
abbrev S16x40 : Shape := ⟨2, ![16, 40]⟩
abbrev S40 : Shape := ⟨1, ![40]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1x16 : Shape := ⟨2, ![1, 16]⟩
abbrev S1x40 : Shape := ⟨2, ![1, 40]⟩
abbrev S100000x16 : Shape := ⟨2, ![100000, 16]⟩
abbrev S10000x64 : Shape := ⟨2, ![10000, 64]⟩
abbrev S10000x16 : Shape := ⟨2, ![10000, 16]⟩
abbrev S1200000x16 : Shape := ⟨2, ![1200000, 16]⟩
abbrev S5000x16 : Shape := ⟨2, ![5000, 16]⟩
abbrev S5000x1 : Shape := ⟨2, ![5000, 1]⟩
abbrev S100000x40 : Shape := ⟨2, ![100000, 40]⟩
abbrev S5000x40 : Shape := ⟨2, ![5000, 40]⟩
abbrev S5000 : Shape := ⟨1, ![5000]⟩

abbrev nBuf : Space → Nat
  | .hbm => 59
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x16, .f32⟩
  | .hbm, ⟨3, _⟩ => ⟨S64x16, .f32⟩
  | .hbm, ⟨4, _⟩ => ⟨S16, .f32⟩
  | .hbm, ⟨5, _⟩ => ⟨S16x40, .f32⟩
  | .hbm, ⟨6, _⟩ => ⟨S16x40, .f32⟩
  | .hbm, ⟨7, _⟩ => ⟨S40, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .f32⟩
  | .hbm, ⟨13, _⟩ => ⟨S1200000, .f32⟩
  | .hbm, ⟨14, _⟩ => ⟨S_, .f32⟩
  | .hbm, ⟨15, _⟩ => ⟨S100000, .f32⟩
  | .hbm, ⟨16, _⟩ => ⟨S1200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S1x16, .f32⟩
  | .hbm, ⟨26, _⟩ => ⟨S1x40, .f32⟩
  | .hbm, ⟨27, _⟩ => ⟨S100000x16, .f32⟩
  | .hbm, ⟨28, _⟩ => ⟨S100000x16, .bf16⟩
  | .hbm, ⟨29, _⟩ => ⟨S_, .i32⟩
  | .hbm, ⟨30, _⟩ => ⟨S1200000, .i32⟩
  | .hbm, ⟨31, _⟩ => ⟨S1200000, .i1⟩
  | .hbm, ⟨32, _⟩ => ⟨S_, .i32⟩
  | .hbm, ⟨33, _⟩ => ⟨S1200000, .i32⟩
  | .hbm, ⟨34, _⟩ => ⟨S1200000, .i32⟩
  | .hbm, ⟨35, _⟩ => ⟨S1200000, .i32⟩
  | .hbm, ⟨36, _⟩ => ⟨S1200000x1, .i32⟩
  | .hbm, ⟨37, _⟩ => ⟨S1200000x16, .bf16⟩
  | .hbm, ⟨38, _⟩ => ⟨S1200000x16, .f32⟩
  | .hbm, ⟨39, _⟩ => ⟨S_, .f32⟩
  | .hbm, ⟨40, _⟩ => ⟨S100000x16, .f32⟩
  | .hbm, ⟨41, _⟩ => ⟨S1200000x1, .i32⟩
  | .hbm, ⟨42, _⟩ => ⟨S100000x16, .f32⟩
  | .hbm, ⟨43, _⟩ => ⟨S100000x16, .bf16⟩
  | .hbm, ⟨44, _⟩ => ⟨S_, .i32⟩
  | .hbm, ⟨45, _⟩ => ⟨S1200000, .i32⟩
  | .hbm, ⟨46, _⟩ => ⟨S1200000, .i1⟩
  | .hbm, ⟨47, _⟩ => ⟨S_, .i32⟩
  | .hbm, ⟨48, _⟩ => ⟨S1200000, .i32⟩
  | .hbm, ⟨49, _⟩ => ⟨S1200000, .i32⟩
  | .hbm, ⟨50, _⟩ => ⟨S1200000, .i32⟩
  | .hbm, ⟨51, _⟩ => ⟨S1200000x1, .i32⟩
  | .hbm, ⟨52, _⟩ => ⟨S1200000x16, .bf16⟩
  | .hbm, ⟨53, _⟩ => ⟨S1200000x16, .f32⟩
  | .hbm, ⟨54, _⟩ => ⟨S_, .f32⟩
  | .hbm, ⟨55, _⟩ => ⟨S100000x16, .f32⟩
  | .hbm, ⟨56, _⟩ => ⟨S1200000x1, .i32⟩
  | .hbm, ⟨57, _⟩ => ⟨S100000x16, .f32⟩
  | .hbm, ⟨58, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S64x16, .f32⟩
  | .local _ .vmem, ⟨3, _⟩ => ⟨S64x16, .f32⟩
  | .local _ .vmem, ⟨4, _⟩ => ⟨S10000x16, .f32⟩
  | .local _ .vmem, ⟨5, _⟩ => ⟨S10000x16, .f32⟩
  | .local _ .vmem, ⟨6, _⟩ => ⟨S10000x16, .bf16⟩
  | .local _ .vmem, ⟨7, _⟩ => ⟨S10000x16, .bf16⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S1x16, .f32⟩
  | .local _ .vmem, ⟨13, _⟩ => ⟨S5000x1, .f32⟩
  | .local _ .vmem, ⟨14, _⟩ => ⟨S5000x1, .f32⟩
  | .local _ .vmem, ⟨15, _⟩ => ⟨S5000x16, .bf16⟩
  | .local _ .vmem, ⟨16, _⟩ => ⟨S5000x16, .bf16⟩
  | .local _ .vmem, ⟨17, _⟩ => ⟨S5000x16, .bf16⟩
  | .local _ .vmem, ⟨18, _⟩ => ⟨S5000x16, .bf16⟩
  | .local _ .vmem, ⟨19, _⟩ => ⟨S5000x16, .f32⟩
  | .local _ .vmem, ⟨20, _⟩ => ⟨S5000x16, .f32⟩
  | .local _ .vmem, ⟨21, _⟩ => ⟨S16x40, .f32⟩
  | .local _ .vmem, ⟨22, _⟩ => ⟨S16x40, .f32⟩
  | .local _ .vmem, ⟨23, _⟩ => ⟨S1x40, .f32⟩
  | .local _ .vmem, ⟨24, _⟩ => ⟨S5000x1, .f32⟩
  | .local _ .vmem, ⟨25, _⟩ => ⟨S5000x1, .f32⟩
  | .local _ .vmem, ⟨26, _⟩ => ⟨S5000x40, .f32⟩
  | .local _ .vmem, ⟨27, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x16 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x40 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S100000_S100000x1 : S100000.ShapeCasts S100000x1
  shapeCasts_S16_S1x16 : S16.ShapeCasts S1x16
  shapeCasts_S40_S1x40 : S40.ShapeCasts S1x40
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  packedbf16_S10000x16_S10000x16_0_0 : (Rect.unit (s := S10000x16) ![0, 0] S10000x16.size inb_S10000x16_S10000x16_0_0).PackedRows (EltTy.packing .bf16)
  bcast_S_S100000x16 : S_.BroadcastsInDim S100000x16 (![] : Fin 0 → Fin S100000x16.rank)
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  packedbf16_S5000x16_S5000x16_0_0 : (Rect.unit (s := S5000x16) ![0, 0] S5000x16.size inb_S5000x16_S5000x16_0_0).PackedRows (EltTy.packing .bf16)
  inb_S16x40_S16x40_0_0 : ∀ a, (![0, 0] : Fin 2 → Nat) a + S16x40.size a ≤ S16x40.size a
  h_S16x40 : 0 < S16x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1200000x1_S1200000_n_0_0_1_wf : ScatterDims.WF S100000 S1200000x1 S1200000 [] [0] [0] 1
  dot_S10000x64_S64x16_S10000x16_1_0_0_1_n_n_wf : DotDims.WF S10000x64 S64x16 S10000x16 [1] [0] [0] [1] [] []
  gather_S100000x16_S1200000x1_S1200000x16_1_0_n_n_0_1_116_wf : GatherDims.WF S100000x16 S1200000x1 S1200000x16 [1] [0] [] [0] [] 1 ![1, 16]
  scatter_S100000x16_S1200000x1_S1200000x16_1_0_0_1_wf : ScatterDims.WF S100000x16 S1200000x1 S1200000x16 [1] [0] [0] 1
  dot_S5000x16_S16x40_S5000x40_1_0_0_1_n_n_wf : DotDims.WF S5000x16 S16x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S100000x16.size a
  hwx0_3 : ∀ i : grid0.Coords, EltTy.bits .f32 = 32 ∨ (Rect.block (s := S100000x16) S10000x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x16.size a ≤ S100000x16.size a
  hwx0_4 : ∀ i : grid0.Coords, EltTy.bits .bf16 = 32 ∨ (Rect.block (s := S100000x16) S10000x16.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S100000x16.size a
  hwx1_4 : ∀ i : grid1.Coords, EltTy.bits .bf16 = 32 ∨ (Rect.block (s := S100000x16) S5000x16.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .bf16 = 32 ∨ (Rect.block (s := S100000x16) S5000x16.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S100000x16.size a
  hwx2_1 : ∀ i : grid2.Coords, EltTy.bits .f32 = 32 ∨ (Rect.block (s := S100000x16) S5000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x40.size a ≤ S16x40.size a
  hwx2_2 : ∀ i : grid2.Coords, EltTy.bits .f32 = 32 ∨ (Rect.block (s := S16x40) S16x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x40.size a ≤ S16x40.size a
  hwx2_3 : ∀ i : grid2.Coords, EltTy.bits .f32 = 32 ∨ (Rect.block (s := S16x40) S16x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S100000x1.size a
  hwx2_5 : ∀ i : grid2.Coords, EltTy.bits .f32 = 32 ∨ (Rect.block (s := S100000x1) S5000x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x40.size a ≤ S100000x40.size a
  hwx2_6 : ∀ i : grid2.Coords, EltTy.bits .f32 = 32 ∨ (Rect.block (s := S100000x40) S5000x40.size (cc2_transform_6 i) (hinb2_6 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1200000x1_S1200000x16_1_0_n_n_0_1_116 : GatherDims S100000x16 S1200000x1 S1200000x16 where
  offsetDims := [1]
  collapsedSliceDims := [0]
  operandBatchingDims := []
  startIndicesBatchingDims := []
  startIndexMap := [0]
  indexVectorDim := 1
  sliceSizes := ![1, 16]
  wf := gather_S100000x16_S1200000x1_S1200000x16_1_0_n_n_0_1_116_wf
def scatter_S100000x16_S1200000x1_S1200000x16_1_0_0_1 : ScatterDims S100000x16 S1200000x1 S1200000x16 where
  updateWindowDims := [1]
  insertedWindowDims := [0]
  scatterDimsToOperandDims := [0]
  indexVectorDim := 1
  wf := scatter_S100000x16_S1200000x1_S1200000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S10000x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S10000x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15_0) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S16x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S16x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S5000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v39) S5000x40.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x16 : Shape := ⟨2, ![64, 16]⟩
abbrev S16 : Shape := ⟨1, ![16]⟩
abbrev S16x40 : Shape := ⟨2, ![16, 40]⟩
abbrev S40 : Shape := ⟨1, ![40]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S100000x1 : Shape := ⟨2, ![100000, 1]⟩
abbrev S100000x16 : Shape := ⟨2, ![100000, 16]⟩
abbrev S1x16 : Shape := ⟨2, ![1, 16]⟩
abbrev S1200000x16 : Shape := ⟨2, ![1200000, 16]⟩
abbrev S100000x40 : Shape := ⟨2, ![100000, 40]⟩
abbrev S1x40 : Shape := ⟨2, ![1, 40]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x16, .f32⟩
  | .hbm, ⟨3, _⟩ => ⟨S64x16, .f32⟩
  | .hbm, ⟨4, _⟩ => ⟨S16, .f32⟩
  | .hbm, ⟨5, _⟩ => ⟨S16x40, .f32⟩
  | .hbm, ⟨6, _⟩ => ⟨S16x40, .f32⟩
  | .hbm, ⟨7, _⟩ => ⟨S40, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .f32⟩
  | .hbm, ⟨13, _⟩ => ⟨S1200000, .f32⟩
  | .hbm, ⟨14, _⟩ => ⟨S_, .f32⟩
  | .hbm, ⟨15, _⟩ => ⟨S100000, .f32⟩
  | .hbm, ⟨16, _⟩ => ⟨S1200000x1, .i32⟩
  | .hbm, ⟨17, _⟩ => ⟨S100000, .f32⟩
  | .hbm, ⟨18, _⟩ => ⟨S_, .i32⟩
  | .hbm, ⟨19, _⟩ => ⟨S1200000, .i32⟩
  | .hbm, ⟨20, _⟩ => ⟨S1200000, .i1⟩
  | .hbm, ⟨21, _⟩ => ⟨S_, .i32⟩
  | .hbm, ⟨22, _⟩ => ⟨S1200000, .i32⟩
  | .hbm, ⟨23, _⟩ => ⟨S1200000, .i32⟩
  | .hbm, ⟨24, _⟩ => ⟨S1200000, .i32⟩
  | .hbm, ⟨25, _⟩ => ⟨S1200000x1, .i32⟩
  | .hbm, ⟨26, _⟩ => ⟨S1200000x64, .f32⟩
  | .hbm, ⟨27, _⟩ => ⟨S_, .f32⟩
  | .hbm, ⟨28, _⟩ => ⟨S100000x64, .f32⟩
  | .hbm, ⟨29, _⟩ => ⟨S1200000x1, .i32⟩
  | .hbm, ⟨30, _⟩ => ⟨S100000x64, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x16, .f32⟩
  | .hbm, ⟨38, _⟩ => ⟨S100000x16, .f32⟩
  | .hbm, ⟨39, _⟩ => ⟨S100000x16, .f32⟩
  | .hbm, ⟨40, _⟩ => ⟨S1x16, .f32⟩
  | .hbm, ⟨41, _⟩ => ⟨S100000x16, .f32⟩
  | .hbm, ⟨42, _⟩ => ⟨S100000x16, .f32⟩
  | .hbm, ⟨43, _⟩ => ⟨S_, .f32⟩
  | .hbm, ⟨44, _⟩ => ⟨S100000x16, .f32⟩
  | .hbm, ⟨45, _⟩ => ⟨S100000x16, .f32⟩
  | .hbm, ⟨46, _⟩ => ⟨S_, .f32⟩
  | .hbm, ⟨47, _⟩ => ⟨S1200000, .f32⟩
  | .hbm, ⟨48, _⟩ => ⟨S_, .f32⟩
  | .hbm, ⟨49, _⟩ => ⟨S100000, .f32⟩
  | .hbm, ⟨50, _⟩ => ⟨S1200000x1, .i32⟩
  | .hbm, ⟨51, _⟩ => ⟨S100000, .f32⟩
  | .hbm, ⟨52, _⟩ => ⟨S_, .i32⟩
  | .hbm, ⟨53, _⟩ => ⟨S1200000, .i32⟩
  | .hbm, ⟨54, _⟩ => ⟨S1200000, .i1⟩
  | .hbm, ⟨55, _⟩ => ⟨S_, .i32⟩
  | .hbm, ⟨56, _⟩ => ⟨S1200000, .i32⟩
  | .hbm, ⟨57, _⟩ => ⟨S1200000, .i32⟩
  | .hbm, ⟨58, _⟩ => ⟨S1200000, .i32⟩
  | .hbm, ⟨59, _⟩ => ⟨S1200000x1, .i32⟩
  | .hbm, ⟨60, _⟩ => ⟨S1200000x16, .f32⟩
  | .hbm, ⟨61, _⟩ => ⟨S_, .f32⟩
  | .hbm, ⟨62, _⟩ => ⟨S100000x16, .f32⟩
  | .hbm, ⟨63, _⟩ => ⟨S1200000x1, .i32⟩
  | .hbm, ⟨64, _⟩ => ⟨S100000x16, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x16, .f32⟩
  | .hbm, ⟨70, _⟩ => ⟨S100000x16, .f32⟩
  | .hbm, ⟨71, _⟩ => ⟨S100000x40, .f32⟩
  | .hbm, ⟨72, _⟩ => ⟨S100000x40, .f32⟩
  | .hbm, ⟨73, _⟩ => ⟨S100000x40, .f32⟩
  | .hbm, ⟨74, _⟩ => ⟨S1x40, .f32⟩
  | .hbm, ⟨75, _⟩ => ⟨S100000x40, .f32⟩
  | .hbm, ⟨76, _⟩ => ⟨S100000x40, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x40, .f32⟩
  | .hbm, ⟨84, _⟩ => ⟨S100000x40, .f32⟩
  | .hbm, ⟨85, _⟩ => ⟨S100000x40, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x40, .f32⟩
  | .hbm, ⟨91, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x16_S100000x16_1_0_0_1_n_n_wf : DotDims.WF S100000x64 S64x16 S100000x16 [1] [0] [0] [1] [] []
  gather_S100000x16_S1200000x1_S1200000x16_1_0_n_n_0_1_116_wf : GatherDims.WF S100000x16 S1200000x1 S1200000x16 [1] [0] [] [0] [] 1 ![1, 16]
  scatter_S100000x16_S1200000x1_S1200000x16_1_0_0_1_wf : ScatterDims.WF S100000x16 S1200000x1 S1200000x16 [1] [0] [0] 1
  dot_S100000x16_S16x40_S100000x40_1_0_0_1_n_n_wf : DotDims.WF S100000x16 S16x40 S100000x40 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1200000x1_S1200000x16_1_0_n_n_0_1_116 : GatherDims S100000x16 S1200000x1 S1200000x16 where
  offsetDims := [1]
  collapsedSliceDims := [0]
  operandBatchingDims := []
  startIndicesBatchingDims := []
  startIndexMap := [0]
  indexVectorDim := 1
  sliceSizes := ![1, 16]
  wf := gather_S100000x16_S1200000x1_S1200000x16_1_0_n_n_0_1_116_wf
def scatter_S100000x16_S1200000x1_S1200000x16_1_0_0_1 : ScatterDims S100000x16 S1200000x1 S1200000x16 where
  updateWindowDims := [1]
  insertedWindowDims := [0]
  scatterDimsToOperandDims := [0]
  indexVectorDim := 1
  wf := scatter_S100000x16_S1200000x1_S1200000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf

class Facts : Prop extends Facts₀ where

variable [Facts]
-- ==== Proof.KRun.lean ====
/-
  The idealized kernel's run, with its result named.

  The program is three launches of a kernel over a grid of row blocks, among stretches of host operations. Its run is
  the generated launch over those six segments; the thread state it ends in holds every buffer that outlives a launch
  at the contents the fold through the segments gives it. Here that final state is read at the result buffer as well as
  at the eight argument buffers: the result array ends at the fold's value, the arguments end as they were launched.
-/
import proofs.«106231_j40518721470745_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the value the
    fold through the six segments gives the result buffer, and the argument arrays end as launched. -/
theorem run_result : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.KRun

end
-- ==== Proof.Spec.lean ====
/-
  A two-layer network on a graph whose layers average each node's in-neighbours, written entry by entry on the
  extended reals.

  The graph is a list of 1200000 edges given as two columns of row numbers: edge `e` is sent to node `n` when its
  destination number, read signed, is `n` (a number outside `[0, 100000)` is sent nowhere), and it reads the row
  `srcRow e`: its source number, read signed and clamped into `[0, 99999]`. For a matrix `v` of node rows,
  `aggr v n k` is the sum over the edges sent to `n` of entry `k` of the row each reads; `deg n` counts those edges
  and `dmax n` is that count, at least one.

  A layer is  v ↦ v·Wself + mean(v)·Wneigh + b  with mean(v) n = aggr v n / dmax n.  The same layer is written in two
  arrangements: the first divides the sum of rows by the count and then multiplies by Wneigh; the second (layer one
  only) multiplies every row by Wneigh first, adds the products up along the edges, and scales by the reciprocal of
  the count. Layer two differs only in dividing by the count against multiplying by its reciprocal. The network is
  layer one, the positive part, layer two, and a log-softmax of each row of 40 entries.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- A column of 1200000 row numbers, one per edge. -/
abbrev Col : Type := IVec (⟨2, ![1200000, 1]⟩ : Shape) 32

/-- The number one as both programs spell it. -/
abbrev c1 : EReal := Ideal.ofBits .f32 0x3F800000#32

/-- The row of a node matrix that edge `e` reads: its source number, signed, clamped into `[0, 99999]`. -/
def srcRow (sc : Col) (e : Fin 1200000) : Fin 100000 :=
  ⟨min (sc (ix2 e (0 : Fin 1))).toInt.toNat (100000 - 1), by omega⟩

/-- How many edges are sent to node `n`. -/
def deg (dc : Col) (n : Fin 100000) : EReal :=
  0 + ∑ e : Fin 1200000, if (dc (ix2 e (0 : Fin 1))).toInt = (n.val : ℤ) then c1 else 0

/-- That count, at least one. -/
def dmax (dc : Col) (n : Fin 100000) : EReal := max (deg dc n) c1

/-- Entry `k` of the sum, over the edges sent to node `n`, of the row of `v` each edge reads. -/
def aggr {B : ℕ} (sc dc : Col) (v : FVec Ideal (⟨2, ![100000, B]⟩ : Shape) .f32) (n : Fin 100000) (k : Fin B) : EReal :=
  0 + ∑ e : Fin 1200000, if (dc (ix2 e (0 : Fin 1))).toInt = (n.val : ℤ) then v (ix2 (srcRow sc e) k) else 0

/-- Entry `(n, j)` of the matrix product `l · r`. -/
def lin {a k b : ℕ} (l : FVec Ideal (⟨2, ![a, k]⟩ : Shape) .f32) (r : FVec Ideal (⟨2, ![k, b]⟩ : Shape) .f32)
    (n : Fin a) (j : Fin b) : EReal :=
  ∑ q : Fin k, l (ix2 n q) * r (ix2 q j)

/-- The product `x · W` as a matrix. -/
def linM {a k b : ℕ} (l : FVec Ideal (⟨2, ![a, k]⟩ : Shape) .f32) (r : FVec Ideal (⟨2, ![k, b]⟩ : Shape) .f32) :
    FVec Ideal (⟨2, ![a, b]⟩ : Shape) .f32 :=
  fun i => lin l r (i 0) (i 1)

section Layers
variable (sc dc : Col)

/-! ## Layer one -/

/-- Layer one then the positive part, first arrangement: average the rows of `x`, then multiply by `W1n`. -/
def hRefAt (x : FVec Ideal (⟨2, ![100000, 64]⟩ : Shape) .f32) (W1s W1n : FVec Ideal (⟨2, ![64, 16]⟩ : Shape) .f32)
    (b1 : FVec Ideal (⟨1, ![16]⟩ : Shape) .f32) (n : Fin 100000) (j : Fin 16) : EReal :=
  max ((lin x W1s n j + ∑ q : Fin 64, Ideal.div (aggr sc dc x n q) (dmax dc n) * W1n (ix2 q j)) + b1 (ix1 j)) 0

/-- Layer one then the positive part, second arrangement: multiply every row by `W1n`, add up along the edges,
    scale by the reciprocal of the count. -/
def hKerAt (x : FVec Ideal (⟨2, ![100000, 64]⟩ : Shape) .f32) (W1s W1n : FVec Ideal (⟨2, ![64, 16]⟩ : Shape) .f32)
    (b1 : FVec Ideal (⟨1, ![16]⟩ : Shape) .f32) (n : Fin 100000) (j : Fin 16) : EReal :=
  max ((lin x W1s n j + aggr sc dc (linM x W1n) n j * Ideal.div c1 (dmax dc n)) + b1 (ix1 j)) 0

def hRef (x : FVec Ideal (⟨2, ![100000, 64]⟩ : Shape) .f32) (W1s W1n : FVec Ideal (⟨2, ![64, 16]⟩ : Shape) .f32)
    (b1 : FVec Ideal (⟨1, ![16]⟩ : Shape) .f32) : FVec Ideal (⟨2, ![100000, 16]⟩ : Shape) .f32 :=
  fun i => hRefAt sc dc x W1s W1n b1 (i 0) (i 1)

def hKer (x : FVec Ideal (⟨2, ![100000, 64]⟩ : Shape) .f32) (W1s W1n : FVec Ideal (⟨2, ![64, 16]⟩ : Shape) .f32)
    (b1 : FVec Ideal (⟨1, ![16]⟩ : Shape) .f32) : FVec Ideal (⟨2, ![100000, 16]⟩ : Shape) .f32 :=
  fun i => hKerAt sc dc x W1s W1n b1 (i 0) (i 1)

/-! ## Layer two -/

/-- Layer two, dividing the sum of rows by the count. -/
def outRefAt (h : FVec Ideal (⟨2, ![100000, 16]⟩ : Shape) .f32) (W2s W2n : FVec Ideal (⟨2, ![16, 40]⟩ : Shape) .f32)
    (b2 : FVec Ideal (⟨1, ![40]⟩ : Shape) .f32) (n : Fin 100000) (j : Fin 40) : EReal :=
  (lin h W2s n j + ∑ q : Fin 16, Ideal.div (aggr sc dc h n q) (dmax dc n) * W2n (ix2 q j)) + b2 (ix1 j)

/-- Layer two, multiplying the sum of rows by the reciprocal of the count. -/
def outKerAt (h : FVec Ideal (⟨2, ![100000, 16]⟩ : Shape) .f32) (W2s W2n : FVec Ideal (⟨2, ![16, 40]⟩ : Shape) .f32)
    (b2 : FVec Ideal (⟨1, ![40]⟩ : Shape) .f32) (n : Fin 100000) (j : Fin 40) : EReal :=
  (lin h W2s n j + ∑ q : Fin 16, (aggr sc dc h n q * Ideal.div c1 (dmax dc n)) * W2n (ix2 q j)) + b2 (ix1 j)

end Layers

/-! ## The log-softmax of a row of 40 entries -/

/-- The largest entry of a row (from minus infinity). -/
def rowMax (o : Fin 40 → EReal) : EReal :=
  (Finset.univ : Finset (Fin 40)).fold max (Ideal.ofBits .f32 0xFF800000#32) o

/-- Entry `j` of the log-softmax of a row: the entry less the row's maximum, less the logarithm of the sum of the
    exponentials of all the entries less the maximum. -/
def lsmAt (o : Fin 40 → EReal) (j : Fin 40) : EReal :=
  (o j - rowMax o) - Ideal.log (∑ k : Fin 40, Ideal.exp (o k - rowMax o))

/-! ## The network, in the two arrangements -/

section Net
variable (sc dc : Col)
  (x : FVec Ideal (⟨2, ![100000, 64]⟩ : Shape) .f32) (W1s W1n : FVec Ideal (⟨2, ![64, 16]⟩ : Shape) .f32)
  (b1 : FVec Ideal (⟨1, ![16]⟩ : Shape) .f32) (W2s W2n : FVec Ideal (⟨2, ![16, 40]⟩ : Shape) .f32)
  (b2 : FVec Ideal (⟨1, ![40]⟩ : Shape) .f32)

def netRefAt (n : Fin 100000) (j : Fin 40) : EReal :=
  lsmAt (fun j' => outRefAt sc dc (hRef sc dc x W1s W1n b1) W2s W2n b2 n j') j

def netKerAt (n : Fin 100000) (j : Fin 40) : EReal :=
  lsmAt (fun j' => outKerAt sc dc (hKer sc dc x W1s W1n b1) W2s W2n b2 n j') j

def netRef : FVec Ideal (⟨2, ![100000, 40]⟩ : Shape) .f32 := fun i => netRefAt sc dc x W1s W1n b1 W2s W2n b2 (i 0) (i 1)

def netKer : FVec Ideal (⟨2, ![100000, 40]⟩ : Shape) .f32 := fun i => netKerAt sc dc x W1s W1n b1 W2s W2n b2 (i 0) (i 1)

end Net

end Cert.Sage

end
-- ==== Proof.LibRows.lean ====
/-
  Looking rows up and adding rows up, read at an index. General in the extents; nothing here mentions a program.

  `x[idx]` for a matrix `x : [A, B]` and a list of `N` row numbers lowers to a gather whose start indices are the
  row numbers as a column `[N, 1]`: row `e` of the result is row `idx e` of `x`, the row number read signed and
  clamped into `[0, A - 1]` (`rowGather_apply`). The transposed operation, adding row `e` of the updates `[N, B]` into
  row `idx e` of the operand, is an accumulating scatter with the same column of row numbers: entry `(i, c)` of the
  result is the operand's entry plus the sum of the updates' entries `(e, c)` over the rows `e` sent to `i`
  (`rowScatterAdd_apply`); an update whose row number is outside `[0, A)` is dropped, which the formula says by
  comparing the signed row number with `i`. `vecScatterAdd_apply` is the same for a vector of updates `[N]` added into
  a vector `[A]`.
-/
import Idealize.ShloMosaic.PureOps.Ideal
import Idealize.ShloMosaic.PureOps.Ideal.Laws
import Idealize.ShloMosaic.Lib.ValueIdx

noncomputable section

open scoped BigOperators

namespace Cert.LibRows

open Idealize.ShloMosaic Idealize.ShloMosaic.ValueIdx

/-- The two axes of a matrix are different. -/
theorem axis_one_ne_zero : ¬ ((1 : Fin 2) = 0) := by decide
theorem axis_zero_ne_one : ¬ ((0 : Fin 2) = 1) := by decide

/-! ## Looking rows up -/

/-- The dimension numbers of `x[idx]` along axis 0 of a matrix. -/
abbrev rowGatherDims (A B N : ℕ)
    (wf : GatherDims.WF ⟨2, ![A, B]⟩ ⟨2, ![N, 1]⟩ ⟨2, ![N, B]⟩ [1] [0] [] [0] [] 1 ![1, B]) :
    GatherDims ⟨2, ![A, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- Entry `(e, c)` of the looked-up rows is entry `c` of the row whose number is `idx e`, read signed and clamped. -/
theorem rowGather_apply {α : Type} {A B N w : ℕ} (hA : 0 < A)
    (wf : GatherDims.WF ⟨2, ![A, B]⟩ ⟨2, ![N, 1]⟩ ⟨2, ![N, B]⟩ [1] [0] [] [0] [] 1 ![1, B])
    (x : (⟨2, ![A, B]⟩ : Shape).Idx → α) (idx : IVec ⟨2, ![N, 1]⟩ w) (e : Fin N) (c : Fin B) :
    Host.gather (rowGatherDims A B N wf) x idx (ix2 e c)
      = x (ix2 ⟨min (idx (ix2 e (0 : Fin 1))).toInt.toNat (A - 1), by omega⟩ c) := by
  unfold Host.gather
  congr 1
  funext a
  refine Fin.ext ?_
  match a with
  | ⟨0, _⟩ =>
    show (rowGatherDims A B N wf).start (ix2 e c) idx 0 + (rowGatherDims A B N wf).batchCoord (ix2 e c) 0
      + (rowGatherDims A B N wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims A B N wf).startIndexMap from List.mem_singleton.mpr rfl)]
    have hsi : (rowGatherDims A B N wf).siIdx (ix2 e c) ⟨List.idxOf (0 : Fin 2) (rowGatherDims A B N wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims A B N wf).start (ix2 e c) idx 1 + (rowGatherDims A B N wf).batchCoord (ix2 e c) 1
      + (rowGatherDims A B N wf).offCoord (ix2 e c) 1 = c.val
    rw [GatherDims.batchCoord_eq_zero _ _ _ List.not_mem_nil]
    have hs : (rowGatherDims A B N wf).start (ix2 e c) idx 1 = 0 := by
      unfold GatherDims.start
      rw [dif_neg (fun h => axis_one_ne_zero (List.mem_singleton.mp h))]
    rw [hs]
    simp only [Nat.zero_add, Nat.add_zero]
    unfold GatherDims.offCoord
    rw [dif_pos ((GatherDims.mem_sKept _ _).mpr ⟨fun h => axis_one_ne_zero (List.mem_singleton.mp h), List.not_mem_nil⟩)]
    rfl

/-! ## Adding rows up -/

/-- The dimension numbers of `x.at[idx].add(upd)` along axis 0 of a matrix. -/
abbrev rowScatterDims (A B N : ℕ) (wf : ScatterDims.WF ⟨2, ![A, B]⟩ ⟨2, ![N, 1]⟩ ⟨2, ![N, B]⟩ [1] [0] [0] 1) :
    ScatterDims ⟨2, ![A, B]⟩ ⟨2, ![N, 1]⟩ ⟨2, ![N, B]⟩ where
  updateWindowDims := [1]
  insertedWindowDims := [0]
  scatterDimsToOperandDims := [0]
  indexVectorDim := 1
  wf := wf

section RowScatter
variable {A B N w : ℕ} (wf : ScatterDims.WF ⟨2, ![A, B]⟩ ⟨2, ![N, 1]⟩ ⟨2, ![N, B]⟩ [1] [0] [0] 1)
  (idx : IVec ⟨2, ![N, 1]⟩ w) (e : Fin N) (c : Fin B)

/-- Update row `e` starts at operand row `idx e` (signed) … -/
theorem rowScatter_start0 : (rowScatterDims A B N wf).start (ix2 e c) idx 0 = (idx (ix2 e (0 : Fin 1))).toInt := by
  unfold ScatterDims.start
  rw [dif_pos (show (0 : Fin 2) ∈ (rowScatterDims A B N wf).scatterDimsToOperandDims from List.mem_singleton.mpr rfl)]
  have hsi : (rowScatterDims A B N wf).siIdx (ix2 e c) ⟨List.idxOf (0 : Fin 2) (rowScatterDims A B N wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and at operand column 0; -/
theorem rowScatter_start1 : (rowScatterDims A B N wf).start (ix2 e c) idx 1 = 0 := by
  unfold ScatterDims.start
  rw [dif_neg (fun h => axis_one_ne_zero (List.mem_singleton.mp h))]

/-- inside its window it sits at row 0 … -/
theorem rowScatter_window0 : (rowScatterDims A B N wf).window (ix2 e c) 0 = 0 := by
  have hk : (rowScatterDims A B N wf).sKept = [1] := rfl
  unfold ScatterDims.window
  rw [dif_neg (by rw [hk]; exact fun h => axis_zero_ne_one (List.mem_singleton.mp h))]

/-- … and column `c`. -/
theorem rowScatter_window1 : (rowScatterDims A B N wf).window (ix2 e c) 1 = c.val := by
  have hk : (rowScatterDims A B N wf).sKept = [1] := rfl
  unfold ScatterDims.window
  rw [dif_pos (by rw [hk]; exact List.mem_singleton.mpr rfl)]
  rfl

/-- So update entry `(e, c)` lands on operand entry `(i, c')` exactly when its row number is `i` and `c = c'`. -/
theorem rowScatter_lands_iff (i : Fin A) (c' : Fin B) :
    (rowScatterDims A B N wf).resultIdx? (ix2 e c) idx = some (ix2 i c')
      ↔ (idx (ix2 e (0 : Fin 1))).toInt = (i.val : ℤ) ∧ c = c' := by
  unfold ScatterDims.resultIdx?
  have hi := i.isLt; have hc := c.isLt; have hc' := c'.isLt
  split
  · rename_i h
    constructor
    · intro hs
      have hs' := Option.some.inj hs
      have e0 := congrArg (fun f => (f 0).val) hs'
      have e1 := congrArg (fun f => (f 1).val) hs'
      simp only [rowScatter_start0, rowScatter_start1, rowScatter_window0, rowScatter_window1] at e0 e1
      have h0 := (h 0).1
      rw [rowScatter_start0, rowScatter_window0] at h0
      refine ⟨?_, Fin.ext ?_⟩
      · change (_ : ℤ).toNat = i.val at e0; omega
      · change (_ : ℤ).toNat = c'.val at e1; omega
    · rintro ⟨h0, rfl⟩
      congr 1
      funext a
      refine Fin.ext ?_
      match a with
      | ⟨0, _⟩ =>
        show ((rowScatterDims A B N wf).start (ix2 e c) idx 0 + ((rowScatterDims A B N wf).window (ix2 e c) 0 : ℤ)).toNat = i.val
        rw [rowScatter_start0, rowScatter_window0, h0]; omega
      | ⟨1, _⟩ =>
        show ((rowScatterDims A B N wf).start (ix2 e c) idx 1 + ((rowScatterDims A B N wf).window (ix2 e c) 1 : ℤ)).toNat = c.val
        rw [rowScatter_start1, rowScatter_window1]; omega
  · rename_i h
    constructor
    · intro hs; exact absurd hs (by simp)
    · rintro ⟨h0, rfl⟩
      exfalso; apply h
      intro a
      match a with
      | ⟨0, _⟩ =>
        show 0 ≤ (rowScatterDims A B N wf).start (ix2 e c) idx 0 + ((rowScatterDims A B N wf).window (ix2 e c) 0 : ℤ)
          ∧ (rowScatterDims A B N wf).start (ix2 e c) idx 0 + ((rowScatterDims A B N wf).window (ix2 e c) 0 : ℤ) < (A : ℤ)
        rw [rowScatter_start0, rowScatter_window0, h0]; omega
      | ⟨1, _⟩ =>
        show 0 ≤ (rowScatterDims A B N wf).start (ix2 e c) idx 1 + ((rowScatterDims A B N wf).window (ix2 e c) 1 : ℤ)
          ∧ (rowScatterDims A B N wf).start (ix2 e c) idx 1 + ((rowScatterDims A B N wf).window (ix2 e c) 1 : ℤ) < (B : ℤ)
        rw [rowScatter_start1, rowScatter_window1]; omega

end RowScatter

/-- Entry `(i, c)` after adding the rows up: the operand's entry plus the updates' entries `(e, c)` over the rows `e`
    whose number is `i`. -/
theorem rowScatterAdd_apply {A B N w : ℕ} (wf : ScatterDims.WF ⟨2, ![A, B]⟩ ⟨2, ![N, 1]⟩ ⟨2, ![N, B]⟩ [1] [0] [0] 1)
    (x : FVec Ideal ⟨2, ![A, B]⟩ .f32) (idx : IVec ⟨2, ![N, 1]⟩ w) (upd : FVec Ideal ⟨2, ![N, B]⟩ .f32) (i : Fin A) (c : Fin B) :
    Host.scatterAdd (rowScatterDims A B N wf) x idx upd (ix2 i c)
      = x (ix2 i c) + ∑ e : Fin N, if (idx (ix2 e (0 : Fin 1))).toInt = (i.val : ℤ) then upd (ix2 e c) else 0 := by
  show x (ix2 i c) + ∑ j ∈ Finset.univ.filter (fun j => (rowScatterDims A B N wf).resultIdx? j idx = some (ix2 i c)), upd j = _
  congr 1
  rw [Finset.sum_filter, sum_idx2]
  refine Finset.sum_congr rfl fun e _ => ?_
  by_cases he : (idx (ix2 e (0 : Fin 1))).toInt = (i.val : ℤ)
  · rw [if_pos he]
    rw [Finset.sum_eq_single c]
    · rw [if_pos ((rowScatter_lands_iff wf idx e c i c).2 ⟨he, rfl⟩)]
    · intro c2 _ hne
      rw [if_neg (fun h => hne ((rowScatter_lands_iff wf idx e c2 i c).1 h).2)]
    · intro h; exact absurd (Finset.mem_univ c) h
  · rw [if_neg he]
    refine Finset.sum_eq_zero fun c2 _ => ?_
    rw [if_neg (fun h => he ((rowScatter_lands_iff wf idx e c2 i c).1 h).1)]

/-! ## Adding entries up into a vector -/

/-- The dimension numbers of `x.at[idx].add(upd)` for vectors. -/
abbrev vecScatterDims (A N : ℕ) (wf : ScatterDims.WF ⟨1, ![A]⟩ ⟨2, ![N, 1]⟩ ⟨1, ![N]⟩ [] [0] [0] 1) :
    ScatterDims ⟨1, ![A]⟩ ⟨2, ![N, 1]⟩ ⟨1, ![N]⟩ where
  updateWindowDims := []
  insertedWindowDims := [0]
  scatterDimsToOperandDims := [0]
  indexVectorDim := 1
  wf := wf

/-- A sum over a rank-1 index set is the sum over its coordinate. -/
theorem sum_idx1 {M : Type*} [AddCommMonoid M] {n : ℕ} (f : (⟨1, ![n]⟩ : Shape).Idx → M) :
    ∑ y, f y = ∑ e : Fin n, f (ix1 e) :=
  Fintype.sum_equiv ⟨fun y => y 0, fun e => ix1 e, fun y => (eq_ix1 y).symm, fun _ => rfl⟩ _ _ fun y =>
    congrArg f (eq_ix1 y)

section VecScatter
variable {A N w : ℕ} (wf : ScatterDims.WF ⟨1, ![A]⟩ ⟨2, ![N, 1]⟩ ⟨1, ![N]⟩ [] [0] [0] 1)
  (idx : IVec ⟨2, ![N, 1]⟩ w) (e : Fin N)

/-- Update entry `e` starts at operand entry `idx e` (signed) … -/
theorem vecScatter_start0 : (vecScatterDims A N wf).start (ix1 e) idx 0 = (idx (ix2 e (0 : Fin 1))).toInt := by
  unfold ScatterDims.start
  rw [dif_pos (show (0 : Fin 1) ∈ (vecScatterDims A N wf).scatterDimsToOperandDims from List.mem_singleton.mpr rfl)]
  have hsi : (vecScatterDims A N wf).siIdx (ix1 e) ⟨List.idxOf (0 : Fin 1) (vecScatterDims A N wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and has no window coordinate. -/
theorem vecScatter_window0 : (vecScatterDims A N wf).window (ix1 e) 0 = 0 := by
  have hk : (vecScatterDims A N wf).sKept = [] := rfl
  unfold ScatterDims.window
  rw [dif_neg (by rw [hk]; exact List.not_mem_nil)]

/-- So update entry `e` lands on operand entry `i` exactly when its number is `i`. -/
theorem vecScatter_lands_iff (i : Fin A) :
    (vecScatterDims A N wf).resultIdx? (ix1 e) idx = some (ix1 i) ↔ (idx (ix2 e (0 : Fin 1))).toInt = (i.val : ℤ) := by
  unfold ScatterDims.resultIdx?
  have hi := i.isLt
  split
  · rename_i h
    constructor
    · intro hs
      have e0 := congrArg (fun f => (f 0).val) (Option.some.inj hs)
      simp only [vecScatter_start0, vecScatter_window0] at e0
      have h0 := (h 0).1
      rw [vecScatter_start0, vecScatter_window0] at h0
      change (_ : ℤ).toNat = i.val at e0; omega
    · intro h0
      congr 1
      funext a
      refine Fin.ext ?_
      match a with
      | ⟨0, _⟩ =>
        show ((vecScatterDims A N wf).start (ix1 e) idx 0 + ((vecScatterDims A N wf).window (ix1 e) 0 : ℤ)).toNat = i.val
        rw [vecScatter_start0, vecScatter_window0, h0]; omega
  · rename_i h
    constructor
    · intro hs; exact absurd hs (by simp)
    · intro h0
      exfalso; apply h
      intro a
      match a with
      | ⟨0, _⟩ =>
        show 0 ≤ (vecScatterDims A N wf).start (ix1 e) idx 0 + ((vecScatterDims A N wf).window (ix1 e) 0 : ℤ)
          ∧ (vecScatterDims A N wf).start (ix1 e) idx 0 + ((vecScatterDims A N wf).window (ix1 e) 0 : ℤ) < (A : ℤ)
        rw [vecScatter_start0, vecScatter_window0, h0]; omega

end VecScatter

/-- Entry `i` after adding the entries up: the operand's entry plus the updates `e` whose number is `i`. -/
theorem vecScatterAdd_apply {A N w : ℕ} (wf : ScatterDims.WF ⟨1, ![A]⟩ ⟨2, ![N, 1]⟩ ⟨1, ![N]⟩ [] [0] [0] 1)
    (x : FVec Ideal ⟨1, ![A]⟩ .f32) (idx : IVec ⟨2, ![N, 1]⟩ w) (upd : FVec Ideal ⟨1, ![N]⟩ .f32) (i : Fin A) :
    Host.scatterAdd (vecScatterDims A N wf) x idx upd (ix1 i)
      = x (ix1 i) + ∑ e : Fin N, if (idx (ix2 e (0 : Fin 1))).toInt = (i.val : ℤ) then upd (ix1 e) else 0 := by
  show x (ix1 i) + ∑ j ∈ Finset.univ.filter (fun j => (vecScatterDims A N wf).resultIdx? j idx = some (ix1 i)), upd j = _
  congr 1
  rw [Finset.sum_filter, sum_idx1]
  refine Finset.sum_congr rfl fun e _ => ?_
  by_cases he : (idx (ix2 e (0 : Fin 1))).toInt = (i.val : ℤ)
  · rw [if_pos he, if_pos ((vecScatter_lands_iff wf idx e i).2 he)]
  · rw [if_neg he, if_neg (fun h => he ((vecScatter_lands_iff wf idx e i).1 h))]

end Cert.LibRows

end
-- ==== Proof.LibColumn.lean ====
/-
  Two layout operations read at an index given by coordinates, for the "keep the reduced axis" idiom: a vector of
  row results `[a]` is cast to a column `[a, 1]` and the column is broadcast along the rows to `[a, b]`, so that
  every entry `(p, c)` of the result is the row result `p`. General in the extents; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to the column `[a, 1]` reads, at `(i, u)`, the vector's entry `i`: both have row-major
    position `i`, the unit coordinate `u` being `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`: the unit axis is read at
    `0`, the other axis at the result's own coordinate. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector of row results kept as a column and spread along the rows is, at `(p, c)`, the row
    result `p`. -/
theorem keepdims_apply {a b : ℕ} (x : (⟨1, ![a]⟩ : Shape).Idx → α)
    (h : (⟨1, ![a]⟩ : Shape).ShapeCasts ⟨2, ![a, 1]⟩) (h' : (⟨2, ![a, 1]⟩ : Shape).Broadcasts ⟨2, ![a, b]⟩)
    (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Cert.LibColumn
-- ==== Proof.KHost.lean ====
/-
  The host-side pieces of the idealized kernel program, as functions of the edge list, each read at an index.

  From the edge list (two rows of 1200000 numbers) the program cuts the source and the destination row, turns a
  negative source number into that number plus 100000, and keeps both as columns. Adding a one into a zero vector at
  every edge's destination counts the edges sent to each node (`degArr`); one over the larger of that count and one,
  kept as a column, is the factor a node's sum of neighbour rows is scaled by (`dinvCol`). Looking up, for every edge,
  the row of a node matrix its source names, and adding those rows into a zero matrix at the edges' destinations, gives
  every node the sum of the rows its in-neighbours hold (`aggArr`).

  Read at an index these are the specification's `deg`, `dmax` and `aggr` over the same two columns; what the
  columns hold is never opened.
-/
import proofs.«106231_j40518721470745_2_alg».proof.Proof.Gen.KernelIdeal
import proofs.«106231_j40518721470745_2_alg».proof.Proof.Spec
import proofs.«106231_j40518721470745_2_alg».proof.Proof.LibRows
import proofs.«106231_j40518721470745_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KHost

open Cert.KernelIdeal Cert.KernelIdeal.Facts₀ Cert.KernelIdeal.Facts
open Idealize.ShloMosaic Idealize.ShloMosaic.ValueIdx

/-! ## The two columns of row numbers -/

/-- The edges' source numbers: row 0 of the edge list. -/
def srcRow0 (ei : IVec S2x1200000 32) : IVec S1200000 32 :=
  shapeCast S1200000 (extractStridedSlice S1x1200000 ![0, 0] ei slices_S2x1200000_S1x1200000_0_0) shapeCasts_S1x1200000_S1200000

/-- The edges' destination numbers: row 1 of the edge list. -/
def dstRow1 (ei : IVec S2x1200000 32) : IVec S1200000 32 :=
  shapeCast S1200000 (extractStridedSlice S1x1200000 ![1, 0] ei slices_S2x1200000_S1x1200000_1_0) shapeCasts_S1x1200000_S1200000

/-- The source numbers as a column, a negative one moved up by 100000. -/
def srcCol (ei : IVec S2x1200000 32) : Cert.Sage.Col :=
  broadcastInDim S1200000x1 ![0] bcast_S1200000_S1200000x1_0
    (select (cmpi .slt (srcRow0 ei) (broadcastInDim S1200000 ![] bcast_S_S1200000 (constantI S_ 32 0#32)))
      (addi (srcRow0 ei) (broadcastInDim S1200000 ![] bcast_S_S1200000 (constantI S_ 32 100000#32)))
      (srcRow0 ei))

/-- The destination numbers as a column. -/
def dstCol (ei : IVec S2x1200000 32) : Cert.Sage.Col :=
  broadcastInDim S1200000x1 ![0] bcast_S1200000_S1200000x1_0 (dstRow1 ei)

/-! ## Counting, the reciprocal column, adding neighbour rows up -/

/-- How many edges are sent to each node: ones added into zeros at the destinations. -/
def degArr (ei : IVec S2x1200000 32) : FVec Ideal S100000 .f32 :=
  Host.scatterAdd (F := Ideal) scatter_S100000_S1200000x1_S1200000_n_0_0_1
    (broadcastInDim S100000 ![] bcast_S_S100000 (constant (F := Ideal) S_ .f32 0x00000000#32))
    (dstCol ei)
    (broadcastInDim S1200000 ![] bcast_S_S1200000 (constant (F := Ideal) S_ .f32 0x3F800000#32))

/-- One over the larger of the count and one, node by node. -/
def dinvVec (ei : IVec S2x1200000 32) : FVec Ideal S100000 .f32 :=
  Host.divf (F := Ideal) (broadcastInDim S100000 ![] bcast_S_S100000 (constant (F := Ideal) S_ .f32 0x3F800000#32))
    (maximumf (degArr ei) (broadcastInDim S100000 ![] bcast_S_S100000 (constant (F := Ideal) S_ .f32 0x3F800000#32)))

/-- The same, kept as a column. -/
def dinvCol (ei : IVec S2x1200000 32) : FVec Ideal S100000x1 .f32 :=
  shapeCast S100000x1 (dinvVec ei) shapeCasts_S100000_S100000x1

/-- For every node the sum of the rows of `v` that the edges sent to it read. -/
def aggArr (ei : IVec S2x1200000 32) (v : FVec Ideal S100000x16 .bf16) : FVec Ideal S100000x16 .f32 :=
  Host.scatterAdd (F := Ideal) scatter_S100000x16_S1200000x1_S1200000x16_1_0_0_1
    (broadcastInDim S100000x16 ![] bcast_S_S100000x16 (constant (F := Ideal) S_ .f32 0x00000000#32))
    (dstCol ei)
    (extf .f32 (Host.gather gather_S100000x16_S1200000x1_S1200000x16_1_0_n_n_0_1_116 v (srcCol ei)) bitsLt_bf16_f32)

/-! ## Read at an index -/

/-- A number spread over a whole array is that number at every index. -/
theorem splat_apply {S : Shape} (h : S_.BroadcastsInDim S ![]) (w : BitVec 32) (i : S.Idx) :
    broadcastInDim S ![] h (constant (F := Ideal) S_ .f32 w) i = Ideal.ofBits .f32 w :=
  broadcastInDim_apply _ h (constant (F := Ideal) S_ .f32 w) i (fun a => a.elim0) (fun a => a.elim0)

/-- A quotient, a maximum and a change of format of arrays are taken entry by entry (the last is the identity on
    the extended reals). -/
theorem divf_apply {S : Shape} (a b : FVec Ideal S .f32) (i : S.Idx) :
    Host.divf (F := Ideal) a b i = Ideal.div (a i) (b i) := rfl
theorem maxf_apply {S : Shape} (a b : FVec Ideal S .f32) (i : S.Idx) :
    maximumf a b i = max (a i) (b i) := rfl
theorem extf_apply {S : Shape} (a : FVec Ideal S .bf16) (h : FTy.bf16.bits < FTy.f32.bits) (i : S.Idx) :
    extf .f32 a h i = a i := rfl

/-- The count at node `n`. -/
theorem degArr_apply (ei : IVec S2x1200000 32) (n : Fin 100000) :
    degArr ei (ix1 n) = Cert.Sage.deg (dstCol ei) n := by
  refine (Cert.LibRows.vecScatterAdd_apply (A := 100000) (N := 1200000)
    scatter_S100000_S1200000x1_S1200000_n_0_0_1.wf _ (dstCol ei) _ n).trans ?_
  rw [Cert.Sage.deg, splat_apply, Ideal.ofBits_zero_f32]
  refine congrArg (fun s : EReal => 0 + s) (Finset.sum_congr rfl fun e _ => ?_)
  rw [splat_apply]

/-- One over the larger of the count and one, at node `n`. -/
theorem dinvVec_apply (ei : IVec S2x1200000 32) (n : Fin 100000) :
    dinvVec ei (ix1 n) = Ideal.div Cert.Sage.c1 (Cert.Sage.dmax (dstCol ei) n) := by
  rw [dinvVec, divf_apply, maxf_apply, splat_apply, degArr_apply, Cert.Sage.dmax]

/-- The reciprocal column at node `n`. -/
theorem dinvCol_apply (ei : IVec S2x1200000 32) (n : Fin 100000) :
    dinvCol ei (ix2 n (0 : Fin 1)) = Ideal.div Cert.Sage.c1 (Cert.Sage.dmax (dstCol ei) n) :=
  (Cert.LibColumn.shapeCast_a_a1_apply (dinvVec ei) shapeCasts_S100000_S100000x1 n 0).trans (dinvVec_apply ei n)

/-- The sum of neighbour rows at entry `(n, k)`. -/
theorem aggArr_apply (ei : IVec S2x1200000 32) (v : FVec Ideal S100000x16 .bf16) (n : Fin 100000) (k : Fin 16) :
    aggArr ei v (ix2 n k)
      = Cert.Sage.aggr (srcCol ei) (dstCol ei) (v : FVec Ideal (⟨2, ![100000, 16]⟩ : Shape) .f32) n k := by
  refine (Cert.LibRows.rowScatterAdd_apply (A := 100000) (B := 16) (N := 1200000)
    scatter_S100000x16_S1200000x1_S1200000x16_1_0_0_1.wf _ (dstCol ei) _ n k).trans ?_
  rw [Cert.Sage.aggr, splat_apply, Ideal.ofBits_zero_f32]
  refine congrArg (fun s : EReal => 0 + s) (Finset.sum_congr rfl fun e _ => ?_)
  by_cases he : (dstCol ei (ix2 e (0 : Fin 1))).toInt = (n.val : ℤ)
  · rw [if_pos he, if_pos he, extf_apply]
    exact Cert.LibRows.rowGather_apply (A := 100000) (B := 16) (N := 1200000) (by decide)
      gather_S100000x16_S1200000x1_S1200000x16_1_0_n_n_0_1_116.wf v (srcCol ei) e k
  · rw [if_neg he, if_neg he]

end Cert.KernelIdeal.KHost

end
-- ==== Proof.KFold.lean ====
/-
  The idealized kernel program's buffers between its three launches.

  The program alternates stretches of host operations with launches. The contents of the buffers at each boundary
  are a fold from the launch memory: a stretch applies its operations; a launch replaces its output arrays and leaves
  every other buffer as it found it. Here every buffer a launch reads is followed back through that fold: the two
  columns of row numbers, the reciprocal column and the two reshaped bias rows come from the first stretch and are
  never written again; the sums of neighbour rows come from the stretch before the launch that reads them, as the
  named host functions of the edge list and of the previous launch's output.
-/
import proofs.«106231_j40518721470745_2_alg».proof.Proof.Gen.KernelIdeal.Frame
import proofs.«106231_j40518721470745_2_alg».proof.Proof.KHost
import Idealize.ShloMosaic.Lib.StableHlo.Run

noncomputable section

namespace Cert.KernelIdeal.KFold

open Cert.KernelIdeal Cert.KernelIdeal.Gen Cert.KernelIdeal.KHost Cert.KernelIdeal.Facts₀ Cert.KernelIdeal.Facts
open Idealize.ShloMosaic Idealize.ShloMosaic.TcCoe Idealize.ShloMosaic.Tactic Idealize.ShloMosaic.StableHlo
open Idealize.SL Idealize.SL.Sem

variable (m : (ℓ : Loc nD τ sig) → Buf (Elt Ideal) ℓ) (ρ : Dev nD → PrngReg) (c : Dev nD)

/-! ## After the first stretch -/

theorem W1_v1 : W1 m ρ c (Proc.devRef .tc main_v1) = srcRow0 (m ((c : Thread nD τ).loc main_arg1)) := by
  show StableHlo.after hostOps0 (W0 m ρ c) (Proc.devRef .tc main_v1) = _
  after_results
  rfl
theorem W1_v3 : W1 m ρ c (Proc.devRef .tc main_v3) = dstRow1 (m ((c : Thread nD τ).loc main_arg1)) := by
  show StableHlo.after hostOps0 (W0 m ρ c) (Proc.devRef .tc main_v3) = _
  after_results
  rfl
theorem W1_v12 : W1 m ρ c (Proc.devRef .tc main_v12) = dinvCol (m ((c : Thread nD τ).loc main_arg1)) := by
  show StableHlo.after hostOps0 (W0 m ρ c) (Proc.devRef .tc main_v12) = _
  after_results
  rfl
theorem W1_v13 : W1 m ρ c (Proc.devRef .tc main_v13)
    = shapeCast S1x16 (m ((c : Thread nD τ).loc main_arg4)) Facts₀.shapeCasts_S16_S1x16 := by
  show StableHlo.after hostOps0 (W0 m ρ c) (Proc.devRef .tc main_v13) = _
  after_results
  rfl
theorem W1_v14 : W1 m ρ c (Proc.devRef .tc main_v14)
    = shapeCast S1x40 (m ((c : Thread nD τ).loc main_arg7)) Facts₀.shapeCasts_S40_S1x40 := by
  show StableHlo.after hostOps0 (W0 m ρ c) (Proc.devRef .tc main_v14) = _
  after_results
  rfl
theorem W1_arg0 : W1 m ρ c (Proc.devRef .tc main_arg0) = m ((c : Thread nD τ).loc main_arg0) := by
  show StableHlo.after hostOps0 (W0 m ρ c) (Proc.devRef .tc main_arg0) = _
  after_results
theorem W1_arg2 : W1 m ρ c (Proc.devRef .tc main_arg2) = m ((c : Thread nD τ).loc main_arg2) := by
  show StableHlo.after hostOps0 (W0 m ρ c) (Proc.devRef .tc main_arg2) = _
  after_results
theorem W1_arg3 : W1 m ρ c (Proc.devRef .tc main_arg3) = m ((c : Thread nD τ).loc main_arg3) := by
  show StableHlo.after hostOps0 (W0 m ρ c) (Proc.devRef .tc main_arg3) = _
  after_results
theorem W1_arg5 : W1 m ρ c (Proc.devRef .tc main_arg5) = m ((c : Thread nD τ).loc main_arg5) := by
  show StableHlo.after hostOps0 (W0 m ρ c) (Proc.devRef .tc main_arg5) = _
  after_results
theorem W1_arg6 : W1 m ρ c (Proc.devRef .tc main_arg6) = m ((c : Thread nD τ).loc main_arg6) := by
  show StableHlo.after hostOps0 (W0 m ρ c) (Proc.devRef .tc main_arg6) = _
  after_results

/-! ## Past the first launch: a buffer that is none of its arrays is as before -/

theorem W2_v1 : W2 m ρ c (Proc.devRef .tc main_v1) = srcRow0 (m ((c : Thread nD τ).loc main_arg1)) :=
  (W2_of_ne m ρ c main_v1 (by decide)).trans (W1_v1 m ρ c)
theorem W2_v3 : W2 m ρ c (Proc.devRef .tc main_v3) = dstRow1 (m ((c : Thread nD τ).loc main_arg1)) :=
  (W2_of_ne m ρ c main_v3 (by decide)).trans (W1_v3 m ρ c)
theorem W2_v12 : W2 m ρ c (Proc.devRef .tc main_v12) = dinvCol (m ((c : Thread nD τ).loc main_arg1)) :=
  (W2_of_ne m ρ c main_v12 (by decide)).trans (W1_v12 m ρ c)
theorem W2_v13 : W2 m ρ c (Proc.devRef .tc main_v13) = shapeCast S1x16 (m ((c : Thread nD τ).loc main_arg4)) Facts₀.shapeCasts_S16_S1x16 :=
  (W2_of_ne m ρ c main_v13 (by decide)).trans (W1_v13 m ρ c)
theorem W2_v14 : W2 m ρ c (Proc.devRef .tc main_v14) = shapeCast S1x40 (m ((c : Thread nD τ).loc main_arg7)) Facts₀.shapeCasts_S40_S1x40 :=
  (W2_of_ne m ρ c main_v14 (by decide)).trans (W1_v14 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)

/-! ## After the second stretch -/

/-- The sums of neighbour rows the second launch reads: the named host function of the first launch's second output. -/
theorem W3_v26 : W3 m ρ c (Proc.devRef .tc main_v26)
    = aggArr (m ((c : Thread nD τ).loc main_arg1)) (W2 m ρ c (Proc.devRef .tc main_v15_1)) := by
  show StableHlo.after hostOps1 (W2 m ρ c) (Proc.devRef .tc main_v26) = _
  after_results
  rw [W2_v1, W2_v3]
  rfl
theorem W3_v15_0 : W3 m ρ c (Proc.devRef .tc main_v15_0) = W2 m ρ c (Proc.devRef .tc main_v15_0) := by
  show StableHlo.after hostOps1 (W2 m ρ c) (Proc.devRef .tc main_v15_0) = _
  after_results
theorem W3_v1 : W3 m ρ c (Proc.devRef .tc main_v1) = srcRow0 (m ((c : Thread nD τ).loc main_arg1)) := by
  refine Eq.trans ?_ (W2_v1 m ρ c)
  show StableHlo.after hostOps1 (W2 m ρ c) (Proc.devRef .tc main_v1) = _
  after_results
theorem W3_v3 : W3 m ρ c (Proc.devRef .tc main_v3) = dstRow1 (m ((c : Thread nD τ).loc main_arg1)) := by
  refine Eq.trans ?_ (W2_v3 m ρ c)
  show StableHlo.after hostOps1 (W2 m ρ c) (Proc.devRef .tc main_v3) = _
  after_results
theorem W3_v12 : W3 m ρ c (Proc.devRef .tc main_v12) = dinvCol (m ((c : Thread nD τ).loc main_arg1)) := by
  refine Eq.trans ?_ (W2_v12 m ρ c)
  show StableHlo.after hostOps1 (W2 m ρ c) (Proc.devRef .tc main_v12) = _
  after_results
theorem W3_v13 : W3 m ρ c (Proc.devRef .tc main_v13) = shapeCast S1x16 (m ((c : Thread nD τ).loc main_arg4)) Facts₀.shapeCasts_S16_S1x16 := by
  refine Eq.trans ?_ (W2_v13 m ρ c)
  show StableHlo.after hostOps1 (W2 m ρ c) (Proc.devRef .tc main_v13) = _
  after_results
theorem W3_v14 : W3 m ρ c (Proc.devRef .tc main_v14) = shapeCast S1x40 (m ((c : Thread nD τ).loc main_arg7)) Facts₀.shapeCasts_S40_S1x40 := by
  refine Eq.trans ?_ (W2_v14 m ρ c)
  show StableHlo.after hostOps1 (W2 m ρ c) (Proc.devRef .tc main_v14) = _
  after_results
theorem W3_arg5 : W3 m ρ c (Proc.devRef .tc main_arg5) = m ((c : Thread nD τ).loc main_arg5) := by
  refine Eq.trans ?_ (W2_arg5 m ρ c)
  show StableHlo.after hostOps1 (W2 m ρ c) (Proc.devRef .tc main_arg5) = _
  after_results
theorem W3_arg6 : W3 m ρ c (Proc.devRef .tc main_arg6) = m ((c : Thread nD τ).loc main_arg6) := by
  refine Eq.trans ?_ (W2_arg6 m ρ c)
  show StableHlo.after hostOps1 (W2 m ρ c) (Proc.devRef .tc main_arg6) = _
  after_results

/-! ## Past the second launch -/

theorem W4_v1 : W4 m ρ c (Proc.devRef .tc main_v1) = srcRow0 (m ((c : Thread nD τ).loc main_arg1)) :=
  (W4_of_ne m ρ c main_v1 (by decide)).trans (W3_v1 m ρ c)
theorem W4_v3 : W4 m ρ c (Proc.devRef .tc main_v3) = dstRow1 (m ((c : Thread nD τ).loc main_arg1)) :=
  (W4_of_ne m ρ c main_v3 (by decide)).trans (W3_v3 m ρ c)
theorem W4_v14 : W4 m ρ c (Proc.devRef .tc main_v14) = shapeCast S1x40 (m ((c : Thread nD τ).loc main_arg7)) Facts₀.shapeCasts_S40_S1x40 :=
  (W4_of_ne m ρ c main_v14 (by decide)).trans (W3_v14 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
/-- The reciprocal column is an input array of the second launch: read, never written. -/
theorem W4_v12 : W4 m ρ c (Proc.devRef .tc main_v12) = dinvCol (m ((c : Thread nD τ).loc main_arg1)) :=
  ((W4_arr m ρ c 3).trans (((dat1 (V3 m ρ) c).arrAt_in 3 rfl _).trans (A_eq1 (V3 m ρ) c 3))).trans (W3_v12 m ρ c)

/-! ## After the third stretch -/

/-- The sums of neighbour rows the third launch reads: the named host function of the second launch's output. -/
theorem W5_v38 : W5 m ρ c (Proc.devRef .tc main_v38)
    = aggArr (m ((c : Thread nD τ).loc main_arg1)) (W4 m ρ c (Proc.devRef .tc main_v27)) := by
  show StableHlo.after hostOps2 (W4 m ρ c) (Proc.devRef .tc main_v38) = _
  after_results
  rw [W4_v1, W4_v3]
  rfl
theorem W5_v27 : W5 m ρ c (Proc.devRef .tc main_v27) = W4 m ρ c (Proc.devRef .tc main_v27) := by
  show StableHlo.after hostOps2 (W4 m ρ c) (Proc.devRef .tc main_v27) = _
  after_results
theorem W5_v12 : W5 m ρ c (Proc.devRef .tc main_v12) = dinvCol (m ((c : Thread nD τ).loc main_arg1)) := by
  refine Eq.trans ?_ (W4_v12 m ρ c)
  show StableHlo.after hostOps2 (W4 m ρ c) (Proc.devRef .tc main_v12) = _
  after_results
theorem W5_v14 : W5 m ρ c (Proc.devRef .tc main_v14) = shapeCast S1x40 (m ((c : Thread nD τ).loc main_arg7)) Facts₀.shapeCasts_S40_S1x40 := by
  refine Eq.trans ?_ (W4_v14 m ρ c)
  show StableHlo.after hostOps2 (W4 m ρ c) (Proc.devRef .tc main_v14) = _
  after_results
theorem W5_arg5 : W5 m ρ c (Proc.devRef .tc main_arg5) = m ((c : Thread nD τ).loc main_arg5) := by
  refine Eq.trans ?_ (W4_arg5 m ρ c)
  show StableHlo.after hostOps2 (W4 m ρ c) (Proc.devRef .tc main_arg5) = _
  after_results
theorem W5_arg6 : W5 m ρ c (Proc.devRef .tc main_arg6) = m ((c : Thread nD τ).loc main_arg6) := by
  refine Eq.trans ?_ (W4_arg6 m ρ c)
  show StableHlo.after hostOps2 (W4 m ρ c) (Proc.devRef .tc main_arg6) = _
  after_results

end Cert.KernelIdeal.KFold

end
-- ==== Proof.LibPlainDot.lean ====
/-
  A matrix product with the plain dimension numbers — the left operand's second axis contracted against the right
  operand's first, no batch axis — read at one entry of its result on the extended reals: entry (row, column) is
  the sum, over the contracted coordinate k, of left (row, k) · right (k, column).

  The dimension numbers index the contraction by a shape of their own (one axis, of the contracted extent); the sum
  over that shape's indices is re-indexed through its one coordinate. Both the vector unit's product into a zero
  accumulator and the host's dot product are this same sum, so a product computed on a block of rows agrees, entry
  by entry, with the product of the whole arrays.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The dimension numbers of a plain product of an M×K by a K×N matrix: contract the left operand's axis 1
    against the right operand's axis 0; the left rows and the right columns are kept; no batch axis. -/
structure IsPlain (d : DotDims ⟨2, ![M, K]⟩ ⟨2, ![K, N]⟩ ⟨2, ![M, N]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

variable {d : DotDims ⟨2, ![M, K]⟩ ⟨2, ![K, N]⟩ ⟨2, ![M, N]⟩}

/-- The left operand is read in the result's row. -/
theorem lhsIdx_row (h : IsPlain d) (j : (⟨2, ![M, N]⟩ : Shape).Idx) (k : d.contr.Idx) :
    (d.lhsIdx j k (0 : Fin 2)).val = (j (0 : Fin 2)).val := by
  unfold DotDims.lhsIdx
  rw [dif_neg (by rw [h.lb]; exact List.not_mem_nil), dif_pos (by rw [h.ln]; exact List.mem_singleton.mpr rfl)]
  simp only [Fin.val_cast]
  have key : ∀ (p : Nat) (hp : p < 2), p = 0 → (j ⟨p, hp⟩).val = (j (0 : Fin 2)).val :=
    fun p hp e => by subst e; rfl
  exact key _ _ (by simp [h.lb, h.ln])

/-- The right operand is read in the result's column. -/
theorem rhsIdx_col (h : IsPlain d) (j : (⟨2, ![M, N]⟩ : Shape).Idx) (k : d.contr.Idx) :
    (d.rhsIdx j k (1 : Fin 2)).val = (j (1 : Fin 2)).val := by
  unfold DotDims.rhsIdx
  rw [dif_neg (by rw [h.rb]; exact List.not_mem_nil), dif_pos (by rw [h.rn]; exact List.mem_singleton.mpr rfl)]
  simp only [Fin.val_cast]
  have key : ∀ (p : Nat) (hp : p < 2), p = 1 → (j ⟨p, hp⟩).val = (j (1 : Fin 2)).val :=
    fun p hp e => by subst e; rfl
  exact key _ _ (by simp [h.lb, h.ln, h.rn])

/-- The contraction has one axis … -/
theorem rank_contr (h : IsPlain d) : d.contr.rank = 1 := by rw [d.rank_contr, h.lc]; rfl

/-- … of the contracted extent. -/
theorem size_contr (h : IsPlain d) : d.contr.size ⟨0, by rw [rank_contr h]; exact Nat.one_pos⟩ = K :=
  (d.size_contr 0 (by rw [h.lc]; exact Nat.one_pos)).trans (by rw [List.getElem_of_eq h.lc]; rfl)

/-- THE SUM, re-indexed: over the contraction's indices it is the sum over the contracted coordinate of
    left (row, k) · right (k, column). -/
theorem sum_eq (h : IsPlain d) {φ₁ φ₂ : FTy} (l : FVec Ideal ⟨2, ![M, K]⟩ φ₁) (r : FVec Ideal ⟨2, ![K, N]⟩ φ₂)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K (rank_contr h) (size_contr h)).symm]
  refine Finset.sum_congr rfl fun k _ => ?_
  have e1 : d.lhsIdx j ((contrEquiv1 d K (rank_contr h) (size_contr h)).symm k) = ix2 (j 0) k := by
    funext a; apply Fin.ext
    match a with
    | ⟨0, _⟩ => exact lhsIdx_row h j _
    | ⟨1, _⟩ => exact (d.lhsIdx_val_of_single h.lc j _).trans (contrEquiv1_symm_val d K (rank_contr h) (size_contr h) k)
  have e2 : d.rhsIdx j ((contrEquiv1 d K (rank_contr h) (size_contr h)).symm k) = ix2 k (j 1) := by
    funext a; apply Fin.ext
    match a with
    | ⟨0, _⟩ => exact (d.rhsIdx_val_of_single h.rc j _).trans (contrEquiv1_symm_val d K (rank_contr h) (size_contr h) k)
    | ⟨1, _⟩ => exact rhsIdx_col h j _
  exact congrArg₂ (· * ·) (congrArg l e1) (congrArg r e2)

/-- The vector unit's product accumulated into zero, at an entry. -/
theorem matmul_zero_apply (h : IsPlain d) {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 k (j 1)) :=
  (Ideal.matmul_constant_zero_apply d prec l r j).trans (sum_eq h l r j)

/-- The host's dot product, at an entry: the same sum, whatever the schedule. -/
theorem dotGeneral_apply (h : IsPlain d) {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (sum_eq h l r j)

end Idealize.ShloMosaic.PlainDot

end
-- ==== Proof.KPay.lean ====
/-
  What the first kernel body computes from the blocks it loads, read at one entry (row p, column q) of its result, on
  the extended reals, where a change of number format is the identity: two plain matrix products of its block of
  64-wide rows with two 64×16 matrices, so entry (p, q) of either is the sum over k of block (p, k) · matrix (k, q).

  Also here, because the third body's products need it too: the dimension numbers of the two product shapes the
  program uses (10000×64 by 64×16, and 5000×16 by 16×40) are the plain ones.
-/
import proofs.«106231_j40518721470745_2_alg».proof.Proof.Gen.KernelIdeal.Skeleton
import proofs.«106231_j40518721470745_2_alg».proof.Proof.Spec
import proofs.«106231_j40518721470745_2_alg».proof.Proof.LibPlainDot
import proofs.«106231_j40518721470745_2_alg».proof.Proof.LibColumn
import Idealize.ShloMosaic.Lib.ValueLayout

noncomputable section

open scoped BigOperators

namespace Cert.KernelIdeal.KVal

open Cert.KernelIdeal Cert.KernelIdeal.Gen Idealize.ShloMosaic Idealize.ShloMosaic.ValueIdx

/-! ## The dimension numbers are the plain ones -/

theorem plain_10000x64x16 : PlainDot.IsPlain (M := 10000) (K := 64) (N := 16) dot_S10000x64_S64x16_S10000x16_1_0_0_1_n_n :=
  ⟨rfl, rfl, rfl, rfl, rfl, rfl⟩

theorem plain_5000x16x40 : PlainDot.IsPlain (M := 5000) (K := 16) (N := 40) dot_S5000x16_S16x40_S5000x40_1_0_0_1_n_n :=
  ⟨rfl, rfl, rfl, rfl, rfl, rfl⟩

/-! ## The first body: two products of the block of rows -/

/-- Entry (p, q) of the first product: row p of the block against column q of the matrix. -/
theorem k0_pay2_apply (v0 : FVec Ideal S10000x64 .f32) (v2 : FVec Ideal S64x16 .f32) (p : Fin 10000) (q : Fin 16) :
    k0_pay2 (F := Ideal) v0 v2 (ix2 p q) = ∑ k : Fin 64, v0 (ix2 p k) * v2 (ix2 k q) := by
  unfold k0_pay2 k0_pay1
  exact PlainDot.matmul_zero_apply plain_10000x64x16 none _ _ (ix2 p q)

/-- Entry (p, q) of the second product, whose narrowing to sixteen bits changes nothing. -/
theorem k0_pay3_apply (v0 : FVec Ideal S10000x64 .f32) (v4 : FVec Ideal S64x16 .f32) (p : Fin 10000) (q : Fin 16) :
    k0_pay3 (F := Ideal) v0 v4 (ix2 p q) = ∑ k : Fin 64, v0 (ix2 p k) * v4 (ix2 k q) := by
  unfold k0_pay3 k0_pay1
  exact PlainDot.matmul_zero_apply plain_10000x64x16 none _ _ (ix2 p q)

end Cert.KernelIdeal.KVal

end
-- ==== Proof.KVal0.lean ====
/-
  What the first launch leaves in its two output arrays, as whole-array functions of the arrays it finds.

  The launch walks ten blocks of 10000 rows. At block t it loads rows 10000·t … 10000·t + 9999 of the node matrix and
  the two 64×16 matrices whole, and writes back rows 10000·t … of the two products. Row r of either output is
  therefore row r of the node matrix against the matrix: the product of the whole arrays, the ten blocks covering
  every row (row r lies in block r / 10000).
-/
import proofs.«106231_j40518721470745_2_alg».proof.Proof.KPay
import proofs.«106231_j40518721470745_2_alg».proof.Proof.Gen.KernelIdeal.Frame
import Idealize.ShloMosaic.Lib.Pipeline.Value

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at point t: the node rows and both outputs move with the point along the rows,
    the two matrices stay whole. -/
theorem blocks_at0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The node block at point t, entry (p, k), is entry (10000·t + p, k) of the node matrix. -/
theorem nodes_block0 (c : Dev nD) (t : Fin cfg0.N) (p : Fin 10000) (k : Fin 64) (r : Fin 100000)
    (hr : r.val = t.val * 10000 + p.val) :
    (iblk0 V c 0 t : Vec Ideal S10000x64 .f32) (ix2 p k) = (V c main_arg0 : S100000x64.Idx → EReal) (ix2 r k) := by
  obtain ⟨e0, e1, -⟩ := blocks_at0 t
  unfold iblk0
  rw [View.read_apply]
  show V c main_arg0 _ = V c main_arg0 _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 64 + 1 * k.val = k.val; rw [e1]; omega

/-- A matrix window's block at any point is the whole matrix (first matrix). -/
theorem wself_block0 (c : Dev nD) (t : Fin cfg0.N) (k : Fin 64) (q : Fin 16) :
    (iblk0 V c 1 t : Vec Ideal S64x16 .f32) (ix2 k q) = (V c main_arg2 : S64x16.Idx → EReal) (ix2 k q) := by
  obtain ⟨-, -, e0, e1, -⟩ := blocks_at0 t
  unfold iblk0
  rw [View.read_apply]
  show V c main_arg2 _ = V c main_arg2 _
  congr 1
  funext a
  apply Fin.ext
  match a with
  | ⟨0, _⟩ => show win0_1.index t (0 : Fin 2) * 64 + 1 * k.val = k.val; rw [e0]; omega
  | ⟨1, _⟩ => show win0_1.index t (1 : Fin 2) * 16 + 1 * q.val = q.val; rw [e1]; omega

/-- A matrix window's block at any point is the whole matrix (second matrix). -/
theorem wneigh_block0 (c : Dev nD) (t : Fin cfg0.N) (k : Fin 64) (q : Fin 16) :
    (iblk0 V c 2 t : Vec Ideal S64x16 .f32) (ix2 k q) = (V c main_arg3 : S64x16.Idx → EReal) (ix2 k q) := by
  obtain ⟨-, -, -, -, e0, e1, -⟩ := blocks_at0 t
  unfold iblk0
  rw [View.read_apply]
  show V c main_arg3 _ = V c main_arg3 _
  congr 1
  funext a
  apply Fin.ext
  match a with
  | ⟨0, _⟩ => show win0_2.index t (0 : Fin 2) * 64 + 1 * k.val = k.val; rw [e0]; omega
  | ⟨1, _⟩ => show win0_2.index t (1 : Fin 2) * 16 + 1 * q.val = q.val; rw [e1]; omega

/-- At point t the first product of the blocks, at block entry y, is the product of the whole arrays at the entry
    i that y names: row 10000·t + (row of y), the same column. -/
theorem point0_3 (c : Dev nD) (t : Fin cfg0.N) (y : S10000x16.Idx) (i : S100000x16.Idx)
    (h0 : (i 0).val = t.val * 10000 + (y 0).val) (h1 : (i 1).val = (y 1).val) :
    k0_pay2 (F := Ideal) (iblk0 V c 0 t) (iblk0 V c 1 t) y = Cert.Sage.linM (V c main_arg0) (V c main_arg2) i := by
  obtain ⟨p, q, rfl⟩ : ∃ (p : Fin 10000) (q : Fin 16), y = ix2 p q := ⟨y 0, y 1, eq_ix2 y⟩
  refine (k0_pay2_apply (iblk0 V c 0 t) (iblk0 V c 1 t) p q).trans ?_
  show _ = Cert.Sage.lin (V c main_arg0) (V c main_arg2) (i 0) (i 1)
  unfold Cert.Sage.lin
  refine Finset.sum_congr rfl fun k _ => ?_
  have hq : (i 1 : Fin 16) = q := Fin.ext h1
  rw [nodes_block0 V c t p k (i 0) h0, wself_block0 V c t k q, hq]

/-- The same for the second product. -/
theorem point0_4 (c : Dev nD) (t : Fin cfg0.N) (y : S10000x16.Idx) (i : S100000x16.Idx)
    (h0 : (i 0).val = t.val * 10000 + (y 0).val) (h1 : (i 1).val = (y 1).val) :
    k0_pay3 (F := Ideal) (iblk0 V c 0 t) (iblk0 V c 2 t) y = Cert.Sage.linM (V c main_arg0) (V c main_arg3) i := by
  obtain ⟨p, q, rfl⟩ : ∃ (p : Fin 10000) (q : Fin 16), y = ix2 p q := ⟨y 0, y 1, eq_ix2 y⟩
  refine (k0_pay3_apply (iblk0 V c 0 t) (iblk0 V c 2 t) p q).trans ?_
  show _ = Cert.Sage.lin (V c main_arg0) (V c main_arg3) (i 0) (i 1)
  unfold Cert.Sage.lin
  refine Finset.sum_congr rfl fun k _ => ?_
  have hq : (i 1 : Fin 16) = q := Fin.ext h1
  rw [nodes_block0 V c t p k (i 0) h0, wneigh_block0 V c t k q, hq]

/-- What point t writes back to the first output is block t of the product of the whole arrays. -/
theorem flushed0_3_eq (c : Dev nD) (t : Fin cfg0.N) :
    (dat0 V c).flushed 3 t = ((cfg0.win 3).blk t).view.read (Elt Ideal) (Cert.Sage.linM (V c main_arg0) (V c main_arg2)) := by
  show (cfg0.win 3).cut (grid0.coords t) ((dat0 V c).after 3 t) = _
  rw [after0_3]
  unfold out0_3
  rw [View.canon_unit_zero zero_offsets]
  simp only [View.ld_unit_zero (S := S10000x64) zero_offsets, View.ld_unit_zero (S := S64x16) zero_offsets]
  obtain ⟨-, -, -, -, -, -, e0, e1, -⟩ := blocks_at0 t
  funext j
  refine point0_3 V c t _ _ ?_ ?_
  · show win0_3.index t (0 : Fin 2) * 10000 + 1 * (j 0).val = t.val * 10000 + (j 0).val; rw [e0]; omega
  · show win0_3.index t (1 : Fin 2) * 16 + 1 * (j 1).val = (j 1).val; rw [e1]; omega

/-- What point t writes back to the second output is block t of the product of the whole arrays. -/
theorem flushed0_4_eq (c : Dev nD) (t : Fin cfg0.N) :
    (dat0 V c).flushed 4 t = ((cfg0.win 4).blk t).view.read (Elt Ideal) (Cert.Sage.linM (V c main_arg0) (V c main_arg3)) := by
  show (cfg0.win 4).cut (grid0.coords t) ((dat0 V c).after 4 t) = _
  rw [after0_4]
  unfold out0_4
  rw [View.canon_unit_zero zero_offsets]
  simp only [View.ld_unit_zero (S := S10000x64) zero_offsets, View.ld_unit_zero (S := S64x16) zero_offsets]
  obtain ⟨-, -, -, -, -, -, -, -, e0, e1⟩ := blocks_at0 t
  funext j
  refine point0_4 V c t _ _ ?_ ?_
  · show win0_4.index t (0 : Fin 2) * 10000 + 1 * (j 0).val = t.val * 10000 + (j 0).val; rw [e0]; omega
  · show win0_4.index t (1 : Fin 2) * 16 + 1 * (j 1).val = (j 1).val; rw [e1]; omega

/-- An index of the first output is in point t's block iff each coordinate is in the block's range on its axis. -/
theorem mem_blk0_3 (t : Fin cfg0.N) (i : S100000x16.Idx) :
    i ∈ ((cfg0.win 3).blk t).view.set ↔ ∀ a : Fin 2, win0_3.index t a * S10000x16.size a ≤ (i a).val ∧ (i a).val < win0_3.index t a * S10000x16.size a + S10000x16.size a := by
  show i ∈ ((View.whole main_v15_0).slice (win0_3.rect t)).set ↔ _
  rw [View.set_slice_whole, Rect.mem_set_unit]
  exact Iff.rfl

/-- The same for the second output. -/
theorem mem_blk0_4 (t : Fin cfg0.N) (i : S100000x16.Idx) :
    i ∈ ((cfg0.win 4).blk t).view.set ↔ ∀ a : Fin 2, win0_4.index t a * S10000x16.size a ≤ (i a).val ∧ (i a).val < win0_4.index t a * S10000x16.size a + S10000x16.size a := by
  show i ∈ ((View.whole main_v15_1).slice (win0_4.rect t)).set ↔ _
  rw [View.set_slice_whole, Rect.mem_set_unit]
  exact Iff.rfl

/-- Every entry of the first output lies in some point's block: row r in block r / 10000. -/
theorem cover0_3_all (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 10 := N_0
  let t : Fin cfg0.N := ⟨(i 0).val / 10000, by rw [hN]; omega⟩
  obtain ⟨-, -, -, -, -, -, e0, e1, -⟩ := blocks_at0 t
  have ht : t.val = (i 0).val / 10000 := rfl
  refine ⟨t, flush0_3 t, ?_⟩
  rw [mem_blk0_3]
  intro a
  match a with
  | ⟨0, _⟩ => show win0_3.index t (0 : Fin 2) * 10000 ≤ (i 0).val ∧ (i 0).val < win0_3.index t (0 : Fin 2) * 10000 + 10000; rw [e0, ht]; omega
  | ⟨1, _⟩ => show win0_3.index t (1 : Fin 2) * 16 ≤ (i 1).val ∧ (i 1).val < win0_3.index t (1 : Fin 2) * 16 + 16; rw [e1]; omega

/-- Every entry of the second output lies in some point's block. -/
theorem cover0_4_all (i : S100000x16.Idx) :
    ∃ t : Fin cfg0.N, (cfg0.win 4).flush t = true ∧ i ∈ ((cfg0.win 4).blk t).view.set := by
  have hi0 : (i 0).val < 100000 := (i 0).isLt
  have hi1 : (i 1).val < 16 := (i 1).isLt
  have hN : cfg0.N = 10 := N_0
  let t : Fin cfg0.N := ⟨(i 0).val / 10000, by rw [hN]; omega⟩
  obtain ⟨-, -, -, -, -, -, -, -, e0, e1⟩ := blocks_at0 t
  have ht : t.val = (i 0).val / 10000 := rfl
  refine ⟨t, flush0_4 t, ?_⟩
  rw [mem_blk0_4]
  intro a
  match a with
  | ⟨0, _⟩ => show win0_4.index t (0 : Fin 2) * 10000 ≤ (i 0).val ∧ (i 0).val < win0_4.index t (0 : Fin 2) * 10000 + 10000; rw [e0, ht]; omega
  | ⟨1, _⟩ => show win0_4.index t (1 : Fin 2) * 16 ≤ (i 1).val ∧ (i 1).val < win0_4.index t (1 : Fin 2) * 16 + 16; rw [e1]; omega

/-- THE FIRST OUTPUT after the launch: the node matrix times the first 64×16 matrix. -/
theorem final0_3 (c : Dev nD) : (dat0 V c).arrAt 3 cfg0.N = Cert.Sage.linM (V c main_arg0) (V c main_arg2) :=
  (dat0 V c).arrAt_eq_of_cover 3 (Cert.Sage.linM (V c main_arg0) (V c main_arg2)) (fun t _ => flushed0_3_eq V c t) cover0_3_all

/-- THE SECOND OUTPUT after the launch: the node matrix times the second 64×16 matrix. -/
theorem final0_4 (c : Dev nD) : (dat0 V c).arrAt 4 cfg0.N = Cert.Sage.linM (V c main_arg0) (V c main_arg3) :=
  (dat0 V c).arrAt_eq_of_cover 4 (Cert.Sage.linM (V c main_arg0) (V c main_arg3)) (fun t _ => flushed0_4_eq V c t) cover0_4_all

end Cert.KernelIdeal.KVal

end
-- ==== Proof.KPay1.lean ====
/-
  What the second kernel body computes from the blocks it loads, read at one entry (row p, column q), on the extended
  reals: the first block's entry, plus the second block's entry scaled by the row's entry of a one-column block, plus
  the column's entry of a one-row block of biases; then the positive part. The narrowing to sixteen bits at the end is
  the identity on extended reals.
-/
import proofs.«106231_j40518721470745_2_alg».proof.Proof.Gen.KernelIdeal.Skeleton
import proofs.«106231_j40518721470745_2_alg».proof.Proof.LibColumn
import Idealize.ShloMosaic.Lib.ValueLayout
import Idealize.ShloMosaic.PureOps.Ideal.Laws

noncomputable section

open scoped BigOperators

namespace Cert.KernelIdeal.KVal

open Cert.KernelIdeal Cert.KernelIdeal.Gen Idealize.ShloMosaic Idealize.ShloMosaic.ValueIdx

/-- Entry (p, q) of the second body's result. -/
theorem k1_pay1_apply (v0 v2 : FVec Ideal S5000x16 .f32) (v4 : FVec Ideal S5000x1 .f32) (v9 : FVec Ideal S1x16 .f32)
    (p : Fin 5000) (q : Fin 16) :
    k1_pay1 (F := Ideal) v0 v2 v4 v9 (ix2 p q)
      = max ((v0 (ix2 p q) + v2 (ix2 p q) * v4 (ix2 p (0 : Fin 1))) + v9 (ix2 (0 : Fin 1) q)) 0 := by
  unfold k1_pay1
  rw [shapeCast_self, shapeCast_self, shapeCast_self, shapeCast_self]
  rw [truncf_apply, maximumf_apply, addf_apply, addf_apply, mulf_apply, broadcast_apply,
    Cert.LibColumn.broadcastTo_a1_ab_apply, broadcastTo_1b_ab_apply]
  show max _ (Ideal.ofBits .f32 0x00000000#32) = _
  rw [Ideal.ofBits_zero_f32]

end Cert.KernelIdeal.KVal

end
-- ==== Proof.KFun.lean ====
/-
  The two whole-array functions the second and third launches compute, entry by entry on the extended reals, as
  functions of the arrays they read.

  The second launch: the positive part of  a + b · d + e , where a and b are matrices of 16-wide rows, d is a column
  (one scale per row) and e is one row of biases. The third launch: for each row, the log-softmax of the 40 entries
  h·Ws + (g · d)·Wn + e , where h and g are matrices of 16-wide rows, d is the column of row scales, Ws and Wn are
  16×40 matrices and e one row of 40 biases.
-/
import proofs.«106231_j40518721470745_2_alg».proof.Proof.Spec

noncomputable section

open scoped BigOperators

namespace Cert.KernelIdeal.KVal

open Idealize.ShloMosaic Idealize.ShloMosaic.ValueIdx

/-- Entry i of the positive part of  a + b · d + e . -/
def reluMix (a b : (⟨2, ![100000, 16]⟩ : Shape).Idx → EReal) (d : (⟨2, ![100000, 1]⟩ : Shape).Idx → EReal)
    (e : (⟨2, ![1, 16]⟩ : Shape).Idx → EReal) : (⟨2, ![100000, 16]⟩ : Shape).Idx → EReal :=
  fun i => max ((a i + b i * d (ix2 (i 0) (0 : Fin 1))) + e (ix2 (0 : Fin 1) (i 1))) 0

theorem reluMix_apply (a b : (⟨2, ![100000, 16]⟩ : Shape).Idx → EReal) (d : (⟨2, ![100000, 1]⟩ : Shape).Idx → EReal)
    (e : (⟨2, ![1, 16]⟩ : Shape).Idx → EReal) (i : (⟨2, ![100000, 16]⟩ : Shape).Idx) :
    reluMix a b d e i = max ((a i + b i * d (ix2 (i 0) (0 : Fin 1))) + e (ix2 (0 : Fin 1) (i 1))) 0 := rfl

/-- Entry i of the row-wise log-softmax of  h·Ws + (g · d)·Wn + e . -/
def lsmMix (h g : (⟨2, ![100000, 16]⟩ : Shape).Idx → EReal) (d : (⟨2, ![100000, 1]⟩ : Shape).Idx → EReal)
    (Ws Wn : (⟨2, ![16, 40]⟩ : Shape).Idx → EReal) (e : (⟨2, ![1, 40]⟩ : Shape).Idx → EReal) :
    (⟨2, ![100000, 40]⟩ : Shape).Idx → EReal :=
  fun i => Cert.Sage.lsmAt (fun j' => (Cert.Sage.lin h Ws (i 0) j'
      + ∑ q : Fin 16, (g (ix2 (i 0) q) * d (ix2 (i 0) (0 : Fin 1))) * Wn (ix2 q j')) + e (ix2 (0 : Fin 1) j')) (i 1)

theorem lsmMix_apply (h g : (⟨2, ![100000, 16]⟩ : Shape).Idx → EReal) (d : (⟨2, ![100000, 1]⟩ : Shape).Idx → EReal)
    (Ws Wn : (⟨2, ![16, 40]⟩ : Shape).Idx → EReal) (e : (⟨2, ![1, 40]⟩ : Shape).Idx → EReal)
    (i : (⟨2, ![100000, 40]⟩ : Shape).Idx) :
    lsmMix h g d Ws Wn e i = Cert.Sage.lsmAt (fun j' => (Cert.Sage.lin h Ws (i 0) j'
      + ∑ q : Fin 16, (g (ix2 (i 0) q) * d (ix2 (i 0) (0 : Fin 1))) * Wn (ix2 q j')) + e (ix2 (0 : Fin 1) j')) (i 1) := rfl

end Cert.KernelIdeal.KVal

end
-- ==== Proof.KVal1.lean ====
/-
  What the second launch leaves in its output array, as a whole-array function of the arrays it finds.

  The launch walks twenty blocks of 5000 rows. At block t it loads rows 5000·t … 5000·t + 4999 of two 16-wide matrices
  and of a one-column array, and a one-row array of biases whole, and writes back rows 5000·t … of
  positive part ( first + second · column + biases ). Row r of the output is therefore that expression of row r of the
  whole arrays, the twenty blocks covering every row (row r lies in block r / 5000).
-/
import proofs.«106231_j40518721470745_2_alg».proof.Proof.KPay1
import proofs.«106231_j40518721470745_2_alg».proof.Proof.KFun
import proofs.«106231_j40518721470745_2_alg».proof.Proof.Gen.KernelIdeal.Frame
import Idealize.ShloMosaic.Lib.Pipeline.Value

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-- Where each window's block sits at point t: the two matrices, the column and the output move with the point along
    the rows, the biases stay whole. -/
theorem blocks_at1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The first matrix's block at point t, entry (p, q), is entry (5000·t + p, q) of the matrix. -/
theorem first_block1 (c : Dev nD) (t : Fin cfg1.N) (p : Fin 5000) (q : Fin 16) (r : Fin 100000)
    (hr : r.val = t.val * 5000 + p.val) :
    (iblk1 V c 0 t : Vec Ideal S5000x16 .f32) (ix2 p q) = (V c main_v15_0 : S100000x16.Idx → EReal) (ix2 r q) := by
  obtain ⟨e0, e1, -⟩ := blocks_at1 t
  unfold iblk1
  rw [View.read_apply]
  show V c main_v15_0 _ = V c main_v15_0 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 16 + 1 * q.val = q.val; rw [e1]; omega

/-- The second matrix's block at point t, entry (p, q), is entry (5000·t + p, q) of the matrix. -/
theorem second_block1 (c : Dev nD) (t : Fin cfg1.N) (p : Fin 5000) (q : Fin 16) (r : Fin 100000)
    (hr : r.val = t.val * 5000 + p.val) :
    (iblk1 V c 1 t : Vec Ideal S5000x16 .f32) (ix2 p q) = (V c main_v26 : S100000x16.Idx → EReal) (ix2 r q) := by
  obtain ⟨-, -, e0, e1, -⟩ := blocks_at1 t
  unfold iblk1
  rw [View.read_apply]
  show V c main_v26 _ = V c main_v26 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 16 + 1 * q.val = q.val; rw [e1]; omega

/-- The biases' block at any point is the whole row. -/
theorem bias_block1 (c : Dev nD) (t : Fin cfg1.N) (u : Fin 1) (q : Fin 16) :
    (iblk1 V c 2 t : Vec Ideal S1x16 .f32) (ix2 u q) = (V c main_v13 : S1x16.Idx → EReal) (ix2 u q) := by
  obtain ⟨-, -, -, -, e0, e1, -⟩ := blocks_at1 t
  unfold iblk1
  rw [View.read_apply]
  show V c main_v13 _ = V c main_v13 _
  congr 1
  funext a
  apply Fin.ext
  match a with
  | ⟨0, _⟩ => show win1_2.index t (0 : Fin 2) * 1 + 1 * u.val = u.val; rw [e0]; omega
  | ⟨1, _⟩ => show win1_2.index t (1 : Fin 2) * 16 + 1 * q.val = q.val; rw [e1]; omega

/-- The column's block at point t, entry (p, 0), is entry (5000·t + p, 0) of the column. -/
theorem column_block1 (c : Dev nD) (t : Fin cfg1.N) (p : Fin 5000) (u : Fin 1) (r : Fin 100000)
    (hr : r.val = t.val * 5000 + p.val) :
    (iblk1 V c 3 t : Vec Ideal S5000x1 .f32) (ix2 p u) = (V c main_v12 : S100000x1.Idx → EReal) (ix2 r u) := by
  obtain ⟨-, -, -, -, -, -, e0, e1, -⟩ := blocks_at1 t
  unfold iblk1
  rw [View.read_apply]
  show V c main_v12 _ = V c main_v12 _
  congr 1
  funext a
  apply Fin.ext
  match a with
  | ⟨0, _⟩ => show win1_3.index t (0 : Fin 2) * 5000 + 1 * p.val = r.val; rw [e0, hr]; omega
  | ⟨1, _⟩ => show win1_3.index t (1 : Fin 2) * 1 + 1 * u.val = u.val; rw [e1]; omega

/-- At point t the body's result, at block entry y, is the whole-array function at the entry i that y names:
    row 5000·t + (row of y), the same column. -/
theorem point1_4 (c : Dev nD) (t : Fin cfg1.N) (y : S5000x16.Idx) (i : S100000x16.Idx)
    (h0 : (i 0).val = t.val * 5000 + (y 0).val) (h1 : (i 1).val = (y 1).val) :
    k1_pay1 (F := Ideal) (iblk1 V c 0 t) (iblk1 V c 1 t) (iblk1 V c 3 t) (iblk1 V c 2 t) y
      = reluMix (V c main_v15_0) (V c main_v26) (V c main_v12) (V c main_v13) i := by
  obtain ⟨p, q, rfl⟩ : ∃ (p : Fin 5000) (q : Fin 16), y = ix2 p q := ⟨y 0, y 1, eq_ix2 y⟩
  obtain ⟨r, s, rfl⟩ : ∃ (r : Fin 100000) (s : Fin 16), i = ix2 r s := ⟨i 0, i 1, eq_ix2 i⟩
  have hs : s = q := Fin.ext h1
  subst hs
  refine (k1_pay1_apply (iblk1 V c 0 t) (iblk1 V c 1 t) (iblk1 V c 3 t) (iblk1 V c 2 t) p s).trans ?_
  rw [first_block1 V c t p s r h0, second_block1 V c t p s r h0, column_block1 V c t p 0 r h0, bias_block1 V c t 0 s]
  rfl

/-- What point t writes back is block t of the whole-array function. -/
theorem flushed1_4_eq (c : Dev nD) (t : Fin cfg1.N) :
    (dat1 V c).flushed 4 t
      = ((cfg1.win 4).blk t).view.read (Elt Ideal) (reluMix (V c main_v15_0) (V c main_v26) (V c main_v12) (V c main_v13)) := by
  show (cfg1.win 4).cut (grid1.coords t) ((dat1 V c).after 4 t) = _
  rw [after1_4]
  unfold out1_4
  rw [View.canon_unit_zero zero_offsets1]
  simp only [View.ld_unit_zero (S := S5000x16) zero_offsets1, View.ld_unit_zero (S := S5000x1) zero_offsets1,
    View.ld_unit_zero (S := S1x16) zero_offsets1]
  obtain ⟨-, -, -, -, -, -, -, -, e0, e1⟩ := blocks_at1 t
  funext j
  refine point1_4 V c t _ _ ?_ ?_
  · show win1_4.index t (0 : Fin 2) * 5000 + 1 * (j 0).val = t.val * 5000 + (j 0).val; rw [e0]; omega
  · show win1_4.index t (1 : Fin 2) * 16 + 1 * (j 1).val = (j 1).val; rw [e1]; omega

/-- An index of the output is in point t's block iff each coordinate is in the block's range on its axis. -/
theorem mem_blk1_4 (t : Fin cfg1.N) (i : S100000x16.Idx) :
    i ∈ ((cfg1.win 4).blk t).view.set ↔ ∀ a : Fin 2, win1_4.index t a * S5000x16.size a ≤ (i a).val ∧ (i a).val < win1_4.index t a * S5000x16.size a + S5000x16.size a := by
  show i ∈ ((View.whole main_v27).slice (win1_4.rect t)).set ↔ _
  rw [View.set_slice_whole, Rect.mem_set_unit]
  exact Iff.rfl

/-- Every entry of the output lies in some point's block: row r in block r / 5000. -/
theorem cover1_4_all (i : S100000x16.Idx) :
    ∃ t : Fin cfg1.N, (cfg1.win 4).flush t = true ∧ i ∈ ((cfg1.win 4).blk t).view.set := by
  have hi0 : (i 0).val < 100000 := (i 0).isLt
  have hi1 : (i 1).val < 16 := (i 1).isLt
  have hN : cfg1.N = 20 := N_1
  let t : Fin cfg1.N := ⟨(i 0).val / 5000, by rw [hN]; omega⟩
  obtain ⟨-, -, -, -, -, -, -, -, e0, e1⟩ := blocks_at1 t
  have ht : t.val = (i 0).val / 5000 := rfl
  refine ⟨t, flush1_4 t, ?_⟩
  rw [mem_blk1_4]
  intro a
  match a with
  | ⟨0, _⟩ => show win1_4.index t (0 : Fin 2) * 5000 ≤ (i 0).val ∧ (i 0).val < win1_4.index t (0 : Fin 2) * 5000 + 5000; rw [e0, ht]; omega
  | ⟨1, _⟩ => show win1_4.index t (1 : Fin 2) * 16 ≤ (i 1).val ∧ (i 1).val < win1_4.index t (1 : Fin 2) * 16 + 16; rw [e1]; omega

/-- THE OUTPUT after the launch: the positive part of  first + second · column + biases , entry by entry. -/
theorem final1_4 (c : Dev nD) :
    (dat1 V c).arrAt 4 cfg1.N = reluMix (V c main_v15_0) (V c main_v26) (V c main_v12) (V c main_v13) :=
  (dat1 V c).arrAt_eq_of_cover 4 (reluMix (V c main_v15_0) (V c main_v26) (V c main_v12) (V c main_v13))
    (fun t _ => flushed1_4_eq V c t) cover1_4_all

end Cert.KernelIdeal.KVal

end
-- ==== Proof.KPay2.lean ====
/-
  What the third kernel body computes from the blocks it loads, read at one entry (row p, column q), on the extended
  reals. The body adds two plain matrix products — the first block against a 16×40 matrix, and the second block,
  scaled row by row by a one-column block, against another 16×40 matrix — and a row of 40 biases; then, row by row,
  it subtracts the row's maximum and the logarithm of the sum of the exponentials of the shifted row: the
  log-softmax of the row. Changes of number format are the identity on extended reals.
-/
import proofs.«106231_j40518721470745_2_alg».proof.Proof.KPay
import Idealize.ShloMosaic.PureOps.Ideal.Laws

noncomputable section

open scoped BigOperators

namespace Cert.KernelIdeal.KVal

open Cert.KernelIdeal Cert.KernelIdeal.Gen Idealize.ShloMosaic Idealize.ShloMosaic.ValueIdx

/-! ## A row's reductions -/

/-- The entry of a 5000×40 matrix that sits over row p at column k. -/
theorem lift_row (h : S5000x40.Reduces [(1 : Fin 2)] S5000) (p : Fin 5000) (k : Fin 40) :
    h.lift (ix1 p) k = ix2 p k := by
  funext a
  apply Fin.ext
  match a with
  | ⟨0, _⟩ => rfl
  | ⟨1, _⟩ => rfl

/-- The maximum along a row, from minus infinity. -/
theorem rowmax_apply (w : FVec Ideal S5000x40 .f32) (p : Fin 5000) :
    multiReduction (F := Ideal) .maximumf [1] S5000 w 0xFF800000#32 reduces_S5000x40_S5000 (.inl rfl) rfl (ix1 p)
      = Cert.Sage.rowMax (fun j' => w (ix2 p j')) := by
  refine (Ideal.multiReduction_maximumf_single w 0xFF800000#32 reduces_S5000x40_S5000 (.inl rfl) rfl (ix1 p)).trans ?_
  have e : (w ∘ reduces_S5000x40_S5000.lift (ix1 p)) = fun j' : Fin 40 => w (ix2 p j') :=
    funext fun k => congrArg w (lift_row _ p k)
  rw [e]
  rfl

/-- The sum along a row. -/
theorem rowsum_apply (w : FVec Ideal S5000x40 .f32) (p : Fin 5000) :
    multiReduction (F := Ideal) .add [1] S5000 w 0x00000000#32 reduces_S5000x40_S5000 (.inl rfl) rfl (ix1 p)
      = ∑ k : Fin 40, w (ix2 p k) := by
  refine (Ideal.multiReduction_add_single w 0x00000000#32 reduces_S5000x40_S5000 (.inl rfl) rfl (ix1 p)).trans ?_
  exact Finset.sum_congr rfl fun k _ => congrArg w (lift_row _ p k)

/-! ## The log-softmax of each row, as the body writes it -/

/-- Each row's maximum, kept as a column and spread back along the row. -/
abbrev spreadMax (w : FVec Ideal S5000x40 .f32) : FVec Ideal S5000x40 .f32 :=
  broadcastTo S5000x40 (shapeCast S5000x1
    (multiReduction (F := Ideal) .maximumf [1] S5000 w 0xFF800000#32 reduces_S5000x40_S5000 (.inl rfl) rfl)
    shapeCasts_S5000_S5000x1) broadcasts_S5000x1_S5000x40

/-- At every entry of row p it is the row's maximum. -/
theorem spreadMax_apply (w : FVec Ideal S5000x40 .f32) (p : Fin 5000) (k : Fin 40) :
    spreadMax w (ix2 p k) = Cert.Sage.rowMax (fun j' => w (ix2 p j')) :=
  (Cert.LibColumn.keepdims_apply _ _ _ p k).trans (rowmax_apply w p)

/-- Subtract the row's maximum; subtract the logarithm of the row sum of the exponentials of the shifted row:
    entry (p, q) is the log-softmax of row p at q. -/
theorem lsm_rows_apply (w : FVec Ideal S5000x40 .f32) (p : Fin 5000) (q : Fin 40) :
    subf (subf w (spreadMax w))
      (broadcastTo S5000x40
        (log (shapeCast S5000x1
          (multiReduction (F := Ideal) .add [1] S5000 (exp (subf w (spreadMax w))) 0x00000000#32
            reduces_S5000x40_S5000 (.inl rfl) rfl)
          shapeCasts_S5000_S5000x1))
        broadcasts_S5000x1_S5000x40) (ix2 p q)
      = Cert.Sage.lsmAt (fun j' => w (ix2 p j')) q := by
  rw [subf_apply, subf_apply, spreadMax_apply w p q, Cert.LibColumn.broadcastTo_a1_ab_apply]
  show _ - Ideal.log (shapeCast S5000x1 _ shapeCasts_S5000_S5000x1 (ix2 p (0 : Fin 1))) = _
  rw [Cert.LibColumn.shapeCast_a_a1_apply, rowsum_apply]
  have hsum : ∑ k : Fin 40, exp (subf w (spreadMax w)) (ix2 p k)
      = ∑ k : Fin 40, Ideal.exp (w (ix2 p k) - Cert.Sage.rowMax (fun j' => w (ix2 p j'))) :=
    Finset.sum_congr rfl fun k _ => by
      show Ideal.exp (w (ix2 p k) - spreadMax w (ix2 p k)) = _
      rw [spreadMax_apply w p k]
  rw [hsum]
  rfl

/-! ## The third body -/

/-- The body's value before the softmax, at entry (p, j): the two products and the bias. -/
theorem logits_apply (v0 : FVec Ideal S5000x16 .bf16) (v2 : FVec Ideal S5000x16 .f32) (v4 : FVec Ideal S5000x1 .f32)
    (v8 v10 : FVec Ideal S16x40 .f32) (v16 : FVec Ideal S1x40 .f32) (p : Fin 5000) (j : Fin 40) :
    addf (addf
        (matmul (F := Ideal) dot_S5000x16_S16x40_S5000x40_1_0_0_1_n_n none (shapeCast S5000x16 v0 shapeCasts_S5000x16_S5000x16)
          (truncf .bf16 v8 bitsLt_bf16_f32) (constant (F := Ideal) S5000x40 .f32 0x00000000#32))
        (matmul (F := Ideal) dot_S5000x16_S16x40_S5000x40_1_0_0_1_n_n none
          (truncf .bf16 (mulf (shapeCast S5000x16 v2 shapeCasts_S5000x16_S5000x16)
            (broadcastTo S5000x16 (shapeCast S5000x1 v4 shapeCasts_S5000x1_S5000x1) broadcasts_S5000x1_S5000x16)) bitsLt_bf16_f32)
          (truncf .bf16 v10 bitsLt_bf16_f32) (constant (F := Ideal) S5000x40 .f32 0x00000000#32)))
      (broadcastTo S5000x40 (shapeCast S1x40 v16 shapeCasts_S1x40_S1x40) broadcasts_S1x40_S5000x40) (ix2 p j)
      = (∑ k : Fin 16, v0 (ix2 p k) * v8 (ix2 k j)
          + ∑ k : Fin 16, (v2 (ix2 p k) * v4 (ix2 p (0 : Fin 1))) * v10 (ix2 k j)) + v16 (ix2 (0 : Fin 1) j) := by
  rw [shapeCast_self, shapeCast_self, shapeCast_self, shapeCast_self, addf_apply, addf_apply, broadcastTo_1b_ab_apply]
  refine congrArg₂ (· + ·) (congrArg₂ (· + ·) ?_ ?_) rfl
  · exact PlainDot.matmul_zero_apply plain_5000x16x40 none _ _ (ix2 p j)
  · refine (PlainDot.matmul_zero_apply plain_5000x16x40 none _ _ (ix2 p j)).trans ?_
    refine Finset.sum_congr rfl fun k _ => ?_
    show (v2 (ix2 p k) * broadcastTo S5000x16 v4 broadcasts_S5000x1_S5000x16 (ix2 p k)) * v10 (ix2 k j) = _
    rw [Cert.LibColumn.broadcastTo_a1_ab_apply]

/-- Entry (p, q) of the third body's result: the log-softmax of row p of the two products plus the bias. -/
theorem k2_pay1_apply (v0 : FVec Ideal S5000x16 .bf16) (v2 : FVec Ideal S5000x16 .f32) (v4 : FVec Ideal S5000x1 .f32)
    (v8 v10 : FVec Ideal S16x40 .f32) (v16 : FVec Ideal S1x40 .f32) (p : Fin 5000) (q : Fin 40) :
    k2_pay1 (F := Ideal) v0 v2 v4 v8 v10 v16 (ix2 p q)
      = Cert.Sage.lsmAt (fun j' => (∑ k : Fin 16, v0 (ix2 p k) * v8 (ix2 k j')
          + ∑ k : Fin 16, (v2 (ix2 p k) * v4 (ix2 p (0 : Fin 1))) * v10 (ix2 k j')) + v16 (ix2 (0 : Fin 1) j')) q := by
  unfold k2_pay1
  refine (lsm_rows_apply _ p q).trans ?_
  exact congrArg (fun o => Cert.Sage.lsmAt o q) (funext fun j' => logits_apply v0 v2 v4 v8 v10 v16 p j')

end Cert.KernelIdeal.KVal

end
-- ==== Proof.KVal2.lean ====
/-
  What the third launch leaves in its output array, as a whole-array function of the arrays it finds.

  The launch walks twenty blocks of 5000 rows. At block t it loads rows 5000·t … 5000·t + 4999 of the hidden matrix,
  of the summed matrix and of the one-column array of row scales, and the two 16×40 matrices and the row of 40 biases
  whole; it writes back rows 5000·t … of the row-wise log-softmax of
  hidden · first + (summed · scale) · second + biases. Row r of the output is therefore that expression of row r of the
  whole arrays, the twenty blocks covering every row (row r lies in block r / 5000).
-/
import proofs.«106231_j40518721470745_2_alg».proof.Proof.KPay2
import proofs.«106231_j40518721470745_2_alg».proof.Proof.KFun
import proofs.«106231_j40518721470745_2_alg».proof.Proof.Gen.KernelIdeal.Frame
import Idealize.ShloMosaic.Lib.Pipeline.Value

noncomputable section

open scoped BigOperators

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- Where each window's block sits at point t: the hidden rows, the summed rows, the column and the output move with
    the point along the rows; the two matrices and the biases stay whole. -/
theorem blocks_at2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The hidden rows' block at point t, entry (p, k), is entry (5000·t + p, k) of the hidden matrix. -/
theorem hidden_block2 (c : Dev nD) (t : Fin cfg2.N) (p : Fin 5000) (k : Fin 16) (r : Fin 100000)
    (hr : r.val = t.val * 5000 + p.val) :
    (iblk2 V c 0 t : Vec Ideal S5000x16 .bf16) (ix2 p k) = (V c main_v27 : S100000x16.Idx → EReal) (ix2 r k) := by
  obtain ⟨e0, e1, -⟩ := blocks_at2 t
  unfold iblk2
  rw [View.read_apply]
  show V c main_v27 _ = V c main_v27 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 16 + 1 * k.val = k.val; rw [e1]; omega

/-- The summed rows' block at point t, entry (p, k), is entry (5000·t + p, k) of the summed matrix. -/
theorem summed_block2 (c : Dev nD) (t : Fin cfg2.N) (p : Fin 5000) (k : Fin 16) (r : Fin 100000)
    (hr : r.val = t.val * 5000 + p.val) :
    (iblk2 V c 1 t : Vec Ideal S5000x16 .f32) (ix2 p k) = (V c main_v38 : S100000x16.Idx → EReal) (ix2 r k) := by
  obtain ⟨-, -, e0, e1, -⟩ := blocks_at2 t
  unfold iblk2
  rw [View.read_apply]
  show V c main_v38 _ = V c main_v38 _
  congr 1
  funext a
  apply Fin.ext
  match a with
  | ⟨0, _⟩ => show win2_1.index t (0 : Fin 2) * 5000 + 1 * p.val = r.val; rw [e0, hr]; omega
  | ⟨1, _⟩ => show win2_1.index t (1 : Fin 2) * 16 + 1 * k.val = k.val; rw [e1]; omega

/-- A 16×40 matrix's block at any point is the whole matrix (first matrix). -/
theorem wself_block2 (c : Dev nD) (t : Fin cfg2.N) (k : Fin 16) (q : Fin 40) :
    (iblk2 V c 2 t : Vec Ideal S16x40 .f32) (ix2 k q) = (V c main_arg5 : S16x40.Idx → EReal) (ix2 k q) := by
  obtain ⟨-, -, -, -, e0, e1, -⟩ := blocks_at2 t
  unfold iblk2
  rw [View.read_apply]
  show V c main_arg5 _ = V c main_arg5 _
  congr 1
  funext a
  apply Fin.ext
  match a with
  | ⟨0, _⟩ => show win2_2.index t (0 : Fin 2) * 16 + 1 * k.val = k.val; rw [e0]; omega
  | ⟨1, _⟩ => show win2_2.index t (1 : Fin 2) * 40 + 1 * q.val = q.val; rw [e1]; omega

/-- A 16×40 matrix's block at any point is the whole matrix (second matrix). -/
theorem wneigh_block2 (c : Dev nD) (t : Fin cfg2.N) (k : Fin 16) (q : Fin 40) :
    (iblk2 V c 3 t : Vec Ideal S16x40 .f32) (ix2 k q) = (V c main_arg6 : S16x40.Idx → EReal) (ix2 k q) := by
  obtain ⟨-, -, -, -, -, -, e0, e1, -⟩ := blocks_at2 t
  unfold iblk2
  rw [View.read_apply]
  show V c main_arg6 _ = V c main_arg6 _
  congr 1
  funext a
  apply Fin.ext
  match a with
  | ⟨0, _⟩ => show win2_3.index t (0 : Fin 2) * 16 + 1 * k.val = k.val; rw [e0]; omega
  | ⟨1, _⟩ => show win2_3.index t (1 : Fin 2) * 40 + 1 * q.val = q.val; rw [e1]; omega

/-- The biases' block at any point is the whole row. -/
theorem bias_block2 (c : Dev nD) (t : Fin cfg2.N) (k : Fin 1) (q : Fin 40) :
    (iblk2 V c 4 t : Vec Ideal S1x40 .f32) (ix2 k q) = (V c main_v14 : S1x40.Idx → EReal) (ix2 k q) := by
  obtain ⟨-, -, -, -, -, -, -, -, e0, e1, -⟩ := blocks_at2 t
  unfold iblk2
  rw [View.read_apply]
  show V c main_v14 _ = V c main_v14 _
  congr 1
  funext a
  apply Fin.ext
  match a with
  | ⟨0, _⟩ => show win2_4.index t (0 : Fin 2) * 1 + 1 * k.val = k.val; rw [e0]; omega
  | ⟨1, _⟩ => show win2_4.index t (1 : Fin 2) * 40 + 1 * q.val = q.val; rw [e1]; omega

/-- The column's block at point t, entry (p, 0), is entry (5000·t + p, 0) of the column. -/
theorem column_block2 (c : Dev nD) (t : Fin cfg2.N) (p : Fin 5000) (k : Fin 1) (r : Fin 100000)
    (hr : r.val = t.val * 5000 + p.val) :
    (iblk2 V c 5 t : Vec Ideal S5000x1 .f32) (ix2 p k) = (V c main_v12 : S100000x1.Idx → EReal) (ix2 r k) := by
  obtain ⟨-, -, -, -, -, -, -, -, -, -, e0, e1, -⟩ := blocks_at2 t
  unfold iblk2
  rw [View.read_apply]
  show V c main_v12 _ = V c main_v12 _
  congr 1
  funext a
  apply Fin.ext
  match a with
  | ⟨0, _⟩ => show win2_5.index t (0 : Fin 2) * 5000 + 1 * p.val = r.val; rw [e0, hr]; omega
  | ⟨1, _⟩ => show win2_5.index t (1 : Fin 2) * 1 + 1 * k.val = k.val; rw [e1]; omega

/-- The whole-array function at an entry given by its coordinates. -/
theorem lsmMix_at (h g : S100000x16.Idx → EReal) (d : S100000x1.Idx → EReal) (Ws Wn : S16x40.Idx → EReal)
    (e : S1x40.Idx → EReal) (r : Fin 100000) (s : Fin 40) :
    lsmMix h g d Ws Wn e (ix2 r s)
      = Cert.Sage.lsmAt (fun j' => (Cert.Sage.lin h Ws r j'
          + ∑ q : Fin 16, (g (ix2 r q) * d (ix2 r (0 : Fin 1))) * Wn (ix2 q j')) + e (ix2 (0 : Fin 1) j')) s := rfl

/-- At point t the body's result, at block entry y, is the whole-array function at the entry i that y names:
    row 5000·t + (row of y), the same column. -/
theorem point2_6 (c : Dev nD) (t : Fin cfg2.N) (y : S5000x40.Idx) (i : S100000x40.Idx)
    (h0 : (i 0).val = t.val * 5000 + (y 0).val) (h1 : (i 1).val = (y 1).val) :
    k2_pay1 (F := Ideal) (iblk2 V c 0 t) (iblk2 V c 1 t) (iblk2 V c 5 t) (iblk2 V c 2 t) (iblk2 V c 3 t) (iblk2 V c 4 t) y
      = lsmMix (V c main_v27) (V c main_v38) (V c main_v12) (V c main_arg5) (V c main_arg6) (V c main_v14) i := by
  obtain ⟨p, q, rfl⟩ : ∃ (p : Fin 5000) (q : Fin 40), y = ix2 p q := ⟨y 0, y 1, eq_ix2 y⟩
  obtain ⟨r, s, rfl⟩ : ∃ (r : Fin 100000) (s : Fin 40), i = ix2 r s := ⟨i 0, i 1, eq_ix2 i⟩
  have hs : s = q := Fin.ext h1
  subst hs
  refine ((k2_pay1_apply (iblk2 V c 0 t) (iblk2 V c 1 t) (iblk2 V c 5 t) (iblk2 V c 2 t) (iblk2 V c 3 t) (iblk2 V c 4 t) p s).trans ?_).trans
    (lsmMix_at (V c main_v27) (V c main_v38) (V c main_v12) (V c main_arg5) (V c main_arg6) (V c main_v14) r s).symm
  refine congrArg (fun o => Cert.Sage.lsmAt o s) (funext fun j' => ?_)
  unfold Cert.Sage.lin
  refine congrArg₂ (· + ·) (congrArg₂ (· + ·) (Finset.sum_congr rfl fun k _ => ?_) (Finset.sum_congr rfl fun k _ => ?_)) ?_
  · rw [hidden_block2 V c t p k r h0, wself_block2 V c t k j']
  · rw [summed_block2 V c t p k r h0, column_block2 V c t p 0 r h0, wneigh_block2 V c t k j']
  · exact bias_block2 V c t 0 j'

/-- What point t writes back is block t of the whole-array function. -/
theorem flushed2_6_eq (c : Dev nD) (t : Fin cfg2.N) :
    (dat2 V c).flushed 6 t
      = ((cfg2.win 6).blk t).view.read (Elt Ideal)
          (lsmMix (V c main_v27) (V c main_v38) (V c main_v12) (V c main_arg5) (V c main_arg6) (V c main_v14)) := by
  show (cfg2.win 6).cut (grid2.coords t) ((dat2 V c).after 6 t) = _
  rw [after2_6]
  unfold out2_6
  rw [View.canon_unit_zero zero_offsets2]
  simp only [View.ld_unit_zero (S := S5000x16) zero_offsets2, View.ld_unit_zero (S := S5000x1) zero_offsets2,
    View.ld_unit_zero (S := S16x40) zero_offsets2, View.ld_unit_zero (S := S1x40) zero_offsets2]
  obtain ⟨-, -, -, -, -, -, -, -, -, -, -, -, e0, e1⟩ := blocks_at2 t
  funext j
  refine point2_6 V c t _ _ ?_ ?_
  · show win2_6.index t (0 : Fin 2) * 5000 + 1 * (j 0).val = t.val * 5000 + (j 0).val; rw [e0]; omega
  · show win2_6.index t (1 : Fin 2) * 40 + 1 * (j 1).val = (j 1).val; rw [e1]; omega

/-- An index of the output is in point t's block iff each coordinate is in the block's range on its axis. -/
theorem mem_blk2_6 (t : Fin cfg2.N) (i : S100000x40.Idx) :
    i ∈ ((cfg2.win 6).blk t).view.set ↔ ∀ a : Fin 2, win2_6.index t a * S5000x40.size a ≤ (i a).val ∧ (i a).val < win2_6.index t a * S5000x40.size a + S5000x40.size a := by
  show i ∈ ((View.whole main_v39).slice (win2_6.rect t)).set ↔ _
  rw [View.set_slice_whole, Rect.mem_set_unit]
  exact Iff.rfl

/-- Every entry of the output lies in some point's block: row r in block r / 5000. -/
theorem cover2_6_all (i : S100000x40.Idx) :
    ∃ t : Fin cfg2.N, (cfg2.win 6).flush t = true ∧ i ∈ ((cfg2.win 6).blk t).view.set := by
  have hi0 : (i 0).val < 100000 := (i 0).isLt
  have hi1 : (i 1).val < 40 := (i 1).isLt
  have hN : cfg2.N = 20 := N_2
  let t : Fin cfg2.N := ⟨(i 0).val / 5000, by rw [hN]; omega⟩
  obtain ⟨-, -, -, -, -, -, -, -, -, -, -, -, e0, e1⟩ := blocks_at2 t
  have ht : t.val = (i 0).val / 5000 := rfl
  refine ⟨t, flush2_6 t, ?_⟩
  rw [mem_blk2_6]
  intro a
  match a with
  | ⟨0, _⟩ => show win2_6.index t (0 : Fin 2) * 5000 ≤ (i 0).val ∧ (i 0).val < win2_6.index t (0 : Fin 2) * 5000 + 5000; rw [e0, ht]; omega
  | ⟨1, _⟩ => show win2_6.index t (1 : Fin 2) * 40 ≤ (i 1).val ∧ (i 1).val < win2_6.index t (1 : Fin 2) * 40 + 40; rw [e1]; omega

/-- THE OUTPUT after the launch: the row-wise log-softmax of  hidden · first + (summed · scale) · second + biases . -/
theorem final2_6 (c : Dev nD) :
    (dat2 V c).arrAt 6 cfg2.N
      = lsmMix (V c main_v27) (V c main_v38) (V c main_v12) (V c main_arg5) (V c main_arg6) (V c main_v14) :=
  (dat2 V c).arrAt_eq_of_cover 6
    (lsmMix (V c main_v27) (V c main_v38) (V c main_v12) (V c main_arg5) (V c main_arg6) (V c main_v14))
    (fun t _ => flushed2_6_eq V c t) cover2_6_all

end Cert.KernelIdeal.KVal

end
-- ==== Proof.KValue.lean ====
/-
  What the idealized kernel program computes: its result array is the network of the specification, in the
  arrangement that multiplies by the neighbour weights before adding rows up.

  The first launch multiplies the node features by the two weight matrices of layer one, block of rows by block of
  rows. The rows of the second product are added up along the edges on the host; the second launch scales each node's
  sum by the reciprocal of its count, adds the first product and the bias and takes the positive part: that is layer
  one. Its rows are added up along the edges again; the third launch scales the sums, multiplies by the weights of
  layer two, adds the bias and takes the log-softmax of each row.
-/
import proofs.«106231_j40518721470745_2_alg».proof.Proof.KFold
import proofs.«106231_j40518721470745_2_alg».proof.Proof.KVal0
import proofs.«106231_j40518721470745_2_alg».proof.Proof.KVal1
import proofs.«106231_j40518721470745_2_alg».proof.Proof.KVal2
import Idealize.ShloMosaic.Lib.ValueLayout

noncomputable section

open scoped BigOperators

namespace Cert.KernelIdeal.KValue

open Cert.KernelIdeal Cert.KernelIdeal.Gen Cert.KernelIdeal.KHost Cert.KernelIdeal.KFold
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-! ## The first launch: the two products of layer one -/

theorem W2_v15_0 : W2 m ρ c (Proc.devRef .tc main_v15_0)
    = Cert.Sage.linM (m ((c : Thread nD τ).loc main_arg0)) (m ((c : Thread nD τ).loc main_arg2)) := by
  refine (W2_arr m ρ c 3).trans ((Cert.KernelIdeal.KVal.final0_3 (V1 m ρ) c).trans ?_)
  show Cert.Sage.linM (W1 m ρ c (Proc.devRef .tc main_arg0)) (W1 m ρ c (Proc.devRef .tc main_arg2)) = _
  rw [W1_arg0, W1_arg2]

theorem W2_v15_1 : W2 m ρ c (Proc.devRef .tc main_v15_1)
    = Cert.Sage.linM (m ((c : Thread nD τ).loc main_arg0)) (m ((c : Thread nD τ).loc main_arg3)) := by
  refine (W2_arr m ρ c 4).trans ((Cert.KernelIdeal.KVal.final0_4 (V1 m ρ) c).trans ?_)
  show Cert.Sage.linM (W1 m ρ c (Proc.devRef .tc main_arg0)) (W1 m ρ c (Proc.devRef .tc main_arg3)) = _
  rw [W1_arg0, W1_arg3]

/-! ## The second launch: layer one -/

/-- The second launch leaves layer one (with its positive part) in its output array. -/
theorem W4_v27 : W4 m ρ c (Proc.devRef .tc main_v27) = (Cert.Sage.hKer (srcCol (m ((c : Thread nD τ).loc main_arg1))) (dstCol (m ((c : Thread nD τ).loc main_arg1))) (m ((c : Thread nD τ).loc main_arg0)) (m ((c : Thread nD τ).loc main_arg2)) (m ((c : Thread nD τ).loc main_arg3)) (m ((c : Thread nD τ).loc main_arg4))) := by
  refine (W4_arr m ρ c 4).trans ((Cert.KernelIdeal.KVal.final1_4 (V3 m ρ) c).trans ?_)
  show Cert.KernelIdeal.KVal.reluMix (W3 m ρ c (Proc.devRef .tc main_v15_0)) (W3 m ρ c (Proc.devRef .tc main_v26))
      (W3 m ρ c (Proc.devRef .tc main_v12)) (W3 m ρ c (Proc.devRef .tc main_v13)) = _
  rw [W3_v15_0, W2_v15_0, W3_v26, W2_v15_1, W3_v12, W3_v13]
  funext i
  obtain ⟨n, j, rfl⟩ : ∃ (n : Fin 100000) (j : Fin 16), i = ix2 n j := ⟨i 0, i 1, eq_ix2 i⟩
  rw [Cert.KernelIdeal.KVal.reluMix_apply, aggArr_apply, dinvCol_apply, shapeCast_a_1a_apply]
  rfl

/-! ## The third launch: layer two and the log-softmax -/

/-- The third launch leaves the whole network in the result array. -/
theorem W6_v39 : W6 m ρ c (Proc.devRef .tc main_v39)
    = Cert.Sage.netKer (srcCol (m ((c : Thread nD τ).loc main_arg1))) (dstCol (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 6).trans ((Cert.KernelIdeal.KVal.final2_6 (V5 m ρ) c).trans ?_)
  show Cert.KernelIdeal.KVal.lsmMix (W5 m ρ c (Proc.devRef .tc main_v27)) (W5 m ρ c (Proc.devRef .tc main_v38))
      (W5 m ρ c (Proc.devRef .tc main_v12)) (W5 m ρ c (Proc.devRef .tc main_arg5)) (W5 m ρ c (Proc.devRef .tc main_arg6))
      (W5 m ρ c (Proc.devRef .tc main_v14)) = _
  rw [W5_v27, W5_v38, W4_v27, W5_v12, W5_arg5, W5_arg6, W5_v14]
  funext i
  obtain ⟨n, j, rfl⟩ : ∃ (n : Fin 100000) (j : Fin 40), i = ix2 n j := ⟨i 0, i 1, eq_ix2 i⟩
  rw [Cert.KernelIdeal.KVal.lsmMix_at]
  show _ = Cert.Sage.lsmAt (fun j' => Cert.Sage.outKerAt (srcCol (m ((c : Thread nD τ).loc main_arg1))) (dstCol (m ((c : Thread nD τ).loc main_arg1))) (Cert.Sage.hKer (srcCol (m ((c : Thread nD τ).loc main_arg1))) (dstCol (m ((c : Thread nD τ).loc main_arg1))) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) n j') j
  refine congrArg (fun o => Cert.Sage.lsmAt o j) (funext fun j' => ?_)
  rw [dinvCol_apply, shapeCast_a_1a_apply, Cert.Sage.outKerAt]
  refine congrArg₂ (· + ·) (congrArg₂ (· + ·) rfl (Finset.sum_congr rfl fun q _ => ?_)) rfl
  rw [aggArr_apply]

end Cert.KernelIdeal.KValue

end
-- ==== Proof.RefLayers.lean ====
/-
  The reference's two layers as array expressions, read at an entry.

  The reference computes a layer as one expression of whole arrays: the node rows against the self weights, plus the
  neighbour mean against the neighbour weights, plus the bias row spread over all nodes. The neighbour mean is the sum
  of the rows the edges sent to a node read, divided by the number of those edges (at least one) spread along the
  row. Read at entry (n, j) a matrix product is a finite sum of products, the sum along the edges and the count are
  the specification's, the spread count is the node's own count and the spread bias the column's own bias: layer one
  with its positive part is the specification's first arrangement of layer one, and layer two its first arrangement
  of layer two.
-/
import proofs.«106231_j40518721470745_2_alg».proof.Proof.Gen.ReferenceIdeal
import proofs.«106231_j40518721470745_2_alg».proof.Proof.Spec
import proofs.«106231_j40518721470745_2_alg».proof.Proof.LibRows
import proofs.«106231_j40518721470745_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.ReferenceIdeal.RefExpr

open Cert.ReferenceIdeal Cert.ReferenceIdeal.Facts₀ Cert.ReferenceIdeal.Facts
open Idealize.ShloMosaic Idealize.ShloMosaic.ValueIdx Cert.Sage

/-! ## The expressions -/

/-- The count of edges sent to each node, at least one: a scatter of ones into zeros, then the maximum with one. -/
def degArr (dc : Cert.Sage.Col) : FVec Ideal S100000 .f32 :=
  maximumf (F := Ideal) (Host.scatterAdd (F := Ideal) scatter_S100000_S1200000x1_S1200000_n_0_0_1 (broadcastInDim S100000 ![] bcast_S_S100000 (constant (F := Ideal) S_ .f32 0x00000000#32)) dc (broadcastInDim S1200000 ![] bcast_S_S1200000 (constant (F := Ideal) S_ .f32 0x3F800000#32))) (broadcastInDim S100000 ![] bcast_S_S100000 (constant (F := Ideal) S_ .f32 0x3F800000#32))

/-- Layer one and the positive part. -/
def layer1 (sc dc : Cert.Sage.Col) (x0 : FVec Ideal S100000x64 .f32) (x2 x3 : FVec Ideal S64x16 .f32) (x4 : FVec Ideal S16 .f32) :
    FVec Ideal S100000x16 .f32 :=
  maximumf (F := Ideal) (addf (F := Ideal) (addf (F := Ideal) (Host.dotGeneral (F := Ideal) dot_S100000x64_S64x16_S100000x16_1_0_0_1_n_n none x0 x2) (Host.dotGeneral (F := Ideal) dot_S100000x64_S64x16_S100000x16_1_0_0_1_n_n none (Host.divf (F := Ideal) (Host.scatterAdd (F := Ideal) scatter_S100000x64_S1200000x1_S1200000x64_1_0_0_1 (broadcastInDim S100000x64 ![] bcast_S_S100000x64 (constant (F := Ideal) S_ .f32 0x00000000#32)) dc (Host.gather gather_S100000x64_S1200000x1_S1200000x64_1_0_n_n_0_1_164 x0 sc)) (broadcastInDim S100000x64 ![0, 1] bcast_S100000x1_S100000x64_0_1 (broadcastInDim S100000x1 ![0] bcast_S100000_S100000x1_0 (degArr dc)))) x3)) (broadcastInDim S100000x16 ![0, 1] bcast_S1x16_S100000x16_0_1 (broadcastInDim S1x16 ![1] bcast_S16_S1x16_1 x4))) (broadcastInDim S100000x16 ![] bcast_S_S100000x16 (constant (F := Ideal) S_ .f32 0x00000000#32))

/-- Layer two. -/
def layer2 (sc dc : Cert.Sage.Col) (h : FVec Ideal S100000x16 .f32) (x5 x6 : FVec Ideal S16x40 .f32) (x7 : FVec Ideal S40 .f32) :
    FVec Ideal S100000x40 .f32 :=
  addf (F := Ideal) (addf (F := Ideal) (Host.dotGeneral (F := Ideal) dot_S100000x16_S16x40_S100000x40_1_0_0_1_n_n none h x5) (Host.dotGeneral (F := Ideal) dot_S100000x16_S16x40_S100000x40_1_0_0_1_n_n none (Host.divf (F := Ideal) (Host.scatterAdd (F := Ideal) scatter_S100000x16_S1200000x1_S1200000x16_1_0_0_1 (broadcastInDim S100000x16 ![] bcast_S_S100000x16 (constant (F := Ideal) S_ .f32 0x00000000#32)) dc (Host.gather gather_S100000x16_S1200000x1_S1200000x16_1_0_n_n_0_1_116 h sc)) (broadcastInDim S100000x16 ![0, 1] bcast_S100000x1_S100000x16_0_1 (broadcastInDim S100000x1 ![0] bcast_S100000_S100000x1_0 (degArr dc)))) x6)) (broadcastInDim S100000x40 ![0, 1] bcast_S1x40_S100000x40_0_1 (broadcastInDim S1x40 ![1] bcast_S40_S1x40_1 x7))

/-! ## Pointwise operations and broadcasts at an index -/

theorem divf_apply {S : Shape} (a b : FVec Ideal S .f32) (i : S.Idx) :
    Host.divf (F := Ideal) a b i = Ideal.div (a i) (b i) := rfl
theorem maxf_apply {S : Shape} (a b : FVec Ideal S .f32) (i : S.Idx) :
    maximumf (F := Ideal) a b i = max (a i) (b i) := rfl
theorem addf_apply {S : Shape} (a b : FVec Ideal S .f32) (i : S.Idx) :
    addf (F := Ideal) a b i = a i + b i := rfl

/-- A number spread over a whole array is that number at every index. -/
theorem splat_apply {S : Shape} (h : S_.BroadcastsInDim S ![]) (w : BitVec 32) (i : S.Idx) :
    broadcastInDim S ![] h (constant (F := Ideal) S_ .f32 w) i = Ideal.ofBits .f32 w :=
  broadcastInDim_apply _ h (constant (F := Ideal) S_ .f32 w) i (fun a => a.elim0) (fun a => a.elim0)

/-- A value per node kept as a column and spread along the rows is, at `(n, k)`, node `n`'s value. -/
theorem keepCol_apply {b : ℕ} (hb2 : S100000x1.BroadcastsInDim (⟨2, ![100000, b]⟩ : Shape) ![0, 1])
    (y : FVec Ideal S100000 .f32) (n : Fin 100000) (k : Fin b) :
    broadcastInDim (⟨2, ![100000, b]⟩ : Shape) ![0, 1] hb2
      (broadcastInDim S100000x1 ![0] bcast_S100000_S100000x1_0 y) (ix2 n k) = y (ix1 n) := by
  refine (broadcastInDim_apply _ hb2 _ (ix2 n k) (ix2 n (0 : Fin 1)) (fun a => match a with
    | ⟨0, _⟩ => by show n.val = if (100000 : Nat) = 1 then 0 else n.val; rw [if_neg (by decide)]
    | ⟨1, _⟩ => by show 0 = if (1 : Nat) = 1 then 0 else k.val; rw [if_pos rfl])).trans ?_
  exact broadcastInDim_apply _ bcast_S100000_S100000x1_0 y (ix2 n (0 : Fin 1)) (ix1 n) (fun a => match a with
    | ⟨0, _⟩ => by show n.val = if (100000 : Nat) = 1 then 0 else n.val; rw [if_neg (by decide)])

/-- A value per column kept as a row and spread over the nodes is, at `(n, k)`, column `k`'s value. -/
theorem keepRow_apply {b : ℕ} (hb1 : (⟨1, ![b]⟩ : Shape).BroadcastsInDim (⟨2, ![1, b]⟩ : Shape) ![1])
    (hb2 : (⟨2, ![1, b]⟩ : Shape).BroadcastsInDim (⟨2, ![100000, b]⟩ : Shape) ![0, 1])
    (y : FVec Ideal (⟨1, ![b]⟩ : Shape) .f32) (n : Fin 100000) (k : Fin b) :
    broadcastInDim (⟨2, ![100000, b]⟩ : Shape) ![0, 1] hb2
      (broadcastInDim (⟨2, ![1, b]⟩ : Shape) ![1] hb1 y) (ix2 n k) = y (ix1 k) := by
  refine (broadcastInDim_apply _ hb2 _ (ix2 n k) (ix2 (0 : Fin 1) k) (fun a => match a with
    | ⟨0, _⟩ => by show 0 = if (1 : Nat) = 1 then 0 else n.val; rw [if_pos rfl]
    | ⟨1, _⟩ => by
      show k.val = if b = 1 then 0 else k.val
      split
      · have := k.isLt; omega
      · rfl)).trans ?_
  exact broadcastInDim_apply _ hb1 y (ix2 (0 : Fin 1) k) (ix1 k) (fun a => match a with
    | ⟨0, _⟩ => by
      show k.val = if b = 1 then 0 else k.val
      split
      · have := k.isLt; omega
      · rfl)

/-! ## The count and the neighbour mean -/

/-- The count of the edges sent to node `n`, at least one. -/
theorem degArr_apply (dc : Cert.Sage.Col) (n : Fin 100000) : degArr dc (ix1 n) = dmax dc n := by
  rw [degArr, maxf_apply, splat_apply, dmax]
  refine congrArg (fun s : EReal => max s c1) ?_
  refine (Cert.LibRows.vecScatterAdd_apply (A := 100000) (N := 1200000)
    scatter_S100000_S1200000x1_S1200000_n_0_0_1.wf _ dc _ n).trans ?_
  rw [deg, splat_apply, Ideal.ofBits_zero_f32]
  refine congrArg (fun s : EReal => 0 + s) (Finset.sum_congr rfl fun e _ => ?_)
  rw [splat_apply]

/-- The neighbour mean at entry `(n, k)`: the sum along the edges sent to `n` over their count. -/
theorem mean_at {B : ℕ}
    (wfS : ScatterDims.WF (⟨2, ![100000, B]⟩ : Shape) ⟨2, ![1200000, 1]⟩ ⟨2, ![1200000, B]⟩ [1] [0] [0] 1)
    (wfG : GatherDims.WF (⟨2, ![100000, B]⟩ : Shape) ⟨2, ![1200000, 1]⟩ ⟨2, ![1200000, B]⟩ [1] [0] [] [0] [] 1 ![1, B])
    (hz : S_.BroadcastsInDim (⟨2, ![100000, B]⟩ : Shape) ![])
    (hb2 : S100000x1.BroadcastsInDim (⟨2, ![100000, B]⟩ : Shape) ![0, 1])
    (sc dc : Cert.Sage.Col) (v : FVec Ideal (⟨2, ![100000, B]⟩ : Shape) .f32) (n : Fin 100000) (k : Fin B) :
    Host.divf (F := Ideal)
        (Host.scatterAdd (F := Ideal) (Cert.LibRows.rowScatterDims 100000 B 1200000 wfS)
          (broadcastInDim (⟨2, ![100000, B]⟩ : Shape) ![] hz (constant (F := Ideal) S_ .f32 0x00000000#32)) dc
          (Host.gather (Cert.LibRows.rowGatherDims 100000 B 1200000 wfG) v sc))
        (broadcastInDim (⟨2, ![100000, B]⟩ : Shape) ![0, 1] hb2
          (broadcastInDim S100000x1 ![0] bcast_S100000_S100000x1_0 (degArr dc)))
        (ix2 n k)
      = Ideal.div (aggr sc dc v n k) (dmax dc n) := by
  rw [divf_apply, keepCol_apply, degArr_apply, Cert.LibRows.rowScatterAdd_apply, splat_apply, Ideal.ofBits_zero_f32, aggr]
  refine congrArg (fun s : EReal => Ideal.div (0 + s) (dmax dc n)) (Finset.sum_congr rfl fun e _ => ?_)
  by_cases he : (dc (ix2 e (0 : Fin 1))).toInt = (n.val : ℤ)
  · rw [if_pos he, if_pos he]
    exact Cert.LibRows.rowGather_apply (by decide) wfG v sc e k
  · rw [if_neg he, if_neg he]

/-! ## The two matrix products -/

theorem dot1_apply (l : FVec Ideal S100000x64 .f32) (r : FVec Ideal S64x16 .f32) (n : Fin 100000) (j : Fin 16) :
    Host.dotGeneral (F := Ideal) dot_S100000x64_S64x16_S100000x16_1_0_0_1_n_n none l r (ix2 n j) = lin l r n j :=
  PlainDot.dotGeneral_apply ⟨rfl, rfl, rfl, rfl, rfl, rfl⟩ none _ l r (ix2 n j)

theorem dot2_apply (l : FVec Ideal S100000x16 .f32) (r : FVec Ideal S16x40 .f32) (n : Fin 100000) (j : Fin 40) :
    Host.dotGeneral (F := Ideal) dot_S100000x16_S16x40_S100000x40_1_0_0_1_n_n none l r (ix2 n j) = lin l r n j :=
  PlainDot.dotGeneral_apply ⟨rfl, rfl, rfl, rfl, rfl, rfl⟩ none _ l r (ix2 n j)

/-! ## The layers -/

/-- Layer one with its positive part at entry `(n, j)`: the specification's first arrangement. -/
theorem layer1_apply (sc dc : Cert.Sage.Col) (x0 : FVec Ideal S100000x64 .f32) (x2 x3 : FVec Ideal S64x16 .f32)
    (x4 : FVec Ideal S16 .f32) (n : Fin 100000) (j : Fin 16) :
    layer1 sc dc x0 x2 x3 x4 (ix2 n j) = hRefAt sc dc x0 x2 x3 x4 n j := by
  rw [layer1, maxf_apply, addf_apply, addf_apply, dot1_apply, dot1_apply, keepRow_apply, splat_apply,
    Ideal.ofBits_zero_f32, hRefAt]
  refine congrArg (fun s : EReal => max ((lin x0 x2 n j + s) + x4 (ix1 j)) 0) ?_
  rw [lin]
  refine Finset.sum_congr rfl fun q _ => congrArg (fun t : EReal => t * x3 (ix2 q j)) ?_
  exact mean_at scatter_S100000x64_S1200000x1_S1200000x64_1_0_0_1.wf
    gather_S100000x64_S1200000x1_S1200000x64_1_0_n_n_0_1_164.wf bcast_S_S100000x64 bcast_S100000x1_S100000x64_0_1
    sc dc x0 n q

theorem layer1_eq (sc dc : Cert.Sage.Col) (x0 : FVec Ideal S100000x64 .f32) (x2 x3 : FVec Ideal S64x16 .f32)
    (x4 : FVec Ideal S16 .f32) : layer1 sc dc x0 x2 x3 x4 = hRef sc dc x0 x2 x3 x4 := by
  funext i
  obtain ⟨n, j, rfl⟩ : ∃ (n : Fin 100000) (j : Fin 16), i = ix2 n j := ⟨i 0, i 1, eq_ix2 i⟩
  exact layer1_apply sc dc x0 x2 x3 x4 n j

/-- Layer two at entry `(n, j)`: the specification's first arrangement. -/
theorem layer2_apply (sc dc : Cert.Sage.Col) (h : FVec Ideal S100000x16 .f32) (x5 x6 : FVec Ideal S16x40 .f32)
    (x7 : FVec Ideal S40 .f32) (n : Fin 100000) (j : Fin 40) :
    layer2 sc dc h x5 x6 x7 (ix2 n j) = outRefAt sc dc h x5 x6 x7 n j := by
  rw [layer2, addf_apply, addf_apply, dot2_apply, dot2_apply, keepRow_apply, outRefAt]
  refine congrArg (fun s : EReal => (lin h x5 n j + s) + x7 (ix1 j)) ?_
  rw [lin]
  refine Finset.sum_congr rfl fun q _ => congrArg (fun t : EReal => t * x6 (ix2 q j)) ?_
  exact mean_at scatter_S100000x16_S1200000x1_S1200000x16_1_0_0_1.wf
    gather_S100000x16_S1200000x1_S1200000x16_1_0_n_n_0_1_116.wf bcast_S_S100000x16 bcast_S100000x1_S100000x16_0_1
    sc dc h n q

end Cert.ReferenceIdeal.RefExpr

end
-- ==== Proof.RefTail.lean ====
/-
  The log-softmax of each row of a 100000×40 matrix, as the host program writes it with whole-array operations, read at
  one entry (row n, column j) on the extended reals.

  The host takes each row's maximum by a reduction that starts from minus infinity, takes once more the maximum of that
  with minus infinity (which changes nothing: a maximum taken from minus infinity is at least minus infinity), keeps it
  as a column and spreads it back along the row; subtracts it; takes exponentials; sums each row from zero; keeps the
  sums as a column, takes logarithms, spreads them along the row and subtracts. Entry (n, j) is therefore the entry less
  the row's maximum, less the logarithm of the row's sum of exponentials of the shifted entries.
-/
import proofs.«106231_j40518721470745_2_alg».proof.Proof.Gen.ReferenceIdeal
import proofs.«106231_j40518721470745_2_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.ReferenceIdeal.RefExpr

open Cert.ReferenceIdeal Cert.ReferenceIdeal.Facts₀ Cert.ReferenceIdeal.Facts Idealize.ShloMosaic Idealize.ShloMosaic.ValueIdx

/-- Each row's maximum (from minus infinity), spread back along the row. -/
def rowMaxArr (o : FVec Ideal S100000x40 .f32) : FVec Ideal S100000x40 .f32 :=
  broadcastInDim S100000x40 ![0, 1] bcast_S100000x1_S100000x40_0_1 (broadcastInDim S100000x1 ![0] bcast_S100000_S100000x1_0 (maximumf (F := Ideal) (broadcastInDim S100000 ![] bcast_S_S100000 (constant (F := Ideal) S_ .f32 0xFF800000#32)) (Host.reduce FloatOps.maximumf o (constant (F := Ideal) S_ .f32 0xFF800000#32) reducesTo_S100000x40_S100000_d1 h_S_)))

/-- The log-softmax of each row. -/
def tailArr (o : FVec Ideal S100000x40 .f32) : FVec Ideal S100000x40 .f32 :=
  subf (F := Ideal) (subf (F := Ideal) o (rowMaxArr o)) (broadcastInDim S100000x40 ![0, 1] bcast_S100000x1_S100000x40_0_1 (Host.log (F := Ideal) (broadcastInDim S100000x1 ![0] bcast_S100000_S100000x1_0 (Host.reduceAdd (F := Ideal) (Host.exp (F := Ideal) (subf (F := Ideal) o (rowMaxArr o))) (constant (F := Ideal) S_ .f32 0x00000000#32) reducesTo_S100000x40_S100000_d1 h_S_))))

/-! ## The layout operations at an entry -/

/-- A column spread along the rows reads, at (n, j), the column's entry n. -/
theorem spread_column_apply (x : FVec Ideal S100000x1 .f32) (n : Fin 100000) (j : Fin 40) :
    broadcastInDim S100000x40 ![0, 1] bcast_S100000x1_S100000x40_0_1 x (ix2 n j) = x (ix2 n (0 : Fin 1)) :=
  broadcastInDim_apply _ bcast_S100000x1_S100000x40_0_1 x (ix2 n j) (ix2 n (0 : Fin 1)) (fun a => match a with
    | ⟨0, _⟩ => by show n.val = if (100000 : Nat) = 1 then 0 else n.val; rw [if_neg (by decide)]
    | ⟨1, _⟩ => by show 0 = if (1 : Nat) = 1 then 0 else j.val; rw [if_pos rfl])

/-- A vector kept as a column reads, at (n, 0), the vector's entry n. -/
theorem keep_column_apply (x : FVec Ideal S100000 .f32) (n : Fin 100000) (u : Fin 1) :
    broadcastInDim S100000x1 ![0] bcast_S100000_S100000x1_0 x (ix2 n u) = x (ix1 n) :=
  broadcastInDim_apply _ bcast_S100000_S100000x1_0 x (ix2 n u) (ix1 n) (fun a => match a with
    | ⟨0, _⟩ => by show n.val = if (100000 : Nat) = 1 then 0 else n.val; rw [if_neg (by decide)])

/-- A scalar spread over a vector reads the scalar everywhere. -/
theorem spread_scalar_apply (x : FVec Ideal S_ .f32) (i : S100000.Idx) :
    broadcastInDim S100000 ![] bcast_S_S100000 x i = x ix0 :=
  broadcastInDim_apply _ bcast_S_S100000 x i ix0 (fun a => a.elim0)

/-- The host's exponential and logarithm are taken entry by entry. -/
theorem hostExp_apply {s : Shape} (a : FVec Ideal s .f32) (i : s.Idx) : Host.exp (F := Ideal) a i = Ideal.exp (a i) := rfl
theorem hostLog_apply {s : Shape} (a : FVec Ideal s .f32) (i : s.Idx) : Host.log (F := Ideal) a i = Ideal.log (a i) := rfl

/-! ## The two reductions along a row -/

/-- Dropping the column axis of a 100000×40 matrix leaves its 100000 rows. -/
theorem drops_columns : S100000x40.Reduces [(1 : Fin 2)] S100000 := by decide

/-- The entry that sits over row n at column k. -/
theorem over_row (h : S100000x40.Reduces [(1 : Fin 2)] S100000) (n : Fin 100000) (k : Fin 40) :
    h.lift (ix1 n) k = ix2 n k := by
  funext a
  apply Fin.ext
  match a with
  | ⟨0, _⟩ => rfl
  | ⟨1, _⟩ => rfl

/-- The host's maximum along row n, from minus infinity. -/
theorem hostMax_apply (o : FVec Ideal S100000x40 .f32) (n : Fin 100000) :
    Host.reduce FloatOps.maximumf o (constant (F := Ideal) S_ .f32 0xFF800000#32) reducesTo_S100000x40_S100000_d1 h_S_ (ix1 n)
      = Cert.Sage.rowMax (fun j' => o (ix2 n j')) := by
  rw [Host.reduce_eq_fold_single FloatOps.maximumf o _ reducesTo_S100000x40_S100000_d1 drops_columns h_S_, constant_apply]
  have hf : (o ∘ drops_columns.lift (ix1 n)) = fun k : Fin 40 => o (ix2 n k) :=
    funext fun k => congrArg o (over_row drops_columns n k)
  unfold Cert.Sage.rowMax
  exact congrArg (fun f => Finset.fold max (Ideal.ofBits .f32 0xFF800000#32) f (Finset.univ : Finset (Fin 40))) hf

/-- The host's sum along row n, from zero. -/
theorem hostSum_apply (w : FVec Ideal S100000x40 .f32) (n : Fin 100000) :
    Host.reduceAdd (F := Ideal) w (constant (F := Ideal) S_ .f32 0x00000000#32) reducesTo_S100000x40_S100000_d1 h_S_ (ix1 n)
      = ∑ k : Fin 40, w (ix2 n k) := by
  unfold Host.reduceAdd
  rw [Ideal.hostReduceAdd_def, Ideal.hostReduceAdd_single reducesTo_S100000x40_S100000_d1 drops_columns, constant_apply,
    Ideal.ofBits_zero_f32, zero_add]
  exact Finset.sum_congr rfl fun k _ => congrArg w (over_row drops_columns n k)

/-! ## The row maximum, and the log-softmax, at an entry -/

/-- At every entry of row n the spread maximum is the row's maximum. -/
theorem rowMaxArr_apply (o : FVec Ideal S100000x40 .f32) (n : Fin 100000) (j : Fin 40) :
    rowMaxArr o (ix2 n j) = Cert.Sage.rowMax (fun j' => o (ix2 n j')) := by
  unfold rowMaxArr
  rw [spread_column_apply, keep_column_apply, maximumf_apply, spread_scalar_apply, constant_apply, hostMax_apply]
  unfold Cert.Sage.rowMax
  exact max_eq_right ((Finset.le_fold_max _).mpr (Or.inl le_rfl))

/-- Entry (n, j) of the host's log-softmax is the log-softmax of row n at j. -/
theorem tailArr_apply (o : FVec Ideal S100000x40 .f32) (n : Fin 100000) (j : Fin 40) :
    tailArr o (ix2 n j) = Cert.Sage.lsmAt (fun j' => o (ix2 n j')) j := by
  unfold tailArr
  rw [subf_apply, subf_apply, rowMaxArr_apply o n j, spread_column_apply, hostLog_apply, keep_column_apply, hostSum_apply]
  have hsum : ∑ k : Fin 40, Host.exp (F := Ideal) (subf (F := Ideal) o (rowMaxArr o)) (ix2 n k)
      = ∑ k : Fin 40, Ideal.exp (o (ix2 n k) - Cert.Sage.rowMax (fun j' => o (ix2 n j'))) :=
    Finset.sum_congr rfl fun k _ => by rw [hostExp_apply, subf_apply, rowMaxArr_apply o n k]
  rw [hsum]
  rfl

end Cert.ReferenceIdeal.RefExpr

end
-- ==== Proof.RefValue.lean ====
/-
  The reference program's result is the two-layer graph network of the specification, first arrangement.

  The program is a straight line of 84 array operations. Its result is read in three stages, each over an arbitrary
  assignment of contents to the buffers: layer one (through the positive part), layer two, and the log-softmax of
  each row. Each stage is composed into one array expression of the buffers it reads. Those expressions are read at
  an index in the two modules imported here — a lookup of rows followed by an accumulating scatter is the sum along
  the edges sent to a node, the scatter of ones is the count of those edges, a plain matrix product is a finite sum of
  products, the keep-the-axis broadcasts read the row's own value, a maximum-reduction from minus infinity is the
  row's maximum, and an add-reduction from zero is the row's sum — and the three readings are put together here.
-/
import proofs.«106231_j40518721470745_2_alg».proof.Proof.RefRun
import proofs.«106231_j40518721470745_2_alg».proof.Proof.Spec
import proofs.«106231_j40518721470745_2_alg».proof.Proof.RefLayers
import proofs.«106231_j40518721470745_2_alg».proof.Proof.RefTail
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ValueP Cert.Sage

/-! ## The edge columns -/

/-- The source row numbers: row 0 of the edge list, a negative number wrapped once, as a column. -/
def srcCol (ei : IVec Cert.ReferenceIdeal.S2x1200000 32) : Cert.Sage.Col :=
  broadcastInDim S1200000x1 ![0] bcast_S1200000_S1200000x1_0 (select (cmpi .slt (shapeCast _ (extractStridedSlice S1x1200000 ![0, 0] ei slices_S2x1200000_S1x1200000_0_0) shapeCasts_S1x1200000_S1200000) (broadcastInDim S1200000 ![] bcast_S_S1200000 (constantI S_ 32 0#32))) (addi (shapeCast _ (extractStridedSlice S1x1200000 ![0, 0] ei slices_S2x1200000_S1x1200000_0_0) shapeCasts_S1x1200000_S1200000) (broadcastInDim S1200000 ![] bcast_S_S1200000 (constantI S_ 32 100000#32))) (shapeCast _ (extractStridedSlice S1x1200000 ![0, 0] ei slices_S2x1200000_S1x1200000_0_0) shapeCasts_S1x1200000_S1200000))

/-- The destination row numbers: row 1 of the edge list, as a column. -/
def dstCol (ei : IVec Cert.ReferenceIdeal.S2x1200000 32) : Cert.Sage.Col :=
  broadcastInDim S1200000x1 ![0] bcast_S1200000_S1200000x1_0 (shapeCast _ (extractStridedSlice S1x1200000 ![1, 0] ei slices_S2x1200000_S1x1200000_1_0) shapeCasts_S1x1200000_S1200000)

/-- Row 0 and row 1 of the edge list as vectors. -/
def row0 (ei : IVec Cert.ReferenceIdeal.S2x1200000 32) : IVec S1200000 32 :=
  shapeCast _ (extractStridedSlice S1x1200000 ![0, 0] ei slices_S2x1200000_S1x1200000_0_0) shapeCasts_S1x1200000_S1200000
def row1 (ei : IVec Cert.ReferenceIdeal.S2x1200000 32) : IVec S1200000 32 :=
  shapeCast _ (extractStridedSlice S1x1200000 ![1, 0] ei slices_S2x1200000_S1x1200000_1_0) shapeCasts_S1x1200000_S1200000
def srcOf (v : IVec S1200000 32) : Cert.Sage.Col :=
  broadcastInDim S1200000x1 ![0] bcast_S1200000_S1200000x1_0 (select (cmpi .slt v (broadcastInDim S1200000 ![] bcast_S_S1200000 (constantI S_ 32 0#32))) (addi v (broadcastInDim S1200000 ![] bcast_S_S1200000 (constantI S_ 32 100000#32))) v)
def dstOf (v : IVec S1200000 32) : Cert.Sage.Col :=
  broadcastInDim S1200000x1 ![0] bcast_S1200000_S1200000x1_0 v
theorem srcCol_eq (ei : IVec Cert.ReferenceIdeal.S2x1200000 32) : srcOf (row0 ei) = srcCol ei := rfl
theorem dstCol_eq (ei : IVec Cert.ReferenceIdeal.S2x1200000 32) : dstOf (row1 ei) = dstCol ei := rfl

/-! ## The fold, for any float values -/

section Generic
variable {F : FTy → Type} [FloatOps F]

/-- Layer one: the operations through the positive part. -/
abbrev opsA : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    nullary main_cst (constant S_ .f32 0x3F800000#32),
    unary main_cst main_v4 (broadcastInDim S1200000 ![] bcast_S_S1200000 : (⟨S_, .f32⟩ : BufTy).Contents (Elt F) → (⟨S1200000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1200000x1 ![0] bcast_S1200000_S1200000x1_0 : (⟨S1200000, .i32⟩ : BufTy).Contents (Elt F) → (⟨S1200000x1, .i32⟩ : BufTy).Contents (Elt F)),
    ternary main_v5 main_v6 main_v4 main_v7 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_c (constantI S_ 32 0#32),
    unary main_c main_v8 (broadcastInDim S1200000 ![] bcast_S_S1200000 : (⟨S_, .i32⟩ : BufTy).Contents (Elt F) → (⟨S1200000, .i32⟩ : BufTy).Contents (Elt F)),
    binary main_v1 main_v8 main_v9 (cmpi .slt : (⟨S1200000, .i32⟩ : BufTy).Contents (Elt F) → (⟨S1200000, .i32⟩ : BufTy).Contents (Elt F) → (⟨S1200000, .i1⟩ : BufTy).Contents (Elt F)),
    nullary main_c_1 (constantI S_ 32 100000#32),
    unary main_c_1 main_v10 (broadcastInDim S1200000 ![] bcast_S_S1200000 : (⟨S_, .i32⟩ : BufTy).Contents (Elt F) → (⟨S1200000, .i32⟩ : BufTy).Contents (Elt F)),
    binary main_v1 main_v10 main_v11 (addi : (⟨S1200000, .i32⟩ : BufTy).Contents (Elt F) → (⟨S1200000, .i32⟩ : BufTy).Contents (Elt F) → (⟨S1200000, .i32⟩ : BufTy).Contents (Elt F)),
    ternary main_v9 main_v11 main_v1 main_v12 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v12 main_v13 (broadcastInDim S1200000x1 ![0] bcast_S1200000_S1200000x1_0 : (⟨S1200000, .i32⟩ : BufTy).Contents (Elt F) → (⟨S1200000x1, .i32⟩ : BufTy).Contents (Elt F)),
    binary main_arg0 main_v13 main_v14 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    nullary main_cst_2 (constant S_ .f32 0x00000000#32),
    unary main_cst_2 main_v15 (broadcastInDim S100000x64 ![] bcast_S_S100000x64 : (⟨S_, .f32⟩ : BufTy).Contents (Elt F) → (⟨S100000x64, .f32⟩ : BufTy).Contents (Elt F)),
    unary main_v3 main_v16 (broadcastInDim S1200000x1 ![0] bcast_S1200000_S1200000x1_0 : (⟨S1200000, .i32⟩ : BufTy).Contents (Elt F) → (⟨S1200000x1, .i32⟩ : BufTy).Contents (Elt F)),
    ternary main_v15 main_v16 main_v14 main_v17 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v7 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x64 ![0, 1] bcast_S100000x1_S100000x64_0_1 : (⟨S100000x1, .f32⟩ : BufTy).Contents (Elt F) → (⟨S100000x64, .f32⟩ : BufTy).Contents (Elt F)),
    binary main_v17 main_v21 main_v22 (Host.divf : (⟨S100000x64, .f32⟩ : BufTy).Contents (Elt F) → (⟨S100000x64, .f32⟩ : BufTy).Contents (Elt F) → (⟨S100000x64, .f32⟩ : BufTy).Contents (Elt F)),
    binary main_arg0 main_arg2 main_v23 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v22 main_arg3 main_v24 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    binary main_v23 main_v24 main_v25 (addf : (⟨S100000x16, .f32⟩ : BufTy).Contents (Elt F) → (⟨S100000x16, .f32⟩ : BufTy).Contents (Elt F) → (⟨S100000x16, .f32⟩ : BufTy).Contents (Elt F)),
    unary main_arg4 main_v26 (broadcastInDim S1x16 ![1] bcast_S16_S1x16_1 : (⟨S16, .f32⟩ : BufTy).Contents (Elt F) → (⟨S1x16, .f32⟩ : BufTy).Contents (Elt F)),
    unary main_v26 main_v27 (broadcastInDim S100000x16 ![0, 1] bcast_S1x16_S100000x16_0_1 : (⟨S1x16, .f32⟩ : BufTy).Contents (Elt F) → (⟨S100000x16, .f32⟩ : BufTy).Contents (Elt F)),
    binary main_v25 main_v27 main_v28 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x16, .f32⟩) main_call0_v0) (broadcastInDim S100000x16 ![] bcast_S_S100000x16),
    TRef.binary (TRef.of (T := ⟨S100000x16, .f32⟩) main_v28) (TRef.of (T := ⟨S100000x16, .f32⟩) main_call0_v0) (TRef.of (T := ⟨S100000x16, .f32⟩) main_v29) maximumf ]

/-- Layer two. -/
abbrev opsB : List (HloOp τ sig (Elt F)) :=
  [ nullary main_cst_4 (constant S_ .f32 0x3F800000#32),
    unary main_cst_4 main_v30 (broadcastInDim S1200000 ![] bcast_S_S1200000 : (⟨S_, .f32⟩ : BufTy).Contents (Elt F) → (⟨S1200000, .f32⟩ : BufTy).Contents (Elt F)),
    nullary main_cst_5 (constant S_ .f32 0x00000000#32),
    unary main_cst_5 main_v31 (broadcastInDim S100000 ![] bcast_S_S100000 : (⟨S_, .f32⟩ : BufTy).Contents (Elt F) → (⟨S100000, .f32⟩ : BufTy).Contents (Elt F)),
    unary main_v3 main_v32 (broadcastInDim S1200000x1 ![0] bcast_S1200000_S1200000x1_0 : (⟨S1200000, .i32⟩ : BufTy).Contents (Elt F) → (⟨S1200000x1, .i32⟩ : BufTy).Contents (Elt F)),
    ternary main_v31 main_v32 main_v30 main_v33 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_c_6 (constantI S_ 32 0#32),
    unary main_c_6 main_v34 (broadcastInDim S1200000 ![] bcast_S_S1200000 : (⟨S_, .i32⟩ : BufTy).Contents (Elt F) → (⟨S1200000, .i32⟩ : BufTy).Contents (Elt F)),
    binary main_v1 main_v34 main_v35 (cmpi .slt : (⟨S1200000, .i32⟩ : BufTy).Contents (Elt F) → (⟨S1200000, .i32⟩ : BufTy).Contents (Elt F) → (⟨S1200000, .i1⟩ : BufTy).Contents (Elt F)),
    nullary main_c_7 (constantI S_ 32 100000#32),
    unary main_c_7 main_v36 (broadcastInDim S1200000 ![] bcast_S_S1200000 : (⟨S_, .i32⟩ : BufTy).Contents (Elt F) → (⟨S1200000, .i32⟩ : BufTy).Contents (Elt F)),
    binary main_v1 main_v36 main_v37 (addi : (⟨S1200000, .i32⟩ : BufTy).Contents (Elt F) → (⟨S1200000, .i32⟩ : BufTy).Contents (Elt F) → (⟨S1200000, .i32⟩ : BufTy).Contents (Elt F)),
    ternary main_v35 main_v37 main_v1 main_v38 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v38 main_v39 (broadcastInDim S1200000x1 ![0] bcast_S1200000_S1200000x1_0 : (⟨S1200000, .i32⟩ : BufTy).Contents (Elt F) → (⟨S1200000x1, .i32⟩ : BufTy).Contents (Elt F)),
    binary main_v29 main_v39 main_v40 ((fun x i => Host.gather gather_S100000x16_S1200000x1_S1200000x16_1_0_n_n_0_1_116 x i) : (⟨S100000x16, .f32⟩ : BufTy).Contents (Elt F) → (⟨S1200000x1, .i32⟩ : BufTy).Contents (Elt F) → (⟨S1200000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v3 main_v42 (broadcastInDim S1200000x1 ![0] bcast_S1200000_S1200000x1_0 : (⟨S1200000, .i32⟩ : BufTy).Contents (Elt F) → (⟨S1200000x1, .i32⟩ : BufTy).Contents (Elt F)),
    ternary main_v41 main_v42 main_v40 main_v43 ((fun x i u => Host.scatterAdd scatter_S100000x16_S1200000x1_S1200000x16_1_0_0_1 x i u) : (⟨S100000x16, .f32⟩ : BufTy).Contents (Elt F) → (⟨S1200000x1, .i32⟩ : BufTy).Contents (Elt F) → (⟨S1200000x16, .f32⟩ : BufTy).Contents (Elt F) → (⟨S100000x16, .f32⟩ : BufTy).Contents (Elt F)),
    nullary main_cst_9 (constant S_ .f32 0x3F800000#32),
    unary main_cst_9 main_v44 (broadcastInDim S100000 ![] bcast_S_S100000 : (⟨S_, .f32⟩ : BufTy).Contents (Elt F) → (⟨S100000, .f32⟩ : BufTy).Contents (Elt F)),
    binary main_v33 main_v44 main_v45 (maximumf : (⟨S100000, .f32⟩ : BufTy).Contents (Elt F) → (⟨S100000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x16 ![0, 1] bcast_S100000x1_S100000x16_0_1 : (⟨S100000x1, .f32⟩ : BufTy).Contents (Elt F) → (⟨S100000x16, .f32⟩ : BufTy).Contents (Elt F)),
    binary main_v43 main_v47 main_v48 (Host.divf : (⟨S100000x16, .f32⟩ : BufTy).Contents (Elt F) → (⟨S100000x16, .f32⟩ : BufTy).Contents (Elt F) → (⟨S100000x16, .f32⟩ : BufTy).Contents (Elt F)),
    binary main_v29 main_arg5 main_v49 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    binary main_v48 main_arg6 main_v50 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    binary main_v49 main_v50 main_v51 (addf : (⟨S100000x40, .f32⟩ : BufTy).Contents (Elt F) → (⟨S100000x40, .f32⟩ : BufTy).Contents (Elt F) → (⟨S100000x40, .f32⟩ : BufTy).Contents (Elt F)),
    unary main_arg7 main_v52 (broadcastInDim S1x40 ![1] bcast_S40_S1x40_1 : (⟨S40, .f32⟩ : BufTy).Contents (Elt F) → (⟨S1x40, .f32⟩ : BufTy).Contents (Elt F)),
    unary main_v52 main_v53 (broadcastInDim S100000x40 ![0, 1] bcast_S1x40_S100000x40_0_1 : (⟨S1x40, .f32⟩ : BufTy).Contents (Elt F) → (⟨S100000x40, .f32⟩ : BufTy).Contents (Elt F)),
    binary main_v51 main_v53 main_v54 (addf : (⟨S100000x40, .f32⟩ : BufTy).Contents (Elt F) → (⟨S100000x40, .f32⟩ : BufTy).Contents (Elt F) → (⟨S100000x40, .f32⟩ : BufTy).Contents (Elt F)) ]

/-- The log-softmax of each row. -/
abbrev opsC : List (HloOp τ sig (Elt F)) :=
  [ TRef.nullary (TRef.of (T := ⟨S_, .f32⟩) main_call1_cst) (constant S_ .f32 0xFF800000#32),
    TRef.binary (TRef.of (T := ⟨S100000x40, .f32⟩) main_v54) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v54) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v55) subf ]

theorem ops_split : (ops : List (HloOp τ sig (Elt F))) = opsA ++ (opsB ++ opsC) := rfl

theorem after_append (l1 l2 : List (HloOp τ sig (Elt F))) (V : Valuation τ sig (Elt F)) :
    after (l1 ++ l2) V = after l2 (after l1 V) := by
  induction l1 generalizing V with
  | nil => rfl
  | cons op l ih => exact ih _

/-! The stages as array expressions of the buffers they read, the operations being those of the program. -/

/-- The count of edges sent to each node, at least one: a scatter of ones into zeros, then the maximum with one. -/
def degArrF (dc : Cert.Sage.Col) : FVec F S100000 .f32 :=
  maximumf (F := F) (Host.scatterAdd (F := F) scatter_S100000_S1200000x1_S1200000_n_0_0_1 (broadcastInDim S100000 ![] bcast_S_S100000 (constant (F := F) S_ .f32 0x00000000#32)) dc (broadcastInDim S1200000 ![] bcast_S_S1200000 (constant (F := F) S_ .f32 0x3F800000#32))) (broadcastInDim S100000 ![] bcast_S_S100000 (constant (F := F) S_ .f32 0x3F800000#32))

/-- Layer one and the positive part. -/
def layer1F (sc dc : Cert.Sage.Col) (x0 : FVec F S100000x64 .f32) (x2 x3 : FVec F S64x16 .f32) (x4 : FVec F S16 .f32) :
    FVec F S100000x16 .f32 :=
  maximumf (F := F) (addf (F := F) (addf (F := F) (Host.dotGeneral (F := F) dot_S100000x64_S64x16_S100000x16_1_0_0_1_n_n none x0 x2) (Host.dotGeneral (F := F) dot_S100000x64_S64x16_S100000x16_1_0_0_1_n_n none (Host.divf (F := F) (Host.scatterAdd (F := F) scatter_S100000x64_S1200000x1_S1200000x64_1_0_0_1 (broadcastInDim S100000x64 ![] bcast_S_S100000x64 (constant (F := F) S_ .f32 0x00000000#32)) dc (Host.gather gather_S100000x64_S1200000x1_S1200000x64_1_0_n_n_0_1_164 x0 sc)) (broadcastInDim S100000x64 ![0, 1] bcast_S100000x1_S100000x64_0_1 (broadcastInDim S100000x1 ![0] bcast_S100000_S100000x1_0 (degArrF (F := F) dc)))) x3)) (broadcastInDim S100000x16 ![0, 1] bcast_S1x16_S100000x16_0_1 (broadcastInDim S1x16 ![1] bcast_S16_S1x16_1 x4))) (broadcastInDim S100000x16 ![] bcast_S_S100000x16 (constant (F := F) S_ .f32 0x00000000#32))

/-- Layer two. -/
def layer2F (sc dc : Cert.Sage.Col) (h : FVec F S100000x16 .f32) (x5 x6 : FVec F S16x40 .f32) (x7 : FVec F S40 .f32) :
    FVec F S100000x40 .f32 :=
  addf (F := F) (addf (F := F) (Host.dotGeneral (F := F) dot_S100000x16_S16x40_S100000x40_1_0_0_1_n_n none h x5) (Host.dotGeneral (F := F) dot_S100000x16_S16x40_S100000x40_1_0_0_1_n_n none (Host.divf (F := F) (Host.scatterAdd (F := F) scatter_S100000x16_S1200000x1_S1200000x16_1_0_0_1 (broadcastInDim S100000x16 ![] bcast_S_S100000x16 (constant (F := F) S_ .f32 0x00000000#32)) dc (Host.gather gather_S100000x16_S1200000x1_S1200000x16_1_0_n_n_0_1_116 h sc)) (broadcastInDim S100000x16 ![0, 1] bcast_S100000x1_S100000x16_0_1 (broadcastInDim S100000x1 ![0] bcast_S100000_S100000x1_0 (degArrF (F := F) dc)))) x6)) (broadcastInDim S100000x40 ![0, 1] bcast_S1x40_S100000x40_0_1 (broadcastInDim S1x40 ![1] bcast_S40_S1x40_1 x7))

/-- Each row's maximum (from minus infinity), spread back along the row. -/
def rowMaxArrF (o : FVec F S100000x40 .f32) : FVec F S100000x40 .f32 :=
  broadcastInDim S100000x40 ![0, 1] bcast_S100000x1_S100000x40_0_1 (broadcastInDim S100000x1 ![0] bcast_S100000_S100000x1_0 (maximumf (F := F) (broadcastInDim S100000 ![] bcast_S_S100000 (constant (F := F) S_ .f32 0xFF800000#32)) (Host.reduce FloatOps.maximumf o (constant (F := F) S_ .f32 0xFF800000#32) reducesTo_S100000x40_S100000_d1 h_S_)))

/-- The log-softmax of each row. -/
def tailArrF (o : FVec F S100000x40 .f32) : FVec F S100000x40 .f32 :=
  subf (F := F) (subf (F := F) o (rowMaxArrF o)) (broadcastInDim S100000x40 ![0, 1] bcast_S100000x1_S100000x40_0_1 (Host.log (F := F) (broadcastInDim S100000x1 ![0] bcast_S100000_S100000x1_0 (Host.reduceAdd (F := F) (Host.exp (F := F) (subf (F := F) o (rowMaxArrF o))) (constant (F := F) S_ .f32 0x00000000#32) reducesTo_S100000x40_S100000_d1 h_S_))))

/-- The log-softmax stage in five pieces. -/
abbrev opsC1 : List (HloOp τ sig (Elt F)) :=
  [ TRef.nullary (TRef.of (T := ⟨S_, .f32⟩) main_call1_cst) (constant S_ .f32 0xFF800000#32),
    TRef.binary (TRef.of (T := ⟨S100000x40, .f32⟩) main_v54) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf ]
abbrev opsC2 : List (HloOp τ sig (Elt F)) :=
  [ TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v54) (TRef.of (T := ⟨S100000x40, .f32⟩) main_call1_v4) (TRef.of (T := ⟨S100000x40, .f32⟩) main_call1_v5) subf ]
abbrev opsC3 : List (HloOp τ sig (Elt F)) :=
  [ TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_) ]
abbrev opsC4 : List (HloOp τ sig (Elt F)) :=
  [ TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1) ]
abbrev opsC5 : List (HloOp τ sig (Elt F)) :=
  [ TRef.binary (TRef.of (T := ⟨S100000x40, .f32⟩) main_call1_v5) (TRef.of (T := ⟨S100000x40, .f32⟩) main_call1_v10) (TRef.of (T := ⟨S100000x40, .f32⟩) main_v55) subf ]

theorem opsC_split : (opsC : List (HloOp τ sig (Elt F))) = opsC1 ++ (opsC2 ++ (opsC3 ++ (opsC4 ++ opsC5))) := rfl

/-- Each row's maximum (from minus infinity), as a vector. -/
def rowMaxVecF (o : FVec F S100000x40 .f32) : FVec F S100000 .f32 :=
  maximumf (F := F) (broadcastInDim S100000 ![] bcast_S_S100000 (constant (F := F) S_ .f32 0xFF800000#32)) (Host.reduce FloatOps.maximumf o (constant (F := F) S_ .f32 0xFF800000#32) reducesTo_S100000x40_S100000_d1 h_S_)

section Stages
variable (W : Valuation τ sig (Elt F))

/-- The first piece with the row reduction left as an arbitrary function of its two operands. -/
theorem c1_generic (g : (⟨S100000x40, .f32⟩ : BufTy).Contents (Elt F) → (⟨S_, .f32⟩ : BufTy).Contents (Elt F) → (⟨S100000, .f32⟩ : BufTy).Contents (Elt F)) :
    after (τ := τ) (sig := sig)
  [ TRef.nullary (TRef.of (T := ⟨S_, .f32⟩) main_call1_cst) (constant S_ .f32 0xFF800000#32),
    TRef.binary (TRef.of (T := ⟨S100000x40, .f32⟩) main_v54) (TRef.of (T := ⟨S_, .f32⟩) main_call1_cst) (TRef.of (T := ⟨S100000, .f32⟩) main_call1_v0) g,
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf ] W (Proc.devRef .tc main_call1_v2)
      = maximumf (F := F) (broadcastInDim S100000 ![] bcast_S_S100000 (constant (F := F) S_ .f32 0xFF800000#32)) (g (W (Proc.devRef .tc main_v54)) (constant (F := F) S_ .f32 0xFF800000#32)) := by
  after_results_simp
  rfl

theorem c1_v2 : after (opsC1 (F := F)) W (Proc.devRef .tc main_call1_v2) = rowMaxVecF (W (Proc.devRef .tc main_v54)) :=
  c1_generic W (fun x v => Host.reduce FloatOps.maximumf x v reducesTo_S100000x40_S100000_d1 h_S_)

set_option maxRecDepth 8192 in
theorem c1_v54 : after (opsC1 (F := F)) W (Proc.devRef .tc main_v54) = W (Proc.devRef .tc main_v54) := by
  after_results_simp
set_option maxRecDepth 8192 in
theorem c2_v5 : after (opsC2 (F := F)) W (Proc.devRef .tc main_call1_v5)
    = subf (F := F) (W (Proc.devRef .tc main_v54)) (broadcastInDim S100000x40 ![0, 1] bcast_S100000x1_S100000x40_0_1 (broadcastInDim S100000x1 ![0] bcast_S100000_S100000x1_0 (W (Proc.devRef .tc main_call1_v2)))) := by
  after_results_simp
  rfl
set_option maxRecDepth 8192 in
theorem c3_v7 : after (opsC3 (F := F)) W (Proc.devRef .tc main_call1_v7)
    = Host.reduceAdd (F := F) (Host.exp (F := F) (W (Proc.devRef .tc main_call1_v5))) (constant (F := F) S_ .f32 0x00000000#32) reducesTo_S100000x40_S100000_d1 h_S_ := by
  after_results_simp
  rfl
set_option maxRecDepth 8192 in
theorem c3_v5 : after (opsC3 (F := F)) W (Proc.devRef .tc main_call1_v5) = W (Proc.devRef .tc main_call1_v5) := by
  after_results_simp
set_option maxRecDepth 8192 in
theorem c4_v10 : after (opsC4 (F := F)) W (Proc.devRef .tc main_call1_v10)
    = broadcastInDim S100000x40 ![0, 1] bcast_S100000x1_S100000x40_0_1 (Host.log (F := F) (broadcastInDim S100000x1 ![0] bcast_S100000_S100000x1_0 (W (Proc.devRef .tc main_call1_v7)))) := by
  after_results_simp
  rfl
set_option maxRecDepth 8192 in
theorem c4_v5 : after (opsC4 (F := F)) W (Proc.devRef .tc main_call1_v5) = W (Proc.devRef .tc main_call1_v5) := by
  after_results_simp
set_option maxRecDepth 8192 in
theorem c5_v55 : after (opsC5 (F := F)) W (Proc.devRef .tc main_v55)
    = subf (F := F) (W (Proc.devRef .tc main_call1_v5)) (W (Proc.devRef .tc main_call1_v10)) := by
  after_results_simp
  rfl

theorem stageC : after (opsC (F := F)) W (Proc.devRef .tc main_v55) = tailArrF (W (Proc.devRef .tc main_v54)) := by
  rw [opsC_split, after_append, after_append, after_append, after_append, c5_v55, c4_v10, c4_v5, c3_v7, c3_v5, c2_v5, c1_v2, c1_v54]
  rfl

set_option maxRecDepth 8192 in
theorem stageB : after (opsB (F := F)) W (Proc.devRef .tc main_v54)
    = layer2F (srcOf (W (Proc.devRef .tc main_v1))) (dstOf (W (Proc.devRef .tc main_v3))) (W (Proc.devRef .tc main_v29))
        (W (Proc.devRef .tc main_arg5)) (W (Proc.devRef .tc main_arg6)) (W (Proc.devRef .tc main_arg7)) := by
  after_results_simp
  rfl

set_option maxRecDepth 8192 in
theorem stageA : after (opsA (F := F)) W (Proc.devRef .tc main_v29)
    = layer1F (srcCol (W (Proc.devRef .tc main_arg1))) (dstCol (W (Proc.devRef .tc main_arg1))) (W (Proc.devRef .tc main_arg0))
        (W (Proc.devRef .tc main_arg2)) (W (Proc.devRef .tc main_arg3)) (W (Proc.devRef .tc main_arg4)) := by
  after_results_simp
  rfl

theorem stageA_v1 : after (opsA (F := F)) W (Proc.devRef .tc main_v1) = row0 (W (Proc.devRef .tc main_arg1)) := by
  after_results_simp
  rfl
theorem stageA_v3 : after (opsA (F := F)) W (Proc.devRef .tc main_v3) = row1 (W (Proc.devRef .tc main_arg1)) := by
  after_results_simp
  rfl
theorem stageA_arg5 : after (opsA (F := F)) W (Proc.devRef .tc main_arg5) = W (Proc.devRef .tc main_arg5) := by
  after_results_simp
theorem stageA_arg6 : after (opsA (F := F)) W (Proc.devRef .tc main_arg6) = W (Proc.devRef .tc main_arg6) := by
  after_results_simp
theorem stageA_arg7 : after (opsA (F := F)) W (Proc.devRef .tc main_arg7) = W (Proc.devRef .tc main_arg7) := by
  after_results_simp

end Stages

/-- The whole program's fold, composed from the three stages. -/
theorem fold_generic (V : Valuation τ sig (Elt F)) :
    after (ops (F := F)) V (Proc.devRef .tc main_v55)
      = tailArrF (layer2F (srcCol (V (Proc.devRef .tc main_arg1))) (dstCol (V (Proc.devRef .tc main_arg1)))
          (layer1F (srcCol (V (Proc.devRef .tc main_arg1))) (dstCol (V (Proc.devRef .tc main_arg1))) (V (Proc.devRef .tc main_arg0)) (V (Proc.devRef .tc main_arg2)) (V (Proc.devRef .tc main_arg3)) (V (Proc.devRef .tc main_arg4))) (V (Proc.devRef .tc main_arg5)) (V (Proc.devRef .tc main_arg6)) (V (Proc.devRef .tc main_arg7))) := by
  rw [ops_split, after_append, after_append, stageC, stageB, stageA, stageA_v1, stageA_v3, stageA_arg5, stageA_arg6, stageA_arg7,
    srcCol_eq, dstCol_eq]

end Generic

/-! ## On the extended reals the stages are the layers of the specification -/

theorem degArrF_ideal (dc : Cert.Sage.Col) : degArrF (F := Ideal) dc = RefExpr.degArr dc := rfl
theorem layer1F_ideal (sc dc : Cert.Sage.Col) (x0 : FVec Ideal S100000x64 .f32) (x2 x3 : FVec Ideal S64x16 .f32) (x4 : FVec Ideal S16 .f32) :
    layer1F (F := Ideal) sc dc x0 x2 x3 x4 = RefExpr.layer1 sc dc x0 x2 x3 x4 := rfl
theorem layer2F_ideal (sc dc : Cert.Sage.Col) (h : FVec Ideal S100000x16 .f32) (x5 x6 : FVec Ideal S16x40 .f32) (x7 : FVec Ideal S40 .f32) :
    layer2F (F := Ideal) sc dc h x5 x6 x7 = RefExpr.layer2 sc dc h x5 x6 x7 := rfl
theorem tailArrF_ideal (o : FVec Ideal S100000x40 .f32) : tailArrF (F := Ideal) o = RefExpr.tailArr o := rfl

/-- The composed stages are the network of the specification, first arrangement. -/
theorem expr_eq_netRef (sc dc : Cert.Sage.Col) (x0 : FVec Ideal S100000x64 .f32) (x2 x3 : FVec Ideal S64x16 .f32) (x4 : FVec Ideal S16 .f32)
    (x5 x6 : FVec Ideal S16x40 .f32) (x7 : FVec Ideal S40 .f32) :
    RefExpr.tailArr (RefExpr.layer2 sc dc (RefExpr.layer1 sc dc x0 x2 x3 x4) x5 x6 x7) = netRef sc dc x0 x2 x3 x4 x5 x6 x7 := by
  funext i
  obtain ⟨n, j, rfl⟩ : ∃ (n : Fin 100000) (j : Fin 40), i = ix2 n j := ⟨i 0, i 1, eq_ix2 i⟩
  rw [RefExpr.tailArr_apply, RefExpr.layer1_eq]
  refine Eq.trans ?_ (rfl : netRefAt sc dc x0 x2 x3 x4 x5 x6 x7 n j = netRef sc dc x0 x2 x3 x4 x5 x6 x7 (ix2 n j))
  unfold netRefAt
  exact congrArg (fun o => lsmAt o j) (funext fun j' => RefExpr.layer2_apply sc dc _ x5 x6 x7 n j')

/-- The fold over the launch contents is the network of the argument arrays. -/
theorem value_eq (m : (ℓ : Loc Cert.ReferenceIdeal.nD Cert.ReferenceIdeal.τ Cert.ReferenceIdeal.sig) → Buf (Elt Ideal) ℓ)
    (c : Dev Cert.ReferenceIdeal.nD) :
    after (ops (F := Ideal)) (launchContents m c) (Proc.devRef .tc main_v55)
      = netRef (srcCol (m ((c.tc : Thread Cert.ReferenceIdeal.nD Cert.ReferenceIdeal.τ).loc main_arg1))) (dstCol (m ((c.tc : Thread Cert.ReferenceIdeal.nD Cert.ReferenceIdeal.τ).loc main_arg1))) (m ((c.tc : Thread Cert.ReferenceIdeal.nD Cert.ReferenceIdeal.τ).loc main_arg0)) (m ((c.tc : Thread Cert.ReferenceIdeal.nD Cert.ReferenceIdeal.τ).loc main_arg2)) (m ((c.tc : Thread Cert.ReferenceIdeal.nD Cert.ReferenceIdeal.τ).loc main_arg3)) (m ((c.tc : Thread Cert.ReferenceIdeal.nD Cert.ReferenceIdeal.τ).loc main_arg4)) (m ((c.tc : Thread Cert.ReferenceIdeal.nD Cert.ReferenceIdeal.τ).loc main_arg5)) (m ((c.tc : Thread Cert.ReferenceIdeal.nD Cert.ReferenceIdeal.τ).loc main_arg6)) (m ((c.tc : Thread Cert.ReferenceIdeal.nD Cert.ReferenceIdeal.τ).loc main_arg7)) := by
  rw [fold_generic, tailArrF_ideal, layer2F_ideal, layer1F_ideal]
  exact expr_eq_netRef _ _ _ _ _ _ _ _ _

/-- Every weakly fair execution of the reference program terminates with its result the network of its argument
    arrays, first arrangement, and the arguments unchanged. -/
theorem run_value (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc main_v55)
            = Cert.Sage.netRef (srcCol (m ((c.tc : Thread Cert.ReferenceIdeal.nD Cert.ReferenceIdeal.τ).loc main_arg1))) (dstCol (m ((c.tc : Thread Cert.ReferenceIdeal.nD Cert.ReferenceIdeal.τ).loc main_arg1))) (m ((c.tc : Thread Cert.ReferenceIdeal.nD Cert.ReferenceIdeal.τ).loc main_arg0)) (m ((c.tc : Thread Cert.ReferenceIdeal.nD Cert.ReferenceIdeal.τ).loc main_arg2)) (m ((c.tc : Thread Cert.ReferenceIdeal.nD Cert.ReferenceIdeal.τ).loc main_arg3)) (m ((c.tc : Thread Cert.ReferenceIdeal.nD Cert.ReferenceIdeal.τ).loc main_arg4)) (m ((c.tc : Thread Cert.ReferenceIdeal.nD Cert.ReferenceIdeal.τ).loc main_arg5)) (m ((c.tc : Thread Cert.ReferenceIdeal.nD Cert.ReferenceIdeal.τ).loc main_arg6)) (m ((c.tc : Thread Cert.ReferenceIdeal.nD Cert.ReferenceIdeal.τ).loc main_arg7))
        ∧ r.2.mem ((c.tc : Thread Cert.ReferenceIdeal.nD Cert.ReferenceIdeal.τ).loc main_arg0) = m ((c.tc : Thread Cert.ReferenceIdeal.nD Cert.ReferenceIdeal.τ).loc main_arg0)
        ∧ r.2.mem ((c.tc : Thread Cert.ReferenceIdeal.nD Cert.ReferenceIdeal.τ).loc main_arg1) = m ((c.tc : Thread Cert.ReferenceIdeal.nD Cert.ReferenceIdeal.τ).loc main_arg1)
        ∧ r.2.mem ((c.tc : Thread Cert.ReferenceIdeal.nD Cert.ReferenceIdeal.τ).loc main_arg2) = m ((c.tc : Thread Cert.ReferenceIdeal.nD Cert.ReferenceIdeal.τ).loc main_arg2)
        ∧ r.2.mem ((c.tc : Thread Cert.ReferenceIdeal.nD Cert.ReferenceIdeal.τ).loc main_arg3) = m ((c.tc : Thread Cert.ReferenceIdeal.nD Cert.ReferenceIdeal.τ).loc main_arg3)
        ∧ r.2.mem ((c.tc : Thread Cert.ReferenceIdeal.nD Cert.ReferenceIdeal.τ).loc main_arg4) = m ((c.tc : Thread Cert.ReferenceIdeal.nD Cert.ReferenceIdeal.τ).loc main_arg4)
        ∧ r.2.mem ((c.tc : Thread Cert.ReferenceIdeal.nD Cert.ReferenceIdeal.τ).loc main_arg5) = m ((c.tc : Thread Cert.ReferenceIdeal.nD Cert.ReferenceIdeal.τ).loc main_arg5)
        ∧ r.2.mem ((c.tc : Thread Cert.ReferenceIdeal.nD Cert.ReferenceIdeal.τ).loc main_arg6) = m ((c.tc : Thread Cert.ReferenceIdeal.nD Cert.ReferenceIdeal.τ).loc main_arg6)
        ∧ r.2.mem ((c.tc : Thread Cert.ReferenceIdeal.nD Cert.ReferenceIdeal.τ).loc main_arg7) = m ((c.tc : Thread Cert.ReferenceIdeal.nD Cert.ReferenceIdeal.τ).loc main_arg7)) :=
  (θ_run _ _ _).mono (fun _ h c => ⟨(h c).1.trans (value_eq m c), (h c).2⟩) (Cert.ReferenceIdeal.ValueP.run (F := Ideal) m ρ)

end Cert.ReferenceIdeal.RefValue

end
-- ==== Proof.Algebra.lean ====
/-
  The two arrangements of the graph network agree.

  Layer two: dividing an extended real by a nonzero real count is the same as multiplying it by the reciprocal of
  that count, for every extended real, so the two spellings of layer two agree with no side condition.

  Layer one: the second arrangement multiplies every row by the neighbour weights before summing along the edges,
  the first sums the rows, divides by the count and then multiplies. Interchanging the two finite sums and pulling
  the common factor out uses distributivity, which fails on the extended reals at the infinities; when every entry
  of the node matrix and of the neighbour weights is a real number, both sides are the image of one real number, and
  the identity is proved among the reals.
-/
import proofs.«106231_j40518721470745_2_alg».proof.Proof.Spec

noncomputable section

open scoped BigOperators

namespace Cert.Sage

open Idealize.ShloMosaic Idealize.ShloMosaic.ValueIdx

/-! ## The constant one and the counts -/

/-- The single-precision word `0x3F800000` denotes the number one. -/
theorem c1_eq_one : c1 = 1 := by
  simp [c1, Ideal.ofBits, Ideal.ieee, -EReal.coe_mul]; norm_num

/-- The inclusion of the reals in the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The number of edges sent to a node is a nonnegative real: a finite sum of ones and zeros. -/
theorem deg_real (dc : Col) (n : Fin 100000) : ∃ r : ℝ, 0 ≤ r ∧ deg dc n = (r : EReal) := by
  refine ⟨∑ e : Fin 1200000, if (dc (ix2 e (0 : Fin 1))).toInt = (n.val : ℤ) then (1 : ℝ) else 0, ?_, ?_⟩
  · refine Finset.sum_nonneg fun e _ => ?_
    split_ifs
    · exact zero_le_one
    · exact le_rfl
  · rw [deg, zero_add, coe_finset_sum]
    refine Finset.sum_congr rfl fun e _ => ?_
    split_ifs
    · rw [c1_eq_one, EReal.coe_one]
    · rw [EReal.coe_zero]

/-- The count, at least one, is a nonzero real. -/
theorem dmax_real (dc : Col) (n : Fin 100000) : ∃ d : ℝ, d ≠ 0 ∧ dmax dc n = (d : EReal) := by
  obtain ⟨r, _, h⟩ := deg_real dc n
  refine ⟨max r 1, ?_, ?_⟩
  · have h1 : (0 : ℝ) < max r 1 := lt_of_lt_of_le one_pos (le_max_right _ _)
    exact h1.ne'
  · rw [dmax, h, c1_eq_one, ← EReal.coe_one]
    exact (EReal.coe_strictMono.monotone.map_max (a := r) (b := 1)).symm

/-- Dividing one by a nonzero real gives the reciprocal. -/
theorem div_c1_coe {d : ℝ} (hd : d ≠ 0) : Ideal.div c1 (d : EReal) = ((1 / d : ℝ) : EReal) := by
  rw [c1_eq_one, Ideal.div_coe hd, one_mul]

/-! ## Layer two -/

theorem outKerAt_eq_outRefAt (sc dc : Col) (h : FVec Ideal (⟨2, ![100000, 16]⟩ : Shape) .f32)
    (W2s W2n : FVec Ideal (⟨2, ![16, 40]⟩ : Shape) .f32) (b2 : FVec Ideal (⟨1, ![40]⟩ : Shape) .f32)
    (n : Fin 100000) (j : Fin 40) :
    outKerAt sc dc h W2s W2n b2 n j = outRefAt sc dc h W2s W2n b2 n j := by
  obtain ⟨d, hd, hdm⟩ := dmax_real dc n
  unfold outKerAt outRefAt
  rw [hdm, div_c1_coe hd]
  refine congrArg (fun t => (lin h W2s n j + t) + b2 (ix1 j)) ?_
  refine Finset.sum_congr rfl fun q _ => ?_
  rw [Ideal.div_coe hd]

/-! ## Layer one -/

/-- Among the reals: a sum along the selected edges of rows already multiplied by a weight column, scaled by `c`,
    is the weight column applied to the scaled sums of the rows. -/
theorem real_rearrange {E Q : Type*} [Fintype E] [Fintype Q] (P : E → Prop) [DecidablePred P]
    (a : E → Q → ℝ) (w : Q → ℝ) (c : ℝ) :
    (∑ e, if P e then ∑ q, a e q * w q else 0) * c
      = ∑ q, ((∑ e, if P e then a e q else 0) * c) * w q := by
  have hR : ∀ q, ((∑ e, if P e then a e q else 0) * c) * w q = ∑ e, (if P e then a e q else 0) * c * w q := by
    intro q
    rw [Finset.sum_mul, Finset.sum_mul]
  rw [Finset.sum_mul, Finset.sum_congr rfl fun q _ => hR q, Finset.sum_comm]
  refine Finset.sum_congr rfl fun e _ => ?_
  split_ifs
  · rw [Finset.sum_mul]
    refine Finset.sum_congr rfl fun q _ => ?_
    ring
  · simp only [zero_mul, Finset.sum_const_zero]

/-- When every entry of `v` is a real, so is every entry of its sum along the edges sent to a node. -/
theorem aggr_coe {B : ℕ} (sc dc : Col) (v : FVec Ideal (⟨2, ![100000, B]⟩ : Shape) .f32)
    (vr : (⟨2, ![100000, B]⟩ : Shape).Idx → ℝ) (hv : ∀ i, v i = (vr i : EReal)) (n : Fin 100000) (k : Fin B) :
    aggr sc dc v n k
      = ((∑ e : Fin 1200000, if (dc (ix2 e (0 : Fin 1))).toInt = (n.val : ℤ) then vr (ix2 (srcRow sc e) k) else 0 : ℝ) : EReal) := by
  rw [aggr, zero_add, coe_finset_sum]
  refine Finset.sum_congr rfl fun e _ => ?_
  split_ifs
  · exact hv _
  · rw [EReal.coe_zero]

/-- The neighbour term of layer one, in the two arrangements, for real entries. -/
theorem neigh_eq (sc dc : Col) (x : FVec Ideal (⟨2, ![100000, 64]⟩ : Shape) .f32)
    (W1n : FVec Ideal (⟨2, ![64, 16]⟩ : Shape) .f32)
    (hx : ∀ i, ∃ r : ℝ, x i = (r : EReal)) (hW : ∀ i, ∃ r : ℝ, W1n i = (r : EReal))
    (n : Fin 100000) (j : Fin 16) :
    aggr sc dc (linM x W1n) n j * Ideal.div c1 (dmax dc n)
      = ∑ q : Fin 64, Ideal.div (aggr sc dc x n q) (dmax dc n) * W1n (ix2 q j) := by
  choose xr hxr using hx
  choose wr hwr using hW
  obtain ⟨d, hd, hdm⟩ := dmax_real dc n
  -- the product matrix has real entries
  have hlin : ∀ i : (⟨2, ![100000, 16]⟩ : Shape).Idx,
      linM x W1n i = ((∑ q : Fin 64, xr (ix2 (i 0) q) * wr (ix2 q (i 1)) : ℝ) : EReal) := by
    intro i
    unfold linM lin
    rw [coe_finset_sum]
    refine Finset.sum_congr rfl fun q _ => ?_
    rw [hxr, hwr, EReal.coe_mul]
  rw [hdm, div_c1_coe hd, aggr_coe sc dc (linM x W1n) _ hlin n j, ← EReal.coe_mul]
  have hR : ∀ q : Fin 64, Ideal.div (aggr sc dc x n q) (d : EReal) * W1n (ix2 q j)
      = (((∑ e : Fin 1200000, if (dc (ix2 e (0 : Fin 1))).toInt = (n.val : ℤ) then xr (ix2 (srcRow sc e) q) else 0)
          * (1 / d)) * wr (ix2 q j) : ℝ) := by
    intro q
    rw [Ideal.div_coe hd, aggr_coe sc dc x xr hxr n q, hwr, ← EReal.coe_mul, ← EReal.coe_mul]
  rw [Finset.sum_congr rfl fun q _ => hR q, ← coe_finset_sum]
  exact congrArg _ (real_rearrange (fun e : Fin 1200000 => (dc (ix2 e (0 : Fin 1))).toInt = (n.val : ℤ))
    (fun e q => xr (ix2 (srcRow sc e) q)) (fun q => wr (ix2 q j)) (1 / d))

theorem hKerAt_eq_hRefAt (sc dc : Col) (x : FVec Ideal (⟨2, ![100000, 64]⟩ : Shape) .f32)
    (W1s W1n : FVec Ideal (⟨2, ![64, 16]⟩ : Shape) .f32) (b1 : FVec Ideal (⟨1, ![16]⟩ : Shape) .f32)
    (hx : ∀ i, ∃ r : ℝ, x i = (r : EReal)) (hW : ∀ i, ∃ r : ℝ, W1n i = (r : EReal))
    (n : Fin 100000) (j : Fin 16) :
    hKerAt sc dc x W1s W1n b1 n j = hRefAt sc dc x W1s W1n b1 n j := by
  unfold hKerAt hRefAt
  rw [neigh_eq sc dc x W1n hx hW n j]

theorem hKer_eq_hRef (sc dc : Col) (x : FVec Ideal (⟨2, ![100000, 64]⟩ : Shape) .f32)
    (W1s W1n : FVec Ideal (⟨2, ![64, 16]⟩ : Shape) .f32) (b1 : FVec Ideal (⟨1, ![16]⟩ : Shape) .f32)
    (hx : ∀ i, ∃ r : ℝ, x i = (r : EReal)) (hW : ∀ i, ∃ r : ℝ, W1n i = (r : EReal)) :
    hKer sc dc x W1s W1n b1 = hRef sc dc x W1s W1n b1 := by
  funext i
  exact hKerAt_eq_hRefAt sc dc x W1s W1n b1 hx hW (i 0) (i 1)

/-! ## The network -/

theorem netKer_eq_netRef (sc dc : Col) (x : FVec Ideal (⟨2, ![100000, 64]⟩ : Shape) .f32)
    (W1s W1n : FVec Ideal (⟨2, ![64, 16]⟩ : Shape) .f32) (b1 : FVec Ideal (⟨1, ![16]⟩ : Shape) .f32)
    (W2s W2n : FVec Ideal (⟨2, ![16, 40]⟩ : Shape) .f32) (b2 : FVec Ideal (⟨1, ![40]⟩ : Shape) .f32)
    (hx : ∀ i, ∃ r : ℝ, x i = (r : EReal)) (hW : ∀ i, ∃ r : ℝ, W1n i = (r : EReal)) :
    netKer sc dc x W1s W1n b1 W2s W2n b2 = netRef sc dc x W1s W1n b1 W2s W2n b2 := by
  funext i
  unfold netKer netRef netKerAt netRefAt
  rw [hKer_eq_hRef sc dc x W1s W1n b1 hx hW]
  refine congrArg (fun o => lsmAt o (i 1)) ?_
  funext j'
  exact outKerAt_eq_outRefAt sc dc _ W2s W2n b2 (i 0) j'

end Cert.Sage

end
-- ==== Proof.Finite.lean ====
/-
  From the precondition to finiteness of the two arrays layer one's algebra needs.

  The precondition is a conjunction of eight statements "every entry of this array has absolute value below plus
  infinity". Each conjunct is a reduction by "and" over all the entries of an array of truth values, so when the
  conjunction is true every entry's comparison is true. An extended real whose absolute value max(a, -a) is strictly
  below plus infinity is neither infinity, hence a real number.
-/
import proofs.«106231_j40518721470745_2_alg».proof.Defs
import proofs.«106231_j40518721470745_2_alg».proof.Proof.Gen.Pre_finite_inputs
import Idealize.ShloMosaic.Lib.ReduceAll
import Idealize.ShloMosaic.Lib.ValueIdx
import Idealize.ShloMosaic.PureOps.Ideal.Laws

noncomputable section

namespace Cert.Sage.Fin

open Idealize.ShloMosaic Idealize.SL.Sem

/-- The single-precision word `0x7F800000` denotes plus infinity. -/
theorem ofBits_inf : Ideal.ofBits .f32 0x7F800000#32 = ⊤ := by
  simp [Ideal.ofBits, Ideal.ieee]

/-- An extended real whose absolute value is strictly below plus infinity is a real. -/
theorem real_of_abs_lt (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

/-- The shape with no axes has exactly one index. -/
instance : Subsingleton Cert.Pre_finite_inputs.S_.Idx := ⟨fun a b => funext fun d => d.elim0⟩

/-- One conjunct of the precondition, read back at an entry. -/
theorem entry_real {S : Shape} (a : FVec Ideal S .f32) (hb : Cert.Pre_finite_inputs.S_.BroadcastsInDim S (![] : Fin 0 → Fin S.rank))
    {axes : List (Fin S.rank)} (hr : S.ReducesTo axes Cert.Pre_finite_inputs.S_) (hu : 0 < Cert.Pre_finite_inputs.S_.numel)
    (h : Host.reduce IntOp.andi
          (cmpf .olt (Host.absf a) (broadcastInDim S ![] hb (constant Cert.Pre_finite_inputs.S_ .f32 0x7F800000#32)))
          (constantI Cert.Pre_finite_inputs.S_ 1 1#1) hr hu ValueIdx.ix0 = 1#1)
    (i : S.Idx) : ∃ r : ℝ, a i = (r : EReal) :=
  real_of_abs_lt (a i) (Host.reduce_andi_all _ _ hr hu ValueIdx.ix0 h i)

/-- When the precondition's function is all ones, the first and the fourth argument arrays have real entries. -/
theorem args_real [Cert.Pre_finite_inputs.Facts]
    (a0 : FVec Ideal Cert.Pre_finite_inputs.S100000x64 .f32) (a1 : IVec Cert.Pre_finite_inputs.S2x1200000 32)
    (a2 a3 : FVec Ideal Cert.Pre_finite_inputs.S64x16 .f32) (a4 : FVec Ideal Cert.Pre_finite_inputs.S16 .f32)
    (a5 a6 : FVec Ideal Cert.Pre_finite_inputs.S16x40 .f32) (a7 : FVec Ideal Cert.Pre_finite_inputs.S40 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a3 i = (r : EReal)) := by
  have h0 := congrFun h ValueIdx.ix0
  dsimp only [Cert.Pre_finite_inputs.fn, Cert.Pre_finite_inputs.fn_part1, andi] at h0
  obtain ⟨h28, -⟩ := IntOp.andi_eq_one.1 h0
  obtain ⟨h23, -⟩ := IntOp.andi_eq_one.1 h28
  obtain ⟨h18, -⟩ := IntOp.andi_eq_one.1 h23
  obtain ⟨h13, -⟩ := IntOp.andi_eq_one.1 h18
  obtain ⟨h8, h12⟩ := IntOp.andi_eq_one.1 h13
  obtain ⟨h3, -⟩ := IntOp.andi_eq_one.1 h8
  exact ⟨entry_real a0 _ _ _ h3, entry_real a3 _ _ _ h12⟩

theorem x_real (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, ∃ r : ℝ, m ((c.tc : Thread Cert.KernelIdeal.nD Cert.KernelIdeal.τ).loc Cert.KernelIdeal.main_arg0) i = (r : EReal) :=
  (args_real _ _ _ _ _ _ _ _ (h c)).1

theorem W1n_real (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    ∀ i, ∃ r : ℝ, m ((c.tc : Thread Cert.KernelIdeal.nD Cert.KernelIdeal.τ).loc Cert.KernelIdeal.main_arg3) i = (r : EReal) :=
  (args_real _ _ _ _ _ _ _ _ (h c)).2

end Cert.Sage.Fin

end
-- ==== Proof.lean ====
/-
  The certificate: a three-launch kernel program for a two-layer graph network agrees, on the extended reals, with
  the plain host reference.

  Each layer maps node rows v to  v·Wself + mean(v)·Wneigh + b,  where mean(v) at a node is the sum of the rows its
  in-neighbours hold divided by their number (at least one); between the layers the positive part is taken, and at the
  end the log-softmax of each row. The reference divides the sum of feature rows by the count and then multiplies by
  the neighbour weights. The kernel program, in layer one, multiplies every feature row by the neighbour weights first,
  adds the products up along the edges, and scales by the reciprocal of the count; in layer two it multiplies the sum of
  rows by the reciprocal where the reference divides.

  Both programs read the edge list through the same two columns of row numbers, so both results are the
  specification's network over those columns, in its two arrangements (the kernel program's: the fold through its
  launches; the reference's: its run read stage by stage). The arrangements agree: a quotient by a nonzero real count
  is the product with its reciprocal for every extended real, which settles layer two; layer one moves a product
  through a finite sum, which holds where the features and the neighbour weights are real numbers, as the
  precondition says they are.

  The three frames are the generated frames of the two kernel programs and the reference's run with its result
  dropped; the idealization rewrote nothing, so there is nothing to preserve.
-/
import proofs.«106231_j40518721470745_2_alg».proof.Defs
import proofs.«106231_j40518721470745_2_alg».proof.Proof.Gen.Kernel
import proofs.«106231_j40518721470745_2_alg».proof.Proof.Gen.Kernel.Frame
import proofs.«106231_j40518721470745_2_alg».proof.Proof.Gen.KernelIdeal
import proofs.«106231_j40518721470745_2_alg».proof.Proof.Gen.KernelIdeal.Frame
import proofs.«106231_j40518721470745_2_alg».proof.Proof.Gen.ReferenceIdeal
import proofs.«106231_j40518721470745_2_alg».proof.Proof.Gen.Pre_finite_inputs
import proofs.«106231_j40518721470745_2_alg».proof.Proof.KRun
import proofs.«106231_j40518721470745_2_alg».proof.Proof.KValue
import proofs.«106231_j40518721470745_2_alg».proof.Proof.RefValue
import proofs.«106231_j40518721470745_2_alg».proof.Proof.Algebra
import proofs.«106231_j40518721470745_2_alg».proof.Proof.Finite
import Idealize.ShloMosaic.Adequacy
import Idealize.ShloMosaic.Init

noncomputable section

namespace Cert.Proof

open Idealize.ShloMosaic Idealize.SL.Sem

/-- Both programs cut the same column of source numbers out of the edge list … -/
theorem srcCol_eq : Cert.ReferenceIdeal.RefValue.srcCol = Cert.KernelIdeal.KHost.srcCol := rfl

/-- … and the same column of destination numbers. -/
theorem dstCol_eq : Cert.ReferenceIdeal.RefValue.dstCol = Cert.KernelIdeal.KHost.dstCol := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run_value m ρ)

/-- From memories agreeing on the arguments both programs end with the network of the specification in the result
    array: the kernel program in the arrangement that multiplies before adding up, the reference in the one that
    averages first, and the two agree where the features and the neighbour weights of layer one are real. -/
theorem algebraic : Cert.algebraic_KernelIdeal_ReferenceIdeal := by
  intro m ρ m' ρ' hpre hagree
  refine ⟨fun c => Cert.Sage.netKer (Cert.KernelIdeal.KHost.srcCol (m ((c.tc : Thread Cert.KernelIdeal.nD Cert.KernelIdeal.τ).loc Cert.KernelIdeal.main_arg1))) (Cert.KernelIdeal.KHost.dstCol (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KValue.W6_v39 m ρ c), (h c).2⟩)
      (Cert.KernelIdeal.KRun.run_result m ρ)
  · refine (θ_run Cert.ReferenceIdeal.defs _ _).mono (fun r h c => ⟨(h c).1.trans ?_, (h c).2⟩)
      (Cert.ReferenceIdeal.RefValue.run_value m' ρ')
    obtain ⟨e0, e1, e2, e3, e4, e5, e6, e7⟩ := hagree c
    rw [e0, e1, e2, e3, e4, e5, e6, e7, srcCol_eq, dstCol_eq]
    exact (Cert.Sage.netKer_eq_netRef _ _ _ _ _ _ _ _ _
      (Cert.Sage.Fin.x_real m hpre c) (Cert.Sage.Fin.W1n_real m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
